-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩
abbrev S5000 : Shape := ⟨1, ![5000]⟩

abbrev nBuf : Space → Nat
  | .hbm => 126
  | .vmem => 57
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S128x128, .f32⟩
  | .hbm, ⟨45, _⟩ => ⟨S128x128, .f32⟩
  | .hbm, ⟨46, _⟩ => ⟨S50000x1, .f32⟩
  | .hbm, ⟨47, _⟩ => ⟨S1x128, .f32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S128x128, .f32⟩
  | .hbm, ⟨83, _⟩ => ⟨S128x128, .f32⟩
  | .hbm, ⟨84, _⟩ => ⟨S50000x1, .f32⟩
  | .hbm, ⟨85, _⟩ => ⟨S1x128, .f32⟩
  | .hbm, ⟨86, _⟩ => ⟨S50000x128, .f32⟩
  | .hbm, ⟨87, _⟩ => ⟨S1x128, .f32⟩
  | .hbm, ⟨88, _⟩ => ⟨S1x128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S_, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S50000x128, .f32⟩
  | .hbm, ⟨107, _⟩ => ⟨S128x64, .f32⟩
  | .hbm, ⟨108, _⟩ => ⟨S128x64, .f32⟩
  | .hbm, ⟨109, _⟩ => ⟨S50000x64, .f32⟩
  | .hbm, ⟨110, _⟩ => ⟨S_, .i32⟩
  | .hbm, ⟨111, _⟩ => ⟨S800000, .i32⟩
  | .hbm, ⟨112, _⟩ => ⟨S800000, .i1⟩
  | .hbm, ⟨113, _⟩ => ⟨S_, .i32⟩
  | .hbm, ⟨114, _⟩ => ⟨S800000, .i32⟩
  | .hbm, ⟨115, _⟩ => ⟨S800000, .i32⟩
  | .hbm, ⟨116, _⟩ => ⟨S800000, .i32⟩
  | .hbm, ⟨117, _⟩ => ⟨S800000x1, .i32⟩
  | .hbm, ⟨118, _⟩ => ⟨S800000x64, .f32⟩
  | .hbm, ⟨119, _⟩ => ⟨S_, .f32⟩
  | .hbm, ⟨120, _⟩ => ⟨S50000x64, .f32⟩
  | .hbm, ⟨121, _⟩ => ⟨S800000x1, .i32⟩
  | .hbm, ⟨122, _⟩ => ⟨S50000x64, .f32⟩
  | .hbm, ⟨123, _⟩ => ⟨S50000x1, .f32⟩
  | .hbm, ⟨124, _⟩ => ⟨S1x64, .f32⟩
  | .hbm, ⟨125, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x1, .f32⟩
  | .local _ .vmem, ⟨50, _⟩ => ⟨S5000x1, .f32⟩
  | .local _ .vmem, ⟨51, _⟩ => ⟨S5000x128, .f32⟩
  | .local _ .vmem, ⟨52, _⟩ => ⟨S5000x128, .f32⟩
  | .local _ .vmem, ⟨53, _⟩ => ⟨S128x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56_0 : Ref sig .tc := ⟨.hbm, 86, rfl⟩
abbrev main_v56_1 : Ref sig .tc := ⟨.hbm, 87, rfl⟩
abbrev main_v56_2 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg2_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem8_0 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem2_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem5_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S50000_S50000x1 : S50000.ShapeCasts S50000x1
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S5000x128 : S1x128.Broadcasts S5000x128
  reduces_S5000x128_S128 : S5000x128.Reduces [0] S128
  shapeCasts_S1x128_S128 : S1x128.ShapeCasts S128
  bcast_S_S128 : S_.BroadcastsInDim S128 (![] : Fin 0 → Fin S128.rank)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v26_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v56_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v56_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v56_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S128, .f32⟩
  | 12 => ⟨S128, .f32⟩
  | 13 => ⟨S128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S1x128, .f32⟩
  | 47 => ⟨S50000x128, .f32⟩
  | 48 => ⟨S50000x128, .f32⟩
  | 49 => ⟨S128x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S50000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S_, .f32⟩
  | 86 => ⟨S800000, .f32⟩
  | 87 => ⟨S_, .f32⟩
  | 88 => ⟨S50000, .f32⟩
  | 89 => ⟨S800000x1, .i32⟩
  | 90 => ⟨S50000, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S50000, .f32⟩
  | 106 => ⟨S50000, .f32⟩
  | 107 => ⟨S50000x1, .f32⟩
  | 108 => ⟨S50000x128, .f32⟩
  | 109 => ⟨S50000x128, .f32⟩
  | 110 => ⟨S128x128, .f32⟩
  | 111 => ⟨S50000x128, .f32⟩
  | 112 => ⟨S1x128, .f32⟩
  | 113 => ⟨S50000x128, .f32⟩
  | 114 => ⟨S50000x128, .f32⟩
  | 115 => ⟨S128x128, .f32⟩
  | 116 => ⟨S50000x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S128x64, .f32⟩
  | 49 => ⟨S50000x64, .f32⟩
  | 50 => ⟨S1x64, .f32⟩
  | 51 => ⟨S50000x64, .f32⟩
  | 52 => ⟨S50000x64, .f32⟩
  | 53 => ⟨S128x64, .f32⟩
  | 54 => ⟨S50000x64, .f32⟩
  | 55 => ⟨S50000x64, .f32⟩
  | 56 => ⟨S_, .f32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x64, .f32⟩
  | 63 => ⟨S50000x64, .f32⟩
  | 64 => ⟨S50000x64, .f32⟩
  | 65 => ⟨S_, .f32⟩
  | 66 => ⟨S50000, .f32⟩
  | 67 => ⟨S50000x1, .f32⟩
  | 68 => ⟨S50000x64, .f32⟩
  | 69 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_cst_18 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_19 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call1_cst : Ref sig .tc := ⟨.hbm, 148, rfl⟩
abbrev main_call1_v0 : Ref sig .tc := ⟨.hbm, 149, rfl⟩
abbrev main_v109 : Ref sig .tc := ⟨.hbm, 150, rfl⟩
abbrev main_cst_20 : Ref sig .tc := ⟨.hbm, 151, rfl⟩
abbrev main_v110 : Ref sig .tc := ⟨.hbm, 152, rfl⟩
abbrev main_cst_21 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_22 : Ref sig .tc := ⟨.hbm, 157, rfl⟩
abbrev main_v114 : Ref sig .tc := ⟨.hbm, 158, rfl⟩
abbrev main_v115 : Ref sig .tc := ⟨.hbm, 159, rfl⟩
abbrev main_c_23 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_24 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_25 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_26 : Ref sig .tc := ⟨.hbm, 184, rfl⟩
abbrev main_v137 : Ref sig .tc := ⟨.hbm, 185, rfl⟩
abbrev main_cst_27 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_28 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with its result named.
  Every weakly fair execution of the program from a memory with zero counters terminates without a fault, and in the
  final state the result buffer holds what the fold of the program's twelve segments leaves in it (the contents after
  the last region, `W12`), while every argument array is as launched. This is the frame's own argument — the twelve
  segments chained, the last thread state read against the final state — kept one conjunct longer: the result buffer
  is an unscoped buffer like the arguments, so the same reading gives its contents.
-/
import proofs.«126719_j90941637525590_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_named : θ_run defs (onTc (τ := τ) (main (F := F))) ⟨m, fun _ => 0, ρ⟩ (fun r => ∀ c : Dev nD,
      r.2.mem ((c.tc : Thread nD τ).loc main_v87) = W12 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v87 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c)⟩)

end Cert.KernelIdeal.KRun

end
-- ==== Proof.KHost.lean ====
/-
  What the idealized kernel's six stretches of host operations leave, as whole-array functions of what they start from.
  Before the first region: the edges' source and destination nodes, the reciprocal of every node's degree floored at
  one (computed once, used by all three layers), the sum of the source features per destination node, the transposed
  weights, the reciprocals as a column and the bias as a row. Between a dense-update region and its normalising
  region: every column's mean `S / n` and floored variance `max(Q / n - mean², 0)` from the accumulated column sums, as
  rows. Before the later dense updates: the aggregation of the layer's input again; before the last one the aggregation
  of the already projected, 64-wide features. A stretch leaves every buffer it does not write as it found it.
-/
import proofs.«126719_j90941637525590_2_alg».proof.Proof.Gen.KernelIdeal.Launch
import Idealize.ShloMosaic.Lib.StableHlo.Run

set_option maxRecDepth 8192

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

def srcOf (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000
def dstOf (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000
def idxCol (v : (⟨S800000, .i32⟩ : BufTy).Contents (Elt F)) : (⟨S800000x1, .i32⟩ : BufTy).Contents (Elt F) := broadcastInDim S800000x1 ![0] bcast_S800000_S800000x1_0 v
def srcCol (src : (⟨S800000, .i32⟩ : BufTy).Contents (Elt F)) : (⟨S800000x1, .i32⟩ : BufTy).Contents (Elt F) :=
  idxCol (select (cmpi .slt src (broadcastInDim S800000 ![] bcast_S_S800000 (constantI S_ 32 0#32)))
    (addi src (broadcastInDim S800000 ![] bcast_S_S800000 (constantI S_ 32 50000#32))) src)
def degOf (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (idxCol dst) (broadcastInDim S800000 ![] bcast_S_S800000 (constant S_ .f32 0x3F800000#32))
def maxDeg (dst : (⟨S800000, .i32⟩ : BufTy).Contents (Elt F)) : (⟨S50000, .f32⟩ : BufTy).Contents (Elt F) :=
  maximumf (degOf dst) (broadcastInDim S50000 ![] bcast_S_S50000 (constant S_ .f32 0x3F800000#32))
/-- The reciprocal of the degree floored at one. -/
def invDeg (dst : (⟨S800000, .i32⟩ : BufTy).Contents (Elt F)) : (⟨S50000, .f32⟩ : BufTy).Contents (Elt F) :=
  Host.divf (broadcastInDim S50000 ![] bcast_S_S50000 (constant S_ .f32 0x3F800000#32)) (maxDeg dst)
def aggOf (H : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (idxCol dst) (Host.gather gather_S50000x128_S800000x1_S800000x128_1_0_n_n_0_1_1128 H (srcCol src))
def agg64Of (P : (⟨S50000x64, .f32⟩ : BufTy).Contents (Elt F)) (src dst : (⟨S800000, .i32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32))
    (idxCol dst) (Host.gather gather_S50000x64_S800000x1_S800000x64_1_0_n_n_0_1_164 P (srcCol src))
def colOf (v : (⟨S50000, .f32⟩ : BufTy).Contents (Elt F)) : (⟨S50000x1, .f32⟩ : BufTy).Contents (Elt F) := shapeCast _ v shapeCasts_S50000_S50000x1
def row1 (v : (⟨S128, .f32⟩ : BufTy).Contents (Elt F)) : (⟨S1x128, .f32⟩ : BufTy).Contents (Elt F) := shapeCast _ v shapeCasts_S128_S1x128
def row1_64 (v : (⟨S64, .f32⟩ : BufTy).Contents (Elt F)) : (⟨S1x64, .f32⟩ : BufTy).Contents (Elt F) := shapeCast _ v shapeCasts_S64_S1x64
def tr (W : (⟨S128x128, .f32⟩ : BufTy).Contents (Elt F)) : (⟨S128x128, .f32⟩ : BufTy).Contents (Elt F) := transpose S128x128 [1, 0] W transposes_S128x128_S128x128_1_0
def tr64 (W : (⟨S64x128, .f32⟩ : BufTy).Contents (Elt F)) : (⟨S128x64, .f32⟩ : BufTy).Contents (Elt F) := transpose S128x64 [1, 0] W transposes_S64x128_S128x64_1_0
def nodes : (⟨S128, .f32⟩ : BufTy).Contents (Elt F) := broadcastInDim S128 ![] bcast_S_S128 (constant S_ .f32 0x47435000#32)
/-- Every column's mean, from the accumulated column sums. -/
def meanK (s : (⟨S1x128, .f32⟩ : BufTy).Contents (Elt F)) : (⟨S128, .f32⟩ : BufTy).Contents (Elt F) := Host.divf (shapeCast _ s shapeCasts_S1x128_S128) nodes
/-- Every column's floored variance, from the accumulated sums and sums of squares. -/
def varK (s q : (⟨S1x128, .f32⟩ : BufTy).Contents (Elt F)) : (⟨S128, .f32⟩ : BufTy).Contents (Elt F) :=
  maximumf (subf (Host.divf (shapeCast _ q shapeCasts_S1x128_S128) nodes) (mulf (meanK s) (meanK s)))
    (broadcastInDim S128 ![] bcast_S_S128 (constant S_ .f32 0x00000000#32))

/-! ## What each stretch leaves -/

theorem h0_main_v1 (V : Valuation τ sig (Elt F)) : after (hostOps0 (F := F)) V (Proc.devRef .tc main_v1)
    = srcOf (V (Proc.devRef .tc main_arg1)) := by
  after_results_simp <;> rfl
theorem h0_main_v3 (V : Valuation τ sig (Elt F)) : after (hostOps0 (F := F)) V (Proc.devRef .tc main_v3)
    = dstOf (V (Proc.devRef .tc main_arg1)) := by
  after_results_simp <;> rfl
theorem h0_main_v11 (V : Valuation τ sig (Elt F)) : after (hostOps0 (F := F)) V (Proc.devRef .tc main_v11)
    = invDeg (dstOf (V (Proc.devRef .tc main_arg1))) := by
  after_results_simp <;> rfl
theorem h0_main_v21 (V : Valuation τ sig (Elt F)) : after (hostOps0 (F := F)) V (Proc.devRef .tc main_v21)
    = aggOf (V (Proc.devRef .tc main_arg0)) (srcOf (V (Proc.devRef .tc main_arg1))) (dstOf (V (Proc.devRef .tc main_arg1))) := by
  after_results_simp <;> rfl
theorem h0_main_v22 (V : Valuation τ sig (Elt F)) : after (hostOps0 (F := F)) V (Proc.devRef .tc main_v22)
    = tr (V (Proc.devRef .tc main_arg2)) := by
  after_results_simp <;> rfl
theorem h0_main_v23 (V : Valuation τ sig (Elt F)) : after (hostOps0 (F := F)) V (Proc.devRef .tc main_v23)
    = tr (V (Proc.devRef .tc main_arg4)) := by
  after_results_simp <;> rfl
theorem h0_main_v24 (V : Valuation τ sig (Elt F)) : after (hostOps0 (F := F)) V (Proc.devRef .tc main_v24)
    = colOf (invDeg (dstOf (V (Proc.devRef .tc main_arg1)))) := by
  after_results_simp <;> rfl
theorem h0_main_v25 (V : Valuation τ sig (Elt F)) : after (hostOps0 (F := F)) V (Proc.devRef .tc main_v25)
    = row1 (V (Proc.devRef .tc main_arg3)) := by
  after_results_simp <;> rfl
theorem h1_main_v37 (V : Valuation τ sig (Elt F)) : after (hostOps1 (F := F)) V (Proc.devRef .tc main_v37)
    = row1 (meanK (V (Proc.devRef .tc main_v26_1))) := by
  after_results_simp <;> rfl
theorem h1_main_v38 (V : Valuation τ sig (Elt F)) : after (hostOps1 (F := F)) V (Proc.devRef .tc main_v38)
    = row1 (varK (V (Proc.devRef .tc main_v26_1)) (V (Proc.devRef .tc main_v26_2))) := by
  after_results_simp <;> rfl
theorem h1_main_v39 (V : Valuation τ sig (Elt F)) : after (hostOps1 (F := F)) V (Proc.devRef .tc main_v39)
    = row1 (V (Proc.devRef .tc main_arg11)) := by
  after_results_simp <;> rfl
theorem h1_main_v40 (V : Valuation τ sig (Elt F)) : after (hostOps1 (F := F)) V (Proc.devRef .tc main_v40)
    = row1 (V (Proc.devRef .tc main_arg12)) := by
  after_results_simp <;> rfl
theorem h2_main_v51 (V : Valuation τ sig (Elt F)) : after (hostOps2 (F := F)) V (Proc.devRef .tc main_v51)
    = aggOf (V (Proc.devRef .tc main_v41)) (V (Proc.devRef .tc main_v1)) (V (Proc.devRef .tc main_v3)) := by
  after_results_simp <;> rfl
theorem h2_main_v52 (V : Valuation τ sig (Elt F)) : after (hostOps2 (F := F)) V (Proc.devRef .tc main_v52)
    = tr (V (Proc.devRef .tc main_arg5)) := by
  after_results_simp <;> rfl
theorem h2_main_v53 (V : Valuation τ sig (Elt F)) : after (hostOps2 (F := F)) V (Proc.devRef .tc main_v53)
    = tr (V (Proc.devRef .tc main_arg7)) := by
  after_results_simp <;> rfl
theorem h2_main_v54 (V : Valuation τ sig (Elt F)) : after (hostOps2 (F := F)) V (Proc.devRef .tc main_v54)
    = colOf (V (Proc.devRef .tc main_v11)) := by
  after_results_simp <;> rfl
theorem h2_main_v55 (V : Valuation τ sig (Elt F)) : after (hostOps2 (F := F)) V (Proc.devRef .tc main_v55)
    = row1 (V (Proc.devRef .tc main_arg6)) := by
  after_results_simp <;> rfl
theorem h3_main_v67 (V : Valuation τ sig (Elt F)) : after (hostOps3 (F := F)) V (Proc.devRef .tc main_v67)
    = row1 (meanK (V (Proc.devRef .tc main_v56_1))) := by
  after_results_simp <;> rfl
theorem h3_main_v68 (V : Valuation τ sig (Elt F)) : after (hostOps3 (F := F)) V (Proc.devRef .tc main_v68)
    = row1 (varK (V (Proc.devRef .tc main_v56_1)) (V (Proc.devRef .tc main_v56_2))) := by
  after_results_simp <;> rfl
theorem h3_main_v69 (V : Valuation τ sig (Elt F)) : after (hostOps3 (F := F)) V (Proc.devRef .tc main_v69)
    = row1 (V (Proc.devRef .tc main_arg13)) := by
  after_results_simp <;> rfl
theorem h3_main_v70 (V : Valuation τ sig (Elt F)) : after (hostOps3 (F := F)) V (Proc.devRef .tc main_v70)
    = row1 (V (Proc.devRef .tc main_arg14)) := by
  after_results_simp <;> rfl
theorem h4_main_v72 (V : Valuation τ sig (Elt F)) : after (hostOps4 (F := F)) V (Proc.devRef .tc main_v72)
    = tr64 (V (Proc.devRef .tc main_arg8)) := by
  after_results_simp <;> rfl
theorem h4_main_v73 (V : Valuation τ sig (Elt F)) : after (hostOps4 (F := F)) V (Proc.devRef .tc main_v73)
    = tr64 (V (Proc.devRef .tc main_arg10)) := by
  after_results_simp <;> rfl
theorem h5_main_v84 (V : Valuation τ sig (Elt F)) : after (hostOps5 (F := F)) V (Proc.devRef .tc main_v84)
    = agg64Of (V (Proc.devRef .tc main_v74)) (V (Proc.devRef .tc main_v1)) (V (Proc.devRef .tc main_v3)) := by
  after_results_simp <;> rfl
theorem h5_main_v85 (V : Valuation τ sig (Elt F)) : after (hostOps5 (F := F)) V (Proc.devRef .tc main_v85)
    = colOf (V (Proc.devRef .tc main_v11)) := by
  after_results_simp <;> rfl
theorem h5_main_v86 (V : Valuation τ sig (Elt F)) : after (hostOps5 (F := F)) V (Proc.devRef .tc main_v86)
    = row1_64 (V (Proc.devRef .tc main_arg9)) := by
  after_results_simp <;> rfl

/-! ## Buffers a stretch does not write -/

theorem h0_keep_main_arg0 (V : Valuation τ sig (Elt F)) : after (hostOps0 (F := F)) V (Proc.devRef .tc main_arg0) = V (Proc.devRef .tc main_arg0) := by
  after_results_simp <;> rfl
theorem h0_keep_main_arg5 (V : Valuation τ sig (Elt F)) : after (hostOps0 (F := F)) V (Proc.devRef .tc main_arg5) = V (Proc.devRef .tc main_arg5) := by
  after_results_simp <;> rfl
theorem h0_keep_main_arg6 (V : Valuation τ sig (Elt F)) : after (hostOps0 (F := F)) V (Proc.devRef .tc main_arg6) = V (Proc.devRef .tc main_arg6) := by
  after_results_simp <;> rfl
theorem h0_keep_main_arg7 (V : Valuation τ sig (Elt F)) : after (hostOps0 (F := F)) V (Proc.devRef .tc main_arg7) = V (Proc.devRef .tc main_arg7) := by
  after_results_simp <;> rfl
theorem h0_keep_main_arg8 (V : Valuation τ sig (Elt F)) : after (hostOps0 (F := F)) V (Proc.devRef .tc main_arg8) = V (Proc.devRef .tc main_arg8) := by
  after_results_simp <;> rfl
theorem h0_keep_main_arg9 (V : Valuation τ sig (Elt F)) : after (hostOps0 (F := F)) V (Proc.devRef .tc main_arg9) = V (Proc.devRef .tc main_arg9) := by
  after_results_simp <;> rfl
theorem h0_keep_main_arg10 (V : Valuation τ sig (Elt F)) : after (hostOps0 (F := F)) V (Proc.devRef .tc main_arg10) = V (Proc.devRef .tc main_arg10) := by
  after_results_simp <;> rfl
theorem h0_keep_main_arg11 (V : Valuation τ sig (Elt F)) : after (hostOps0 (F := F)) V (Proc.devRef .tc main_arg11) = V (Proc.devRef .tc main_arg11) := by
  after_results_simp <;> rfl
theorem h0_keep_main_arg12 (V : Valuation τ sig (Elt F)) : after (hostOps0 (F := F)) V (Proc.devRef .tc main_arg12) = V (Proc.devRef .tc main_arg12) := by
  after_results_simp <;> rfl
theorem h0_keep_main_arg13 (V : Valuation τ sig (Elt F)) : after (hostOps0 (F := F)) V (Proc.devRef .tc main_arg13) = V (Proc.devRef .tc main_arg13) := by
  after_results_simp <;> rfl
theorem h0_keep_main_arg14 (V : Valuation τ sig (Elt F)) : after (hostOps0 (F := F)) V (Proc.devRef .tc main_arg14) = V (Proc.devRef .tc main_arg14) := by
  after_results_simp <;> rfl
theorem h1_keep_main_v26_0 (V : Valuation τ sig (Elt F)) : after (hostOps1 (F := F)) V (Proc.devRef .tc main_v26_0) = V (Proc.devRef .tc main_v26_0) := by
  after_results_simp <;> rfl
theorem h1_keep_main_v1 (V : Valuation τ sig (Elt F)) : after (hostOps1 (F := F)) V (Proc.devRef .tc main_v1) = V (Proc.devRef .tc main_v1) := by
  after_results_simp <;> rfl
theorem h1_keep_main_v3 (V : Valuation τ sig (Elt F)) : after (hostOps1 (F := F)) V (Proc.devRef .tc main_v3) = V (Proc.devRef .tc main_v3) := by
  after_results_simp <;> rfl
theorem h1_keep_main_v11 (V : Valuation τ sig (Elt F)) : after (hostOps1 (F := F)) V (Proc.devRef .tc main_v11) = V (Proc.devRef .tc main_v11) := by
  after_results_simp <;> rfl
theorem h1_keep_main_arg5 (V : Valuation τ sig (Elt F)) : after (hostOps1 (F := F)) V (Proc.devRef .tc main_arg5) = V (Proc.devRef .tc main_arg5) := by
  after_results_simp <;> rfl
theorem h1_keep_main_arg6 (V : Valuation τ sig (Elt F)) : after (hostOps1 (F := F)) V (Proc.devRef .tc main_arg6) = V (Proc.devRef .tc main_arg6) := by
  after_results_simp <;> rfl
theorem h1_keep_main_arg7 (V : Valuation τ sig (Elt F)) : after (hostOps1 (F := F)) V (Proc.devRef .tc main_arg7) = V (Proc.devRef .tc main_arg7) := by
  after_results_simp <;> rfl
theorem h1_keep_main_arg8 (V : Valuation τ sig (Elt F)) : after (hostOps1 (F := F)) V (Proc.devRef .tc main_arg8) = V (Proc.devRef .tc main_arg8) := by
  after_results_simp <;> rfl
theorem h1_keep_main_arg9 (V : Valuation τ sig (Elt F)) : after (hostOps1 (F := F)) V (Proc.devRef .tc main_arg9) = V (Proc.devRef .tc main_arg9) := by
  after_results_simp <;> rfl
theorem h1_keep_main_arg10 (V : Valuation τ sig (Elt F)) : after (hostOps1 (F := F)) V (Proc.devRef .tc main_arg10) = V (Proc.devRef .tc main_arg10) := by
  after_results_simp <;> rfl
theorem h1_keep_main_arg13 (V : Valuation τ sig (Elt F)) : after (hostOps1 (F := F)) V (Proc.devRef .tc main_arg13) = V (Proc.devRef .tc main_arg13) := by
  after_results_simp <;> rfl
theorem h1_keep_main_arg14 (V : Valuation τ sig (Elt F)) : after (hostOps1 (F := F)) V (Proc.devRef .tc main_arg14) = V (Proc.devRef .tc main_arg14) := by
  after_results_simp <;> rfl
theorem h2_keep_main_v41 (V : Valuation τ sig (Elt F)) : after (hostOps2 (F := F)) V (Proc.devRef .tc main_v41) = V (Proc.devRef .tc main_v41) := by
  after_results_simp <;> rfl
theorem h2_keep_main_v1 (V : Valuation τ sig (Elt F)) : after (hostOps2 (F := F)) V (Proc.devRef .tc main_v1) = V (Proc.devRef .tc main_v1) := by
  after_results_simp <;> rfl
theorem h2_keep_main_v3 (V : Valuation τ sig (Elt F)) : after (hostOps2 (F := F)) V (Proc.devRef .tc main_v3) = V (Proc.devRef .tc main_v3) := by
  after_results_simp <;> rfl
theorem h2_keep_main_v11 (V : Valuation τ sig (Elt F)) : after (hostOps2 (F := F)) V (Proc.devRef .tc main_v11) = V (Proc.devRef .tc main_v11) := by
  after_results_simp <;> rfl
theorem h2_keep_main_arg8 (V : Valuation τ sig (Elt F)) : after (hostOps2 (F := F)) V (Proc.devRef .tc main_arg8) = V (Proc.devRef .tc main_arg8) := by
  after_results_simp <;> rfl
theorem h2_keep_main_arg9 (V : Valuation τ sig (Elt F)) : after (hostOps2 (F := F)) V (Proc.devRef .tc main_arg9) = V (Proc.devRef .tc main_arg9) := by
  after_results_simp <;> rfl
theorem h2_keep_main_arg10 (V : Valuation τ sig (Elt F)) : after (hostOps2 (F := F)) V (Proc.devRef .tc main_arg10) = V (Proc.devRef .tc main_arg10) := by
  after_results_simp <;> rfl
theorem h2_keep_main_arg13 (V : Valuation τ sig (Elt F)) : after (hostOps2 (F := F)) V (Proc.devRef .tc main_arg13) = V (Proc.devRef .tc main_arg13) := by
  after_results_simp <;> rfl
theorem h2_keep_main_arg14 (V : Valuation τ sig (Elt F)) : after (hostOps2 (F := F)) V (Proc.devRef .tc main_arg14) = V (Proc.devRef .tc main_arg14) := by
  after_results_simp <;> rfl
theorem h3_keep_main_v56_0 (V : Valuation τ sig (Elt F)) : after (hostOps3 (F := F)) V (Proc.devRef .tc main_v56_0) = V (Proc.devRef .tc main_v56_0) := by
  after_results_simp <;> rfl
theorem h3_keep_main_v1 (V : Valuation τ sig (Elt F)) : after (hostOps3 (F := F)) V (Proc.devRef .tc main_v1) = V (Proc.devRef .tc main_v1) := by
  after_results_simp <;> rfl
theorem h3_keep_main_v3 (V : Valuation τ sig (Elt F)) : after (hostOps3 (F := F)) V (Proc.devRef .tc main_v3) = V (Proc.devRef .tc main_v3) := by
  after_results_simp <;> rfl
theorem h3_keep_main_v11 (V : Valuation τ sig (Elt F)) : after (hostOps3 (F := F)) V (Proc.devRef .tc main_v11) = V (Proc.devRef .tc main_v11) := by
  after_results_simp <;> rfl
theorem h3_keep_main_arg8 (V : Valuation τ sig (Elt F)) : after (hostOps3 (F := F)) V (Proc.devRef .tc main_arg8) = V (Proc.devRef .tc main_arg8) := by
  after_results_simp <;> rfl
theorem h3_keep_main_arg9 (V : Valuation τ sig (Elt F)) : after (hostOps3 (F := F)) V (Proc.devRef .tc main_arg9) = V (Proc.devRef .tc main_arg9) := by
  after_results_simp <;> rfl
theorem h3_keep_main_arg10 (V : Valuation τ sig (Elt F)) : after (hostOps3 (F := F)) V (Proc.devRef .tc main_arg10) = V (Proc.devRef .tc main_arg10) := by
  after_results_simp <;> rfl
theorem h4_keep_main_v71 (V : Valuation τ sig (Elt F)) : after (hostOps4 (F := F)) V (Proc.devRef .tc main_v71) = V (Proc.devRef .tc main_v71) := by
  after_results_simp <;> rfl
theorem h4_keep_main_v1 (V : Valuation τ sig (Elt F)) : after (hostOps4 (F := F)) V (Proc.devRef .tc main_v1) = V (Proc.devRef .tc main_v1) := by
  after_results_simp <;> rfl
theorem h4_keep_main_v3 (V : Valuation τ sig (Elt F)) : after (hostOps4 (F := F)) V (Proc.devRef .tc main_v3) = V (Proc.devRef .tc main_v3) := by
  after_results_simp <;> rfl
theorem h4_keep_main_v11 (V : Valuation τ sig (Elt F)) : after (hostOps4 (F := F)) V (Proc.devRef .tc main_v11) = V (Proc.devRef .tc main_v11) := by
  after_results_simp <;> rfl
theorem h4_keep_main_arg9 (V : Valuation τ sig (Elt F)) : after (hostOps4 (F := F)) V (Proc.devRef .tc main_arg9) = V (Proc.devRef .tc main_arg9) := by
  after_results_simp <;> rfl
theorem h5_keep_main_v71 (V : Valuation τ sig (Elt F)) : after (hostOps5 (F := F)) V (Proc.devRef .tc main_v71) = V (Proc.devRef .tc main_v71) := by
  after_results_simp <;> rfl
theorem h5_keep_main_v73 (V : Valuation τ sig (Elt F)) : after (hostOps5 (F := F)) V (Proc.devRef .tc main_v73) = V (Proc.devRef .tc main_v73) := by
  after_results_simp <;> rfl

end Cert.KernelIdeal.KHost

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowMax.lean ====
/-
  Row maxima of a rank-2 float array, read at the extended reals with indices given by coordinates.

  The maximum of an `a × b` array along its second axis, taken from a starting value, is at row `r` the maximum of
  that value and the `b` entries `(r, c)` of the row — written here as the fold of `max` from the starting value
  over the columns `c`, for a vector reduction (whose starting value is its accumulator word) and for a host
  reduction (whose starting value is its scalar operand).  Indices are written with the literal-size constructors
  `ix1`, `ix2`, so that each lemma applies to a printed operation by unification.
-/
import Idealize.ShloMosaic.Lib.ValueIdx
import Idealize.ShloMosaic.PureOps.Ideal.Laws

namespace Cert.LibRowMax

open Idealize.ShloMosaic Idealize.ShloMosaic.ValueIdx

variable {φ : FTy}

/-- Inserting column `c` into the rank-1 index `r` at the second axis gives the index `(r, c)`. -/
theorem lift_rows {a b : ℕ} (h : (⟨2, ![a, b]⟩ : Shape).Reduces [1] ⟨1, ![a]⟩) (r : Fin a) (c : Fin b) :
    h.lift (ix1 r) c = ix2 r c :=
  funext fun ax => Fin.ext (by
    refine (h.lift_val (ix1 r) c ax).trans ?_
    unfold Shape.Reduces.liftVal
    match ax with
    | ⟨0, _⟩ => rfl
    | ⟨1, _⟩ => rfl)

/-- ROW MAXIMA of a vector reduction: at row `r`, the fold of `max` from the accumulator's value over the columns. -/
theorem multiReduction_maximumf_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  refine (Ideal.multiReduction_maximumf_single src acc h hφ hacc (ix1 r)).trans ?_
  exact congrArg (fun f => (Finset.univ : Finset (Fin b)).fold max (Ideal.ofBits φ acc) f)
    (funext fun c => congrArg src (lift_rows h r c))

/-- ROW MAXIMA of a host reduction with a `maximum` body: at row `r`, the fold of `max` from the initial value over
    the columns. -/
theorem hostReduce_maximumf_rows {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun c => x (ix2 r c)) := by
  refine (Host.reduce_eq_fold_single (FloatOps.maximumf (F := Ideal) (φ := φ)) x init h' h hu (ix1 r)).trans ?_
  exact congrArg (fun f => (Finset.univ : Finset (Fin b)).fold max (init (Shape.Idx.first hu)) f)
    (funext fun c => congrArg x (lift_rows h r c))

end Cert.LibRowMax
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowSoftmax.lean ====
/-
  ROW SOFTMAX, read at an index, over the extended reals.

  A kernel that takes a softmax along the last axis of an `a x b` array of scores spells it with vector operations:
  a row maximum (a `maximumf` reduction from the word minus infinity), kept as a column and spread back over the row;
  a subtraction; exponentials; a row sum (an `add` reduction from the zero word), kept as a column and spread back;
  a quotient. Read at row `r` and column `i`, that chain only ever looks along row `r`: it is the one-row formula
  `soft` of the row's scores. Stated for any `a` and `b`, and for whatever side-condition proofs the printed
  operations carry.
-/
import proofs.«126719_j90941637525590_2_alg».proof.Proof.LibRowMax
import proofs.«126719_j90941637525590_2_alg».proof.Proof.LibKeepdims
import Idealize.ShloMosaic.Lib.Pipeline.Value
import Idealize.ShloMosaic.Lib.ValueIdx
import Idealize.ShloMosaic.PureOps.Ideal.Laws

noncomputable section

namespace Cert.LibRowSoftmax

open Idealize.ShloMosaic Idealize.ShloMosaic.ValueIdx
open Cert.LibRowMax Cert.LibKeepdims

/-- The largest of a row of scores, folded from minus infinity. -/
def rowMax {M : ℕ} (s : Fin M → EReal) : EReal := (Finset.univ : Finset (Fin M)).fold max (Ideal.ofBits .f32 0xFF800000#32) s

/-- The softmax weights of a row of scores: exponentials of the scores shifted by their maximum, over their sum. -/
def soft {M : ℕ} (s : Fin M → EReal) (i : Fin M) : EReal :=
  Ideal.div (Ideal.exp (s i - rowMax s)) (∑ k : Fin M, Ideal.exp (s k - rowMax s))

/-- A row maximum kept as a column and spread back over the row reads, at `(r, i)`, the fold of `max` over row `r`. -/
theorem keepMax_apply {a b : ℕ} (s : FVec Ideal ⟨2, ![a, b]⟩ .f32) (acc : BitVec 32)
    (hred : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    broadcastTo ⟨2, ![a, b]⟩ (shapeCast ⟨2, ![a, 1]⟩ (multiReduction .maximumf [1] ⟨1, ![a]⟩ s acc hred hφ hacc) hc) hb (ix2 r i)
      = (Finset.univ : Finset (Fin b)).fold max (Ideal.ofBits .f32 acc) (fun c => s (ix2 r c)) :=
  (broadcastTo_a1_ab_apply _ hb r i).trans ((shapeCast_a_a1_apply _ hc r 0).trans (multiReduction_maximumf_rows s acc hred hφ hacc r))

/-- A row sum kept as a column and spread back reads, at `(r, i)`, the sum over row `r`. -/
theorem keepSum_apply {a b : ℕ} (s : FVec Ideal ⟨2, ![a, b]⟩ .f32) (acc : BitVec 32)
    (hred : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    broadcastTo ⟨2, ![a, b]⟩ (shapeCast ⟨2, ![a, 1]⟩ (multiReduction .add [1] ⟨1, ![a]⟩ s acc hred hφ hacc) hc) hb (ix2 r i)
      = ∑ c : Fin b, s (ix2 r c) :=
  (broadcastTo_a1_ab_apply _ hb r i).trans ((shapeCast_a_a1_apply _ hc r 0).trans (multiReduction_add_rows s acc hred hφ hacc r))

/-- THE SOFTMAX CHAIN at `(r, i)`: the one-row formula of row `r`. -/
theorem softChain_apply {a b : ℕ} (s : FVec Ideal ⟨2, ![a, b]⟩ .f32)
    (hred : (⟨2, ![a, b]⟩ : Shape).Reduces [1] ⟨1, ![a]⟩) (hφ : FKind.Formats .f32)
    (hm : (0xFF800000#32 : BitVec 32) = FKind.maximumf.neutral .f32 hφ) (ha : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    divf (exp (subf s (broadcastTo ⟨2, ![a, b]⟩ (shapeCast ⟨2, ![a, 1]⟩ (multiReduction .maximumf [1] ⟨1, ![a]⟩ s 0xFF800000#32 hred hφ hm) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 hred hφ hm) hc) hb)))
          0x00000000#32 hred hφ ha) hc) hb) (ix2 r i)
      = soft (fun c => s (ix2 r c)) i := by
  have hE : ∀ c : Fin b, exp (subf s (broadcastTo ⟨2, ![a, b]⟩ (shapeCast ⟨2, ![a, 1]⟩ (multiReduction .maximumf [1] ⟨1, ![a]⟩ s 0xFF800000#32 hred hφ hm) hc) hb)) (ix2 r c)
      = Ideal.exp (s (ix2 r c) - rowMax (fun c' => s (ix2 r c'))) := fun c =>
    congrArg (fun z => Ideal.exp (s (ix2 r c) - z)) (keepMax_apply s _ hred hφ hm hc hb r c)
  refine (congrArg₂ Ideal.div (hE i) ((keepSum_apply _ _ hred hφ ha hc hb r i).trans (Finset.sum_congr rfl fun c _ => hE c))).trans ?_
  rfl

end Cert.LibRowSoftmax

end
-- ==== Proof.Spec.lean ====
/-
  The layer functions of a three-layer mean-aggregating graph network, entry by entry on the extended reals.
  One dense update: each row of the aggregated neighbours is scaled by that row's factor, multiplied by the left
  weights, a bias row is added to every row, and the node's own features times the right weights are added.
  Batch normalisation with its affine map followed by the positive part. The logits of the last layer, whose left
  product was taken before the aggregation, and the softmax of each row.
-/
import Idealize.ShloMosaic.PureOps.Ideal
import Idealize.ShloMosaic.Lib.ValueIdx
import proofs.«126719_j90941637525590_2_alg».proof.Proof.LibMatProd
import proofs.«126719_j90941637525590_2_alg».proof.Proof.LibRowSoftmax

noncomputable section

namespace Cert.Sage

open Idealize.ShloMosaic Idealize.ShloMosaic.ValueIdx Cert.Linear

/-- The dense update of a layer: `((A ⊙ d) · WL + b) + H · WR`, where row `r` of `A` is scaled by `d r`. -/
def lin {R K N : Nat} (A : (Mat R K).Idx → EReal) (D : (Mat R 1).Idx → EReal) (H : (Mat R K).Idx → EReal)
    (WL : (Mat K N).Idx → EReal) (B : (Mat 1 N).Idx → EReal) (WR : (Mat K N).Idx → EReal) : (Mat R N).Idx → EReal :=
  fun i => (matProd (fun j => A j * D (ix2 (n0 := R) (n1 := 1) (j 0) 0)) WL i + B (ix2 (n0 := 1) (n1 := N) 0 (i 1)))
    + matProd H WR i

/-- The sum of every column, as one row. -/
def colSum {R N : Nat} (L : (Mat R N).Idx → EReal) : (Mat 1 N).Idx → EReal :=
  fun i => ∑ n : Fin R, L (ix2 (n0 := R) (n1 := N) n (i 1))

/-- The sum of the squares of every column, as one row. -/
def colSumSq {R N : Nat} (L : (Mat R N).Idx → EReal) : (Mat 1 N).Idx → EReal :=
  fun i => ∑ n : Fin R, L (ix2 (n0 := R) (n1 := N) n (i 1)) * L (ix2 (n0 := R) (n1 := N) n (i 1))

/-- The batch-norm epsilon, the value of its float word. -/
def eps : EReal := Ideal.ofBits .f32 0x3727C5AC#32

/-- Normalise column `j` by its mean `M j` and floored variance `V j`, scale by `G j`, shift by `Be j`, keep the
    positive part. -/
def bnRelu {R K : Nat} (L : (Mat R K).Idx → EReal) (M V G Be : (Mat 1 K).Idx → EReal) : (Mat R K).Idx → EReal :=
  fun i => max ((((L i - M (ix2 (n0 := 1) (n1 := K) 0 (i 1)))
      * Ideal.rsqrt (max (V (ix2 (n0 := 1) (n1 := K) 0 (i 1))) 0 + eps))
      * G (ix2 (n0 := 1) (n1 := K) 0 (i 1))) + Be (ix2 (n0 := 1) (n1 := K) 0 (i 1))) 0

/-- The last layer's logits: `(A2 ⊙ d + b) + H · WR`, the left product already inside `A2`. -/
def logits {R K N : Nat} (A2 : (Mat R N).Idx → EReal) (D : (Mat R 1).Idx → EReal) (H : (Mat R K).Idx → EReal)
    (WR : (Mat K N).Idx → EReal) (B : (Mat 1 N).Idx → EReal) : (Mat R N).Idx → EReal :=
  fun i => ((A2 i * D (ix2 (n0 := R) (n1 := 1) (i 0) 0)) + B (ix2 (n0 := 1) (n1 := N) 0 (i 1))) + matProd H WR i

/-- The softmax of every row. -/
def rowSoft {R N : Nat} (Lg : (Mat R N).Idx → EReal) : (Mat R N).Idx → EReal :=
  fun i => Cert.LibRowSoftmax.soft (fun q => Lg (ix2 (n0 := R) (n1 := N) (i 0) q)) (i 1)

end Cert.Sage

end
-- ==== Proof.KNet.lean ====
/-
  The idealized kernel's layers as functions of their inputs.
  A hidden layer's dense update `linK`: the aggregated features scaled by the reciprocal of the degree floored at one,
  times the left weights, plus the bias, plus the features times the right weights. `hidK`: normalisation at the mean
  and floored variance computed from the update's own column sums and column sums of squares, the affine map, the
  positive part. The last layer `outK` multiplies by the left weights BEFORE aggregating, and ends with the softmax of
  every row. `kerNet` is the three layers composed.
-/
import proofs.«126719_j90941637525590_2_alg».proof.Proof.KHost
import proofs.«126719_j90941637525590_2_alg».proof.Proof.Spec

noncomputable section

namespace Cert.KernelIdeal.KNet

open Cert.KernelIdeal Cert.KernelIdeal.KHost Idealize.ShloMosaic

/-- A hidden layer's dense update, from the layer's input `h`, the edge array, and the layer's weights and bias. -/
def linK (h : (⟨S50000x128, .f32⟩ : BufTy).Contents (Elt Ideal)) (x1 : (⟨S2x800000, .i32⟩ : BufTy).Contents (Elt Ideal)) (Wl : (⟨S128x128, .f32⟩ : BufTy).Contents (Elt Ideal))
    (bl : (⟨S128, .f32⟩ : BufTy).Contents (Elt Ideal)) (Wr : (⟨S128x128, .f32⟩ : BufTy).Contents (Elt Ideal)) : S50000x128.Idx → EReal :=
  Cert.Sage.lin (R := 50000) (K := 128) (N := 128) (aggOf h (srcOf x1) (dstOf x1)) (colOf (invDeg (dstOf x1))) h (tr Wl) (row1 bl) (tr Wr)

/-- Normalisation at the statistics of `L` itself, the affine map, the positive part. -/
def hidK (L : S50000x128.Idx → EReal) (g be : (⟨S128, .f32⟩ : BufTy).Contents (Elt Ideal)) : S50000x128.Idx → EReal :=
  Cert.Sage.bnRelu (R := 50000) (K := 128) L (row1 (F := Ideal) (meanK (F := Ideal) (Cert.Sage.colSum (R := 50000) (N := 128) L)))
    (row1 (F := Ideal) (varK (F := Ideal) (Cert.Sage.colSum (R := 50000) (N := 128) L) (Cert.Sage.colSumSq (R := 50000) (N := 128) L))) (row1 g) (row1 be)

/-- The last layer: the projected features aggregated, scaled, biased, plus the features times the right weights; softmax. -/
def outK (h : S50000x128.Idx → EReal) (x1 : (⟨S2x800000, .i32⟩ : BufTy).Contents (Elt Ideal)) (Wl Wr : (⟨S64x128, .f32⟩ : BufTy).Contents (Elt Ideal)) (bl : (⟨S64, .f32⟩ : BufTy).Contents (Elt Ideal)) :
    S50000x64.Idx → EReal :=
  Cert.Sage.rowSoft (R := 50000) (N := 64) (Cert.Sage.logits (R := 50000) (K := 128) (N := 64)
    (agg64Of (Cert.Linear.matProd (R := 50000) (K := 128) (N := 64) h (tr64 Wl)) (srcOf x1) (dstOf x1)) (colOf (invDeg (dstOf x1))) h (tr64 Wr) (row1_64 bl))

/-- The network. -/
def kerNet (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S64x128, .f32⟩ : BufTy).Contents (Elt Ideal)) (x9 : (⟨S64, .f32⟩ : BufTy).Contents (Elt Ideal)) (x10 : (⟨S64x128, .f32⟩ : BufTy).Contents (Elt Ideal))
    (x11 x12 x13 x14 : (⟨S128, .f32⟩ : BufTy).Contents (Elt Ideal)) : S50000x64.Idx → EReal :=
  outK (hidK (linK (hidK (linK x0 x1 x2 x3 x4) x11 x12) x1 x5 x6 x7) x13 x14) x1 x8 x10 x9

end Cert.KernelIdeal.KNet

end
-- ==== Proof.LibPlainDot.lean ====
/-
  The plain matrix product's dimension numbers contract columns with rows.

  For the dimension numbers of an `R × K` by `K × N` product (`DotDims.plain`: the left operand's axis 1 against the
  right operand's axis 0, the other two axes kept in order) the contraction index is one coordinate `k < K`, and at
  result entry `(r, q)` the left operand is read at `(r, k)` and the right one at `(k, q)`.
-/
import proofs.«126719_j90941637525590_2_alg».proof.Proof.LibMatProd

noncomputable section

namespace Cert.Linear

open Idealize.ShloMosaic Idealize.ShloMosaic.ValueIdx

/-- `DotDims.plain R K N` contracts the left operand's columns with the right operand's rows. -/
theorem contracts_plain (R K N : Nat) : Contracts (DotDims.plain R K N) where
  rank := rfl
  size := rfl
  lhs0 := fun i q => by
    have hb : (0 : Fin 2) ∉ (DotDims.plain R K N).lhsBatch := show (0 : Fin 2) ∉ ([] : List (Fin 2)) from List.not_mem_nil
    have hn : (0 : Fin 2) ∈ (DotDims.plain R K N).lhsNonContracting :=
      show (0 : Fin 2) ∈ ([0] : List (Fin 2)) from List.mem_singleton.mpr rfl
    unfold DotDims.lhsIdx
    rw [dif_neg hb, dif_pos hn]
    rfl
  lhs1 := fun i q => (DotDims.plain R K N).lhsIdx_val_of_single (cl := 1) rfl i q
  rhs0 := fun i q => (DotDims.plain R K N).rhsIdx_val_of_single (cr := 0) rfl i q
  rhs1 := fun i q => by
    have hb : (1 : Fin 2) ∉ (DotDims.plain R K N).rhsBatch := show (1 : Fin 2) ∉ ([] : List (Fin 2)) from List.not_mem_nil
    have hn : (1 : Fin 2) ∈ (DotDims.plain R K N).rhsNonContracting :=
      show (1 : Fin 2) ∈ ([1] : List (Fin 2)) from List.mem_singleton.mpr rfl
    unfold DotDims.rhsIdx
    rw [dif_neg hb, dif_pos hn]
    rfl

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«126719_j90941637525590_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.RegMat.lean ====
/-
  The product kernel, block by block, is one matrix product.

  The kernel walks the 50000 rows of the left operand in ten blocks of 5000 rows. At each block it multiplies the
  block by the whole 128 x 64 right operand, accumulating into a zero splat, and writes the 5000 x 64 result back as
  the matching block of rows of the output. A row of a product depends on that row of the left operand only, so the
  ten written blocks are the ten row blocks of the one product of the two whole arrays; they tile the output, so the
  output array ends holding that product.
-/
import proofs.«126719_j90941637525590_2_alg».proof.Proof.Gen.KernelIdeal.Frame
import proofs.«126719_j90941637525590_2_alg».proof.Proof.LibMatProd
import proofs.«126719_j90941637525590_2_alg».proof.Proof.LibPlainDot
import proofs.«126719_j90941637525590_2_alg».proof.Proof.LibRowBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegA

open Idealize.ShloMosaic Idealize.ShloMosaic.TcCoe Idealize.SL.Sem
open Idealize.ShloMosaic.ValueIdx
open Idealize.ShloMosaic.Pipeline (Dat)
open Cert.KernelIdeal Cert.KernelIdeal.Gen Cert.Linear

-- the buffer contents when the region is entered: arbitrary
variable (V : (c : Dev nD) → (b : Ref sig .tc) → Buf (Elt Ideal) ((c : Thread nD τ).loc b))

/-- The zero offsets of a whole-block access, as a constant function. -/
theorem zeroOff2 : (![0, 0] : Fin 2 → Nat) = fun _ => 0 := funext fun a => by fin_cases a <;> rfl

/-- The body's dimension numbers are the plain ones: columns of the left operand against rows of the right one. -/
theorem contracts_5000_128_64 : Contracts dot_S5000x128_S128x64_S5000x64_1_0_0_1_n_n := contracts_plain 5000 128 64

/-- ONE BLOCK: what the body leaves in the output's buffer is the product of the two loaded blocks. -/
theorem matBlock_eq (x0 : Vec Ideal S5000x128 .f32) (x1 : Vec Ideal S128x64 .f32) :
    out4_2 x0 x1 = matProd (R := 5000) (K := 128) (N := 64) x0 x1 := by
  unfold out4_2
  rw [View.canon_unit_zero zeroOff2]
  simp only [View.ld_unit_zero (S := S5000x128) zeroOff2, View.ld_unit_zero (S := S128x64) zeroOff2]
  unfold k4_pay1
  rw [shapeCast_self, shapeCast_self]
  exact matmul_zero_eq contracts_5000_128_64 none x0 x1

/-- The block indices over the grid: at point `t` the left operand and the output sit at row block `t`, the right
    operand at its one block. -/
theorem matIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's array as the region finds it: 50000 rows of 128. -/
abbrev leftArr4 (c : Dev nD) : S50000x128.Idx → EReal := V c (Pipeline.arrRef spec4 0)
/-- The right operand's array as the region finds it: 128 rows of 64. -/
abbrev rightArr4 (c : Dev nD) : S128x64.Idx → EReal := V c (Pipeline.arrRef spec4 1)

set_option maxHeartbeats 800000 in
/-- WHAT POINT `t` WRITES BACK is row block `t` of the product of the two whole arrays: row `5000 t + p` of the
    product reads row `5000 t + p` of the left array, which is row `p` of the left block, and the whole right array. -/
theorem matFlushed_eq (c : Dev nD) (t : Fin cfg4.N) :
    (dat4 V c).flushed 2 t = ((cfg4.win 2).blk t).view.read (Elt Ideal)
      (matProd (R := 50000) (K := 128) (N := 64) (leftArr4 V c) (rightArr4 V c)) := by
  show (cfg4.win 2).cut (grid4.coords t) ((dat4 V c).after 2 t) = _
  rw [after4_2, matBlock_eq]
  obtain ⟨e0, e1, e2, e3, e4, e5⟩ := matIndex t
  funext j
  show matProd (iblk4 V c 0 t) (iblk4 V c 1 t) j = matProd (leftArr4 V c) (rightArr4 V c) (((cfg4.win 2).blk t).view.emb j)
  refine matProd_of_rows (leftArr4 V c) (rightArr4 V c) _ _ j _ (fun k => ?_) (fun k => ?_)
  · show V c (Pipeline.arrRef spec4 0) (((cfg4.win 0).blk t).view.emb (ix2 (j 0) k))
        = V c (Pipeline.arrRef spec4 0) (ix2 ((((cfg4.win 2).blk t).view.emb j) 0) k)
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · show V c (Pipeline.arrRef spec4 1) (((cfg4.win 1).blk t).view.emb (ix2 k (j 1)))
        = V c (Pipeline.arrRef spec4 1) (ix2 k ((((cfg4.win 2).blk t).view.emb j) 1))
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- THE BLOCKS TILE THE OUTPUT: row `r` lies in the block of point `r / 5000`, and every point writes its block back. -/
theorem matCover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by rw [hN]; omega⟩, rfl⟩
  refine ⟨t, flush4_2 t, ?_⟩
  obtain ⟨e0, e1, e2, e3, e4, e5⟩ := matIndex t
  show i ∈ ((View.whole main_v74).slice (win4_2.rect t)).set
  rw [View.set_slice_whole, Rect.mem_set_unit]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- THE OUTPUT ARRAY after the region's ten points: the product of the two input arrays as the region finds them. -/
theorem final4 (c : Dev nD) :
    (dat4 V c).arrAt 2 cfg4.N = matProd (R := 50000) (K := 128) (N := 64)
      (V c (Pipeline.arrRef spec4 0) : S50000x128.Idx → EReal) (V c (Pipeline.arrRef spec4 1) : S128x64.Idx → EReal) :=
  (dat4 V c).arrAt_eq_of_cover 2 _ (fun t _ => matFlushed_eq V c t) matCover

end Cert.KernelIdeal.RegA

end
-- ==== Proof.RegBn.lean ====
/-
  The two batch-normalisation kernels, block by block, are one entrywise formula.

  Each kernel walks the 50000 rows of its data in ten blocks of 5000 rows. At each block it subtracts from every entry
  its column's mean, multiplies by the inverse square root of the column's variance floored at zero plus a small
  constant, multiplies by the column's scale, adds the column's shift, and keeps the positive part; the four
  per-column quantities are 1 x 128 rows, the same at every block. The result is written back as the matching block of
  rows of the output. An entry of the result depends on the same entry of the data and on its column of the four rows
  only, so the ten written blocks are the ten row blocks of one whole-array formula; they tile the output, so the
  output array ends holding that formula of the input arrays. The two kernels have the same body.
-/
import proofs.«126719_j90941637525590_2_alg».proof.Proof.Gen.KernelIdeal.Frame
import proofs.«126719_j90941637525590_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegA

open Idealize.ShloMosaic Idealize.ShloMosaic.TcCoe Idealize.SL.Sem
open Idealize.ShloMosaic.ValueIdx
open Idealize.ShloMosaic.Pipeline (Dat)
open Cert.KernelIdeal Cert.KernelIdeal.Gen Cert.Linear

-- the buffer contents when a region is entered: arbitrary
variable (V : (c : Dev nD) → (b : Ref sig .tc) → Buf (Elt Ideal) ((c : Thread nD τ).loc b))

/-- The zero offsets of a whole-block access, as a constant function. -/
theorem zeroOffBn : (![0, 0] : Fin 2 → Nat) = fun _ => 0 := funext fun a => by fin_cases a <;> rfl

/-- THE BODY'S ARITHMETIC AT AN ENTRY `(p, q)`: each 1 x 128 row is read at column `q`, the zero word is `0`. -/
theorem bnPay_apply (v0 : Vec Ideal S1x128 .f32) (v7 : Vec Ideal S5000x128 .f32) (v9 v15 v19 : Vec Ideal S1x128 .f32)
    (p : Fin 5000) (q : Fin 128) :
    k1_pay1 v0 v7 v9 v15 v19 (ix2 p q)
      = max ((((v7 (ix2 p q) - v9 (ix2 (0 : Fin 1) q))
          * Ideal.rsqrt (max (v0 (ix2 (0 : Fin 1) q)) 0 + Cert.Sage.eps)) * v15 (ix2 (0 : Fin 1) q)) + v19 (ix2 (0 : Fin 1) q)) 0 := by
  have hb : ∀ v : Vec Ideal S1x128 .f32, broadcastTo S5000x128 v broadcasts_S1x128_S5000x128 (ix2 p q) = v (ix2 (0 : Fin 1) q) :=
    fun v => broadcastTo_1b_ab_apply v broadcasts_S1x128_S5000x128 p q
  unfold k1_pay1
  simp only [shapeCast_self]
  show max ((((v7 (ix2 p q) - broadcastTo S5000x128 v9 broadcasts_S1x128_S5000x128 (ix2 p q))
      * broadcastTo S5000x128 (rsqrt (addf (maximumf v0 (broadcast S1x128 (Ideal.ofBits .f32 0x00000000#32))) (broadcast S1x128 Cert.Sage.eps)))
          broadcasts_S1x128_S5000x128 (ix2 p q))
      * broadcastTo S5000x128 v15 broadcasts_S1x128_S5000x128 (ix2 p q))
      + broadcastTo S5000x128 v19 broadcasts_S1x128_S5000x128 (ix2 p q)) (Ideal.ofBits .f32 0x00000000#32) = _
  rw [hb v9, hb v15, hb v19, hb]
  show max ((((v7 (ix2 p q) - v9 (ix2 (0 : Fin 1) q))
      * Ideal.rsqrt (max (v0 (ix2 (0 : Fin 1) q)) (Ideal.ofBits .f32 0x00000000#32) + Cert.Sage.eps)) * v15 (ix2 (0 : Fin 1) q))
      + v19 (ix2 (0 : Fin 1) q)) (Ideal.ofBits .f32 0x00000000#32) = _
  rw [Ideal.ofBits_zero_f32]

/-- ONE BLOCK of region 1, at an entry: the data entry less its column's mean, times the inverse root of the column's
    floored variance plus epsilon, times the column's scale, plus its shift, positive part. The body loads the
    variance row first. -/
theorem bnBlock1_apply (x0 : Vec Ideal S5000x128 .f32) (x1 x2 x3 x4 : Vec Ideal S1x128 .f32) (j : S5000x128.Idx) :
    out1_5 x0 x1 x2 x3 x4 j
      = max ((((x0 j - x1 (ix2 (0 : Fin 1) (j 1)))
          * Ideal.rsqrt (max (x2 (ix2 (0 : Fin 1) (j 1))) 0 + Cert.Sage.eps)) * x3 (ix2 (0 : Fin 1) (j 1))) + x4 (ix2 (0 : Fin 1) (j 1))) 0 := by
  obtain ⟨p, q, rfl⟩ : ∃ (p : Fin 5000) (q : Fin 128), j = ix2 p q := ⟨j 0, j 1, eq_ix2 j⟩
  unfold out1_5
  rw [View.canon_unit_zero zeroOffBn]
  simp only [View.ld_unit_zero (S := S5000x128) zeroOffBn, View.ld_unit_zero (S := S1x128) zeroOffBn]
  exact bnPay_apply x2 x0 x1 x3 x4 p q

/-- The second normalisation's body is the first one's, term for term. -/
theorem bnPay3_eq (v0 : Vec Ideal S1x128 .f32) (v7 : Vec Ideal S5000x128 .f32) (v9 v15 v19 : Vec Ideal S1x128 .f32) :
    k3_pay1 v0 v7 v9 v15 v19 = k1_pay1 v0 v7 v9 v15 v19 := rfl

/-- ONE BLOCK of region 3, at an entry: the same formula. -/
theorem bnBlock3_apply (x0 : Vec Ideal S5000x128 .f32) (x1 x2 x3 x4 : Vec Ideal S1x128 .f32) (j : S5000x128.Idx) :
    out3_5 x0 x1 x2 x3 x4 j
      = max ((((x0 j - x1 (ix2 (0 : Fin 1) (j 1)))
          * Ideal.rsqrt (max (x2 (ix2 (0 : Fin 1) (j 1))) 0 + Cert.Sage.eps)) * x3 (ix2 (0 : Fin 1) (j 1))) + x4 (ix2 (0 : Fin 1) (j 1))) 0 := by
  obtain ⟨p, q, rfl⟩ : ∃ (p : Fin 5000) (q : Fin 128), j = ix2 p q := ⟨j 0, j 1, eq_ix2 j⟩
  unfold out3_5
  rw [View.canon_unit_zero zeroOffBn]
  simp only [View.ld_unit_zero (S := S5000x128) zeroOffBn, View.ld_unit_zero (S := S1x128) zeroOffBn]
  rw [bnPay3_eq]
  exact bnPay_apply x2 x0 x1 x3 x4 p q

/-- The block indices over the grid of region 1: at point `t` the data and the output sit at row block `t`, the four
    rows at their one block. -/
theorem bnIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Region 1's input arrays as the region finds them: the data, then the mean, variance, scale and shift rows. -/
abbrev bnData1 (c : Dev nD) : S50000x128.Idx → EReal := V c (Pipeline.arrRef spec1 0)
abbrev bnMean1 (c : Dev nD) : S1x128.Idx → EReal := V c (Pipeline.arrRef spec1 1)
abbrev bnVar1 (c : Dev nD) : S1x128.Idx → EReal := V c (Pipeline.arrRef spec1 2)
abbrev bnScale1 (c : Dev nD) : S1x128.Idx → EReal := V c (Pipeline.arrRef spec1 3)
abbrev bnShift1 (c : Dev nD) : S1x128.Idx → EReal := V c (Pipeline.arrRef spec1 4)

set_option maxHeartbeats 800000 in
/-- WHAT POINT `t` OF REGION 1 WRITES BACK is row block `t` of the normalised array: entry `(5000 t + p, q)` reads the
    data at `(5000 t + p, q)`, which is entry `(p, q)` of the data block, and column `q` of the four rows. -/
theorem bnFlushed1_eq (c : Dev nD) (t : Fin cfg1.N) :
    (dat1 V c).flushed 5 t = ((cfg1.win 5).blk t).view.read (Elt Ideal)
      (Cert.Sage.bnRelu (R := 50000) (K := 128) (bnData1 V c) (bnMean1 V c) (bnVar1 V c) (bnScale1 V c) (bnShift1 V c)) := by
  show (cfg1.win 5).cut (grid1.coords t) ((dat1 V c).after 5 t) = _
  rw [after1_5]
  obtain ⟨a00, a01, a10, a11, a20, a21, a30, a31, a40, a41, a50, a51⟩ := bnIndex1 t
  funext j
  refine (bnBlock1_apply (iblk1 V c 0 t) (iblk1 V c 1 t) (iblk1 V c 2 t) (iblk1 V c 3 t) (iblk1 V c 4 t) j).trans ?_
  have h0 : iblk1 V c 0 t j = bnData1 V c (((cfg1.win 5).blk t).view.emb j) := by
    show V c (Pipeline.arrRef spec1 0) (((cfg1.win 0).blk t).view.emb j) = V c (Pipeline.arrRef spec1 0) (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  have h1 : iblk1 V c 1 t (ix2 (0 : Fin 1) (j 1)) = bnMean1 V c (ix2 (0 : Fin 1) ((((cfg1.win 5).blk t).view.emb j) 1)) := by
    show V c (Pipeline.arrRef spec1 1) (((cfg1.win 1).blk t).view.emb (ix2 (0 : Fin 1) (j 1))) = V c (Pipeline.arrRef spec1 1) (ix2 (0 : Fin 1) ((((cfg1.win 5).blk t).view.emb j) 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  have h2 : iblk1 V c 2 t (ix2 (0 : Fin 1) (j 1)) = bnVar1 V c (ix2 (0 : Fin 1) ((((cfg1.win 5).blk t).view.emb j) 1)) := by
    show V c (Pipeline.arrRef spec1 2) (((cfg1.win 2).blk t).view.emb (ix2 (0 : Fin 1) (j 1))) = V c (Pipeline.arrRef spec1 2) (ix2 (0 : Fin 1) ((((cfg1.win 5).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  have h3 : iblk1 V c 3 t (ix2 (0 : Fin 1) (j 1)) = bnScale1 V c (ix2 (0 : Fin 1) ((((cfg1.win 5).blk t).view.emb j) 1)) := by
    show V c (Pipeline.arrRef spec1 3) (((cfg1.win 3).blk t).view.emb (ix2 (0 : Fin 1) (j 1))) = V c (Pipeline.arrRef spec1 3) (ix2 (0 : Fin 1) ((((cfg1.win 5).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  have h4 : iblk1 V c 4 t (ix2 (0 : Fin 1) (j 1)) = bnShift1 V c (ix2 (0 : Fin 1) ((((cfg1.win 5).blk t).view.emb j) 1)) := by
    show V c (Pipeline.arrRef spec1 4) (((cfg1.win 4).blk t).view.emb (ix2 (0 : Fin 1) (j 1))) = V c (Pipeline.arrRef spec1 4) (ix2 (0 : Fin 1) ((((cfg1.win 5).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [h0, h1, h2, h3, h4]
  rfl

/-- THE BLOCKS OF REGION 1 TILE THE OUTPUT: row `r` lies in the block of point `r / 5000`, and every point writes back. -/
theorem bnCover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_5 t, ?_⟩
  obtain ⟨a00, a01, a10, a11, a20, a21, a30, a31, a40, a41, a50, a51⟩ := bnIndex1 t
  show i ∈ ((View.whole main_v41).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- THE OUTPUT ARRAY of region 1 after its ten points: the normalised, scaled, shifted data, positive part. -/
theorem final1 (c : Dev nD) :
    (dat1 V c).arrAt 5 cfg1.N = Cert.Sage.bnRelu (R := 50000) (K := 128)
      (V c (Pipeline.arrRef spec1 0) : S50000x128.Idx → EReal) (V c (Pipeline.arrRef spec1 1) : S1x128.Idx → EReal)
      (V c (Pipeline.arrRef spec1 2) : S1x128.Idx → EReal) (V c (Pipeline.arrRef spec1 3) : S1x128.Idx → EReal)
      (V c (Pipeline.arrRef spec1 4) : S1x128.Idx → EReal) :=
  (dat1 V c).arrAt_eq_of_cover 5 _ (fun t _ => bnFlushed1_eq V c t) bnCover1

/-- The block indices over the grid of region 3: at point `t` the data and the output sit at row block `t`, the four
    rows at their one block. -/
theorem bnIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Region 3's input arrays as the region finds them: the data, then the mean, variance, scale and shift rows. -/
abbrev bnData3 (c : Dev nD) : S50000x128.Idx → EReal := V c (Pipeline.arrRef spec3 0)
abbrev bnMean3 (c : Dev nD) : S1x128.Idx → EReal := V c (Pipeline.arrRef spec3 1)
abbrev bnVar3 (c : Dev nD) : S1x128.Idx → EReal := V c (Pipeline.arrRef spec3 2)
abbrev bnScale3 (c : Dev nD) : S1x128.Idx → EReal := V c (Pipeline.arrRef spec3 3)
abbrev bnShift3 (c : Dev nD) : S1x128.Idx → EReal := V c (Pipeline.arrRef spec3 4)

set_option maxHeartbeats 800000 in
/-- WHAT POINT `t` OF REGION 3 WRITES BACK is row block `t` of the normalised array: entry `(5000 t + p, q)` reads the
    data at `(5000 t + p, q)`, which is entry `(p, q)` of the data block, and column `q` of the four rows. -/
theorem bnFlushed3_eq (c : Dev nD) (t : Fin cfg3.N) :
    (dat3 V c).flushed 5 t = ((cfg3.win 5).blk t).view.read (Elt Ideal)
      (Cert.Sage.bnRelu (R := 50000) (K := 128) (bnData3 V c) (bnMean3 V c) (bnVar3 V c) (bnScale3 V c) (bnShift3 V c)) := by
  show (cfg3.win 5).cut (grid3.coords t) ((dat3 V c).after 5 t) = _
  rw [after3_5]
  obtain ⟨a00, a01, a10, a11, a20, a21, a30, a31, a40, a41, a50, a51⟩ := bnIndex3 t
  funext j
  refine (bnBlock3_apply (iblk3 V c 0 t) (iblk3 V c 1 t) (iblk3 V c 2 t) (iblk3 V c 3 t) (iblk3 V c 4 t) j).trans ?_
  have h0 : iblk3 V c 0 t j = bnData3 V c (((cfg3.win 5).blk t).view.emb j) := by
    show V c (Pipeline.arrRef spec3 0) (((cfg3.win 0).blk t).view.emb j) = V c (Pipeline.arrRef spec3 0) (((cfg3.win 5).blk t).view.emb j)
    refine congrArg _ (funext fun a => Fin.ext ?_)
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * (j 1).val = win3_5.index t (1 : Fin 2) * 128 + 1 * (j 1).val; omega
  have h1 : iblk3 V c 1 t (ix2 (0 : Fin 1) (j 1)) = bnMean3 V c (ix2 (0 : Fin 1) ((((cfg3.win 5).blk t).view.emb j) 1)) := by
    show V c (Pipeline.arrRef spec3 1) (((cfg3.win 1).blk t).view.emb (ix2 (0 : Fin 1) (j 1))) = V c (Pipeline.arrRef spec3 1) (ix2 (0 : Fin 1) ((((cfg3.win 5).blk t).view.emb j) 1))
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = win3_5.index t (1 : Fin 2) * 128 + 1 * (j 1).val; omega
  have h2 : iblk3 V c 2 t (ix2 (0 : Fin 1) (j 1)) = bnVar3 V c (ix2 (0 : Fin 1) ((((cfg3.win 5).blk t).view.emb j) 1)) := by
    show V c (Pipeline.arrRef spec3 2) (((cfg3.win 2).blk t).view.emb (ix2 (0 : Fin 1) (j 1))) = V c (Pipeline.arrRef spec3 2) (ix2 (0 : Fin 1) ((((cfg3.win 5).blk t).view.emb j) 1))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_5.index t (1 : Fin 2) * 128 + 1 * (j 1).val; omega
  have h3 : iblk3 V c 3 t (ix2 (0 : Fin 1) (j 1)) = bnScale3 V c (ix2 (0 : Fin 1) ((((cfg3.win 5).blk t).view.emb j) 1)) := by
    show V c (Pipeline.arrRef spec3 3) (((cfg3.win 3).blk t).view.emb (ix2 (0 : Fin 1) (j 1))) = V c (Pipeline.arrRef spec3 3) (ix2 (0 : Fin 1) ((((cfg3.win 5).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_5.index t (1 : Fin 2) * 128 + 1 * (j 1).val; omega
  have h4 : iblk3 V c 4 t (ix2 (0 : Fin 1) (j 1)) = bnShift3 V c (ix2 (0 : Fin 1) ((((cfg3.win 5).blk t).view.emb j) 1)) := by
    show V c (Pipeline.arrRef spec3 4) (((cfg3.win 4).blk t).view.emb (ix2 (0 : Fin 1) (j 1))) = V c (Pipeline.arrRef spec3 4) (ix2 (0 : Fin 1) ((((cfg3.win 5).blk t).view.emb j) 1))
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_5.index t (1 : Fin 2) * 128 + 1 * (j 1).val; omega
  rw [h0, h1, h2, h3, h4]
  rfl

/-- THE BLOCKS OF REGION 3 TILE THE OUTPUT: row `r` lies in the block of point `r / 5000`, and every point writes back. -/
theorem bnCover3 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_5 t, ?_⟩
  obtain ⟨a00, a01, a10, a11, a20, a21, a30, a31, a40, a41, a50, a51⟩ := bnIndex3 t
  show i ∈ ((View.whole main_v71).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- THE OUTPUT ARRAY of region 3 after its ten points: the normalised, scaled, shifted data, positive part. -/
theorem final3 (c : Dev nD) :
    (dat3 V c).arrAt 5 cfg3.N = Cert.Sage.bnRelu (R := 50000) (K := 128)
      (V c (Pipeline.arrRef spec3 0) : S50000x128.Idx → EReal) (V c (Pipeline.arrRef spec3 1) : S1x128.Idx → EReal)
      (V c (Pipeline.arrRef spec3 2) : S1x128.Idx → EReal) (V c (Pipeline.arrRef spec3 3) : S1x128.Idx → EReal)
      (V c (Pipeline.arrRef spec3 4) : S1x128.Idx → EReal) :=
  (dat3 V c).arrAt_eq_of_cover 5 _ (fun t _ => bnFlushed3_eq V c t) bnCover3

end Cert.KernelIdeal.RegA

end
-- ==== Proof.RegSoft.lean ====
/-
  The last layer's kernel, block by block, is the softmax of every row of the logits.

  The kernel walks the 50000 rows in ten blocks of 5000 rows. At each block it scales every row of the aggregate block
  by that row's factor, adds the bias row to every row, adds the product of the features block with the whole 128 x 64
  right weights, and takes the softmax of each row of these scores: the row's largest score (folded from minus
  infinity, and once more compared with minus infinity, which changes nothing), the exponentials of the scores less
  that maximum, and their quotient by their sum. The result is written back as the matching block of rows of the
  output. Row `p` of a block's result depends on row `p` of the aggregate, of the factor column and of the features,
  and on the whole weights and bias row, so the ten written blocks are the ten row blocks of one whole-array formula;
  they tile the output, so the output array ends holding that formula of the input arrays.
-/
import proofs.«126719_j90941637525590_2_alg».proof.Proof.Gen.KernelIdeal.Frame
import proofs.«126719_j90941637525590_2_alg».proof.Proof.Spec
import proofs.«126719_j90941637525590_2_alg».proof.Proof.LibPlainDot
import proofs.«126719_j90941637525590_2_alg».proof.Proof.LibRowBlock
import proofs.«126719_j90941637525590_2_alg».proof.Proof.LibKeepdims
import proofs.«126719_j90941637525590_2_alg».proof.Proof.LibRowMax
import proofs.«126719_j90941637525590_2_alg».proof.Proof.LibRowSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegA

open Idealize.ShloMosaic Idealize.ShloMosaic.TcCoe Idealize.SL.Sem
open Idealize.ShloMosaic.ValueIdx
open Idealize.ShloMosaic.Pipeline (Dat)
open Cert.KernelIdeal Cert.KernelIdeal.Gen Cert.Linear
open Cert.LibRowMax Cert.LibKeepdims Cert.LibRowSoftmax

-- the buffer contents when the region is entered: arbitrary
variable (V : (c : Dev nD) → (b : Ref sig .tc) → Buf (Elt Ideal) ((c : Thread nD τ).loc b))

/-- The zero offsets of a whole-block access, as a constant function. -/
theorem zeroOffSoft : (![0, 0] : Fin 2 → Nat) = fun _ => 0 := funext fun a => by fin_cases a <;> rfl

/-- A row maximum, taken once more against minus infinity, kept as a column and spread back over the row, reads at
    `(r, i)` the largest score of row `r` folded from minus infinity: the extra maximum changes nothing. -/
theorem keepMaxBot_apply {a b : ℕ} (s : FVec Ideal ⟨2, ![a, b]⟩ .f32)
    (hred : (⟨2, ![a, b]⟩ : Shape).Reduces [1] ⟨1, ![a]⟩) (hφ : FKind.Formats .f32)
    (hm : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    broadcastTo ⟨2, ![a, b]⟩ (shapeCast ⟨2, ![a, 1]⟩
        (maximumf (broadcast ⟨1, ![a]⟩ (Ideal.ofBits .f32 0xFF800000#32)) (multiReduction .maximumf [1] ⟨1, ![a]⟩ s 0xFF800000#32 hred hφ hm)) hc) hb (ix2 r i)
      = rowMax (fun c => s (ix2 r c)) := by
  refine (broadcastTo_a1_ab_apply _ hb r i).trans ((shapeCast_a_a1_apply _ hc r 0).trans ?_)
  show max (Ideal.ofBits .f32 0xFF800000#32) (multiReduction .maximumf [1] ⟨1, ![a]⟩ s 0xFF800000#32 hred hφ hm (ix1 r)) = _
  rw [multiReduction_maximumf_rows s _ hred hφ hm r]
  exact max_eq_right ((Finset.le_fold_max _).mpr (Or.inl le_rfl))

/-- THE SOFTMAX CHAIN with the extra maximum, at `(r, i)`: the one-row formula of row `r`. -/
theorem softChainBot_apply {a b : ℕ} (s : FVec Ideal ⟨2, ![a, b]⟩ .f32)
    (hred : (⟨2, ![a, b]⟩ : Shape).Reduces [1] ⟨1, ![a]⟩) (hφ : FKind.Formats .f32)
    (hm : (0xFF800000#32 : BitVec 32) = FKind.maximumf.neutral .f32 hφ) (ha : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (r : Fin a) (i : Fin b) :
    divf (exp (subf s (broadcastTo ⟨2, ![a, b]⟩ (shapeCast ⟨2, ![a, 1]⟩
          (maximumf (broadcast ⟨1, ![a]⟩ (Ideal.ofBits .f32 0xFF800000#32)) (multiReduction .maximumf [1] ⟨1, ![a]⟩ s 0xFF800000#32 hred hφ hm)) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩
            (maximumf (broadcast ⟨1, ![a]⟩ (Ideal.ofBits .f32 0xFF800000#32)) (multiReduction .maximumf [1] ⟨1, ![a]⟩ s 0xFF800000#32 hred hφ hm)) hc) hb)))
          0x00000000#32 hred hφ ha) hc) hb) (ix2 r i)
      = soft (fun c => s (ix2 r c)) i := by
  have hE : ∀ c : Fin b, exp (subf s (broadcastTo ⟨2, ![a, b]⟩ (shapeCast ⟨2, ![a, 1]⟩
        (maximumf (broadcast ⟨1, ![a]⟩ (Ideal.ofBits .f32 0xFF800000#32)) (multiReduction .maximumf [1] ⟨1, ![a]⟩ s 0xFF800000#32 hred hφ hm)) hc) hb)) (ix2 r c)
      = Ideal.exp (s (ix2 r c) - rowMax (fun c' => s (ix2 r c'))) := fun c =>
    congrArg (fun z => Ideal.exp (s (ix2 r c) - z)) (keepMaxBot_apply s hred hφ hm hc hb r c)
  refine (congrArg₂ Ideal.div (hE i) ((keepSum_apply _ _ hred hφ ha hc hb r i).trans (Finset.sum_congr rfl fun c _ => hE c))).trans ?_
  rfl

/-- The body's dimension numbers are the plain ones: columns of the left operand against rows of the right one. -/
theorem contractsSoft : Contracts dot_S5000x128_S128x64_S5000x64_1_0_0_1_n_n := contracts_plain 5000 128 64

/-- The body's scores before the softmax, as vector operations of the five loaded blocks. -/
def scoreOps (v0 : Vec Ideal S5000x64 .f32) (v2 : Vec Ideal S5000x1 .f32) (v6 : Vec Ideal S1x64 .f32)
    (v10 : Vec Ideal S5000x128 .f32) (v12 : Vec Ideal S128x64 .f32) : FVec Ideal S5000x64 .f32 :=
  addf (addf (mulf v0 (broadcastTo S5000x64 v2 broadcasts_S5000x1_S5000x64)) (broadcastTo S5000x64 v6 broadcasts_S1x64_S5000x64))
    (matmul (F := Ideal) (φ₁ := .f32) (φ₂ := .f32) dot_S5000x128_S128x64_S5000x64_1_0_0_1_n_n none v10 v12 (constant S5000x64 .f32 0x00000000#32))

/-- Those operations are the logits formula of the blocks: each aggregated entry times its row's factor, plus its
    column's bias, plus the product of the features block with the right weights. -/
theorem scoreOps_eq (v0 : Vec Ideal S5000x64 .f32) (v2 : Vec Ideal S5000x1 .f32) (v6 : Vec Ideal S1x64 .f32)
    (v10 : Vec Ideal S5000x128 .f32) (v12 : Vec Ideal S128x64 .f32) :
    scoreOps v0 v2 v6 v10 v12 = Cert.Sage.logits (R := 5000) (K := 128) (N := 64) v0 v2 v10 v12 v6 := by
  funext i
  obtain ⟨p, q, rfl⟩ : ∃ (p : Fin 5000) (q : Fin 64), i = ix2 p q := ⟨i 0, i 1, eq_ix2 i⟩
  unfold scoreOps
  have hm : matmul (F := Ideal) (φ₁ := .f32) (φ₂ := .f32) dot_S5000x128_S128x64_S5000x64_1_0_0_1_n_n none v10 v12 (constant S5000x64 .f32 0x00000000#32)
      = matProd (R := 5000) (K := 128) (N := 64) v10 v12 := by
    exact matmul_zero_eq (φ₁ := .f32) (φ₂ := .f32) contractsSoft none v10 v12
  rw [hm]
  show ((v0 (ix2 p q) * broadcastTo S5000x64 v2 broadcasts_S5000x1_S5000x64 (ix2 p q))
      + broadcastTo S5000x64 v6 broadcasts_S1x64_S5000x64 (ix2 p q)) + matProd v10 v12 (ix2 p q)
    = ((v0 (ix2 p q) * v2 (ix2 p (0 : Fin 1))) + v6 (ix2 (0 : Fin 1) q)) + matProd v10 v12 (ix2 p q)
  rw [broadcastTo_a1_ab_apply v2 broadcasts_S5000x1_S5000x64 p q, broadcastTo_1b_ab_apply v6 broadcasts_S1x64_S5000x64 p q]

/-- THE BODY'S ARITHMETIC AT AN ENTRY `(p, q)`: the softmax of row `p` of the blocks' logits, at column `q`. -/
theorem softPay_apply (v0 : Vec Ideal S5000x64 .f32) (v2 : Vec Ideal S5000x1 .f32) (v6 : Vec Ideal S1x64 .f32)
    (v10 : Vec Ideal S5000x128 .f32) (v12 : Vec Ideal S128x64 .f32) (p : Fin 5000) (q : Fin 64) :
    k5_pay1 v0 v2 v6 v10 v12 (ix2 p q)
      = Cert.Sage.rowSoft (Cert.Sage.logits (R := 5000) (K := 128) (N := 64) v0 v2 v10 v12 v6) (ix2 p q) := by
  unfold k5_pay1
  simp only [shapeCast_self]
  refine (softChainBot_apply (scoreOps v0 v2 v6 v10 v12) reduces_S5000x64_S5000 (.inl rfl) rfl rfl
    shapeCasts_S5000_S5000x1 broadcasts_S5000x1_S5000x64 p q).trans ?_
  rw [scoreOps_eq]
  rfl

/-- ONE BLOCK, at an entry: the softmax of that row of the logits of the five loaded blocks. The body loads the bias
    row third. -/
theorem softBlock_apply (x0 : Vec Ideal S5000x64 .f32) (x1 : Vec Ideal S5000x1 .f32) (x2 : Vec Ideal S5000x128 .f32)
    (x3 : Vec Ideal S128x64 .f32) (x4 : Vec Ideal S1x64 .f32) (j : S5000x64.Idx) :
    out5_5 x0 x1 x2 x3 x4 j = Cert.Sage.rowSoft (Cert.Sage.logits (R := 5000) (K := 128) (N := 64) x0 x1 x2 x3 x4) j := by
  obtain ⟨p, q, rfl⟩ : ∃ (p : Fin 5000) (q : Fin 64), j = ix2 p q := ⟨j 0, j 1, eq_ix2 j⟩
  unfold out5_5
  rw [View.canon_unit_zero zeroOffSoft]
  simp only [View.ld_unit_zero (S := S5000x64) zeroOffSoft, View.ld_unit_zero (S := S5000x1) zeroOffSoft,
    View.ld_unit_zero (S := S5000x128) zeroOffSoft, View.ld_unit_zero (S := S128x64) zeroOffSoft,
    View.ld_unit_zero (S := S1x64) zeroOffSoft]
  exact softPay_apply x0 x1 x4 x2 x3 p q

/-- A ROW OF THE RESULT DEPENDS ON THAT ROW ONLY: the softmax of row `j 0` of the logits of blocks is the softmax of
    row `i 0` of the logits of whole arrays as soon as that row of the aggregate, of the factor column and of the
    features agree, and the weights and the bias row are the same. -/
theorem rowSoft_logits_of_rows {R r K N : Nat}
    (A2 : (Mat R N).Idx → EReal) (D : (Mat R 1).Idx → EReal) (H : (Mat R K).Idx → EReal) (WR : (Mat K N).Idx → EReal)
    (B : (Mat 1 N).Idx → EReal)
    (a2 : (Mat r N).Idx → EReal) (d : (Mat r 1).Idx → EReal) (h : (Mat r K).Idx → EReal) (wr : (Mat K N).Idx → EReal)
    (b : (Mat 1 N).Idx → EReal)
    (j : (Mat r N).Idx) (i : (Mat R N).Idx) (h1 : (j 1 : Fin N) = (i 1 : Fin N))
    (hA : ∀ q : Fin N, a2 (ix2 (n0 := r) (n1 := N) (j 0) q) = A2 (ix2 (n0 := R) (n1 := N) (i 0) q))
    (hD : d (ix2 (n0 := r) (n1 := 1) (j 0) 0) = D (ix2 (n0 := R) (n1 := 1) (i 0) 0))
    (hH : ∀ k : Fin K, h (ix2 (n0 := r) (n1 := K) (j 0) k) = H (ix2 (n0 := R) (n1 := K) (i 0) k))
    (hW : ∀ (k : Fin K) (q : Fin N), wr (ix2 (n0 := K) (n1 := N) k q) = WR (ix2 (n0 := K) (n1 := N) k q))
    (hB : ∀ q : Fin N, b (ix2 (n0 := 1) (n1 := N) 0 q) = B (ix2 (n0 := 1) (n1 := N) 0 q)) :
    Cert.Sage.rowSoft (Cert.Sage.logits a2 d h wr b) j = Cert.Sage.rowSoft (Cert.Sage.logits A2 D H WR B) i := by
  have hrow : (fun q : Fin N => Cert.Sage.logits a2 d h wr b (ix2 (n0 := r) (n1 := N) (j 0) q))
      = (fun q : Fin N => Cert.Sage.logits A2 D H WR B (ix2 (n0 := R) (n1 := N) (i 0) q)) :=
    funext fun q => by
      show ((a2 (ix2 (n0 := r) (n1 := N) (j 0) q) * d (ix2 (n0 := r) (n1 := 1) (j 0) 0)) + b (ix2 (n0 := 1) (n1 := N) 0 q))
          + matProd h wr (ix2 (n0 := r) (n1 := N) (j 0) q)
        = ((A2 (ix2 (n0 := R) (n1 := N) (i 0) q) * D (ix2 (n0 := R) (n1 := 1) (i 0) 0)) + B (ix2 (n0 := 1) (n1 := N) 0 q))
          + matProd H WR (ix2 (n0 := R) (n1 := N) (i 0) q)
      rw [hA q, hD, hB q, matProd_of_rows H WR h wr (ix2 (n0 := r) (n1 := N) (j 0) q) (ix2 (n0 := R) (n1 := N) (i 0) q) hH (fun k => hW k q)]
  show Cert.LibRowSoftmax.soft (fun q : Fin N => Cert.Sage.logits a2 d h wr b (ix2 (n0 := r) (n1 := N) (j 0) q)) (j 1)
    = Cert.LibRowSoftmax.soft (fun q : Fin N => Cert.Sage.logits A2 D H WR B (ix2 (n0 := R) (n1 := N) (i 0) q)) (i 1)
  rw [hrow, h1]

/-- The block indices over the grid: at point `t` the aggregate, the factor column, the features and the output sit at
    row block `t`, the weights and the bias row at their one block. -/
theorem softIndex : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The input arrays as the region finds them: the aggregate, the factor column, the features, the right weights, the
    bias row. -/
abbrev softAgg (c : Dev nD) : S50000x64.Idx → EReal := V c (Pipeline.arrRef spec5 0)
abbrev softFac (c : Dev nD) : S50000x1.Idx → EReal := V c (Pipeline.arrRef spec5 1)
abbrev softFeat (c : Dev nD) : S50000x128.Idx → EReal := V c (Pipeline.arrRef spec5 2)
abbrev softWts (c : Dev nD) : S128x64.Idx → EReal := V c (Pipeline.arrRef spec5 3)
abbrev softBias (c : Dev nD) : S1x64.Idx → EReal := V c (Pipeline.arrRef spec5 4)

set_option maxHeartbeats 800000 in
/-- WHAT POINT `t` WRITES BACK is row block `t` of the row softmax of the logits of the whole arrays: row `5000 t + p`
    reads row `5000 t + p` of the aggregate, of the factor column and of the features — row `p` of their blocks — and
    the whole weights and bias row. -/
theorem softFlushed_eq (c : Dev nD) (t : Fin cfg5.N) :
    (dat5 V c).flushed 5 t = ((cfg5.win 5).blk t).view.read (Elt Ideal)
      (Cert.Sage.rowSoft (Cert.Sage.logits (R := 50000) (K := 128) (N := 64)
        (softAgg V c) (softFac V c) (softFeat V c) (softWts V c) (softBias V c))) := by
  show (cfg5.win 5).cut (grid5.coords t) ((dat5 V c).after 5 t) = _
  rw [after5_5]
  obtain ⟨a00, a01, a10, a11, a20, a21, a30, a31, a40, a41, a50, a51⟩ := softIndex t
  funext j
  refine (softBlock_apply (iblk5 V c 0 t) (iblk5 V c 1 t) (iblk5 V c 2 t) (iblk5 V c 3 t) (iblk5 V c 4 t) j).trans ?_
  show Cert.Sage.rowSoft (Cert.Sage.logits (R := 5000) (K := 128) (N := 64) (iblk5 V c 0 t) (iblk5 V c 1 t) (iblk5 V c 2 t) (iblk5 V c 3 t) (iblk5 V c 4 t)) j
    = Cert.Sage.rowSoft (Cert.Sage.logits (R := 50000) (K := 128) (N := 64)
        (softAgg V c) (softFac V c) (softFeat V c) (softWts V c) (softBias V c)) (((cfg5.win 5).blk t).view.emb j)
  refine rowSoft_logits_of_rows (softAgg V c) (softFac V c) (softFeat V c) (softWts V c) (softBias V c) _ _ _ _ _ j _
    ?_ (fun q => ?_) ?_ (fun k => ?_) (fun k q => ?_) (fun q => ?_)
  · refine Fin.ext ?_
    show (j 1).val = win5_5.index t (1 : Fin 2) * 64 + 1 * (j 1).val
    omega
  · show V c (Pipeline.arrRef spec5 0) (((cfg5.win 0).blk t).view.emb (ix2 (j 0) q))
        = V c (Pipeline.arrRef spec5 0) (ix2 ((((cfg5.win 5).blk t).view.emb j) 0) q)
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 64 + 1 * q.val = q.val; omega
  · show V c (Pipeline.arrRef spec5 1) (((cfg5.win 1).blk t).view.emb (ix2 (j 0) (0 : Fin 1)))
        = V c (Pipeline.arrRef spec5 1) (ix2 ((((cfg5.win 5).blk t).view.emb j) 0) (0 : Fin 1))
    refine congrArg _ (funext fun a => Fin.ext ?_)
    match a with
    | ⟨0, _⟩ => show win5_1.index t (0 : Fin 2) * 5000 + 1 * (j 0).val = win5_5.index t (0 : Fin 2) * 5000 + 1 * (j 0).val; omega
    | ⟨1, _⟩ => show win5_1.index t (1 : Fin 2) * 1 + 1 * 0 = 0; omega
  · show V c (Pipeline.arrRef spec5 2) (((cfg5.win 2).blk t).view.emb (ix2 (j 0) k))
        = V c (Pipeline.arrRef spec5 2) (ix2 ((((cfg5.win 5).blk t).view.emb j) 0) k)
    refine congrArg _ (funext fun a => Fin.ext ?_)
    match a with
    | ⟨0, _⟩ => show win5_2.index t (0 : Fin 2) * 5000 + 1 * (j 0).val = win5_5.index t (0 : Fin 2) * 5000 + 1 * (j 0).val; omega
    | ⟨1, _⟩ => show win5_2.index t (1 : Fin 2) * 128 + 1 * k.val = k.val; omega
  · show V c (Pipeline.arrRef spec5 3) (((cfg5.win 3).blk t).view.emb (ix2 k q)) = V c (Pipeline.arrRef spec5 3) (ix2 k q)
    refine congrArg _ (funext fun a => Fin.ext ?_)
    match a with
    | ⟨0, _⟩ => show win5_3.index t (0 : Fin 2) * 128 + 1 * k.val = k.val; omega
    | ⟨1, _⟩ => show win5_3.index t (1 : Fin 2) * 64 + 1 * q.val = q.val; omega
  · show V c (Pipeline.arrRef spec5 4) (((cfg5.win 4).blk t).view.emb (ix2 (0 : Fin 1) q)) = V c (Pipeline.arrRef spec5 4) (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = q.val; omega

/-- THE BLOCKS TILE THE OUTPUT: row `r` lies in the block of point `r / 5000`, and every point writes its block back. -/
theorem softCover (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  obtain ⟨t, ht⟩ : ∃ t : Fin cfg5.N, t.val = (i 0).val / 5000 := ⟨⟨(i 0).val / 5000, by rw [hN]; omega⟩, rfl⟩
  refine ⟨t, flush5_5 t, ?_⟩
  obtain ⟨a00, a01, a10, a11, a20, a21, a30, a31, a40, a41, a50, a51⟩ := softIndex t
  show i ∈ ((View.whole main_v87).slice (win5_5.rect t)).set
  rw [View.set_slice_whole, Rect.mem_set_unit]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 64 ≤ (i 1).val ∧ (i 1).val < win5_5.index t (1 : Fin 2) * 64 + 64
    omega

/-- THE OUTPUT ARRAY after the region's ten points: the softmax of every row of the logits of the input arrays. -/
theorem final5 (c : Dev nD) :
    (dat5 V c).arrAt 5 cfg5.N = Cert.Sage.rowSoft (Cert.Sage.logits (R := 50000) (K := 128) (N := 64)
      (V c (Pipeline.arrRef spec5 0) : S50000x64.Idx → EReal) (V c (Pipeline.arrRef spec5 1) : S50000x1.Idx → EReal)
      (V c (Pipeline.arrRef spec5 2) : S50000x128.Idx → EReal) (V c (Pipeline.arrRef spec5 3) : S128x64.Idx → EReal)
      (V c (Pipeline.arrRef spec5 4) : S1x64.Idx → EReal)) :=
  (dat5 V c).arrAt_eq_of_cover 5 _ (fun t _ => softFlushed_eq V c t) softCover

end Cert.KernelIdeal.RegA

end
-- ==== Proof.RegStatsPay.lean ====
/-
  The arithmetic of one grid point of the projection-with-statistics kernel, read at the extended reals.

  At a grid point the body holds a block of 5000 rows of the aggregated neighbours, of the row factors and of the
  node features, together with the two weight matrices and the bias row.  It forms the dense update of that block,
      lin = ((agg ⊙ d) · WL + b) + h · WR,
  a 5000 × 128 block, and two rows of 128 entries: the running column sums plus the column sums of the block, and the
  running column sums of squares plus the column sums of the block's squares.  The lemmas below read each of these
  vector terms entry by entry: the block is the specification's dense update of the block's operands, a column sum
  is a sum over the 5000 rows, and the zero row is zero.
-/
import proofs.«126719_j90941637525590_2_alg».proof.Proof.Gen.KernelIdeal.Skeleton
import proofs.«126719_j90941637525590_2_alg».proof.Proof.Spec
import proofs.«126719_j90941637525590_2_alg».proof.Proof.LibPlainDot
import proofs.«126719_j90941637525590_2_alg».proof.Proof.LibKeepdims
import Idealize.ShloMosaic.Lib.ValueLayout

noncomputable section

open scoped BigOperators

namespace Cert.KernelIdeal.RegR

open Idealize.ShloMosaic Idealize.ShloMosaic.ValueIdx Cert.Linear Cert.KernelIdeal Cert.KernelIdeal.Gen

/-- The matrix unit's dimension numbers contract the left operand's columns with the right operand's rows. -/
theorem contracts_dot : Contracts (R := 5000) (K := 128) (N := 128) dot_S5000x128_S128x128_S5000x128_1_0_0_1_n_n :=
  contracts_plain 5000 128 128

/-- Each row of a block scaled by that row's factor: the entrywise product with the factor column broadcast. -/
theorem scaled_eq (x0 : FVec Ideal S5000x128 .f32) (x1 : FVec Ideal S5000x1 .f32) :
    mulf x0 (broadcastTo S5000x128 x1 broadcasts_S5000x1_S5000x128)
      = fun j => x0 j * x1 (ix2 (n0 := 5000) (n1 := 1) (j 0) 0) := by
  funext j
  obtain ⟨p, q, rfl⟩ : ∃ (p : Fin 5000) (q : Fin 128), j = ix2 p q := ⟨j 0, j 1, eq_ix2 j⟩
  exact congrArg (x0 (ix2 p q) * ·) (Cert.LibKeepdims.broadcastTo_a1_ab_apply x1 broadcasts_S5000x1_S5000x128 p q)

/-- The dense update of a block of rows, as the vector operations spell it over operands already of their own
    shapes, is the specification's dense update of those operands. -/
theorem linOps_eq (x0 : FVec Ideal S5000x128 .f32) (x1 : FVec Ideal S5000x1 .f32) (x2 : FVec Ideal S5000x128 .f32)
    (x3 : FVec Ideal S128x128 .f32) (x4 : FVec Ideal S1x128 .f32) (x5 : FVec Ideal S128x128 .f32) :
    addf (addf (matmul dot_S5000x128_S128x128_S5000x128_1_0_0_1_n_n none
            (mulf x0 (broadcastTo S5000x128 x1 broadcasts_S5000x1_S5000x128)) x3 (constant (F := Ideal) S5000x128 .f32 0x00000000#32))
          (broadcastTo S5000x128 x4 broadcasts_S1x128_S5000x128))
        (matmul dot_S5000x128_S128x128_S5000x128_1_0_0_1_n_n none x2 x5 (constant (F := Ideal) S5000x128 .f32 0x00000000#32))
      = Cert.Sage.lin (R := 5000) (K := 128) (N := 128) x0 x1 x2 x3 x4 x5 := by
  have e1 := matmul_zero_eq contracts_dot none (mulf x0 (broadcastTo S5000x128 x1 broadcasts_S5000x1_S5000x128)) x3
  have e2 := matmul_zero_eq contracts_dot none x2 x5
  funext j
  obtain ⟨p, q, rfl⟩ : ∃ (p : Fin 5000) (q : Fin 128), j = ix2 p q := ⟨j 0, j 1, eq_ix2 j⟩
  show (matmul dot_S5000x128_S128x128_S5000x128_1_0_0_1_n_n none
            (mulf x0 (broadcastTo S5000x128 x1 broadcasts_S5000x1_S5000x128)) x3 (constant (F := Ideal) S5000x128 .f32 0x00000000#32) (ix2 p q)
          + broadcastTo S5000x128 x4 broadcasts_S1x128_S5000x128 (ix2 p q))
        + matmul dot_S5000x128_S128x128_S5000x128_1_0_0_1_n_n none x2 x5 (constant (F := Ideal) S5000x128 .f32 0x00000000#32) (ix2 p q)
      = (matProd (fun j => x0 j * x1 (ix2 (n0 := 5000) (n1 := 1) (j 0) 0)) x3 (ix2 p q) + x4 (ix2 (n0 := 1) (n1 := 128) 0 q))
        + matProd x2 x5 (ix2 p q)
  rw [show matmul dot_S5000x128_S128x128_S5000x128_1_0_0_1_n_n none
            (mulf x0 (broadcastTo S5000x128 x1 broadcasts_S5000x1_S5000x128)) x3 (constant (F := Ideal) S5000x128 .f32 0x00000000#32)
        = matProd (fun j => x0 j * x1 (ix2 (n0 := 5000) (n1 := 1) (j 0) 0)) x3 from e1.trans (congrArg (matProd · x3) (scaled_eq x0 x1)),
    show matmul dot_S5000x128_S128x128_S5000x128_1_0_0_1_n_n none x2 x5 (constant (F := Ideal) S5000x128 .f32 0x00000000#32)
        = matProd x2 x5 from e2,
    broadcastTo_1b_ab_apply x4 broadcasts_S1x128_S5000x128 p q]

/-- Region 0's block payload is the dense update of the block's operands. -/
theorem pay4_0_eq (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) :
    k0_pay4 (F := Ideal) x0 x1 x3 x4 x2 x5 = Cert.Sage.lin (R := 5000) (K := 128) (N := 128) x0 x1 x2 x3 x4 x5 := by
  unfold k0_pay4
  simp only [shapeCast_self]
  exact linOps_eq x0 x1 x2 x3 x4 x5

/-- Region 2's block payload is the same dense update. -/
theorem pay4_2_eq (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) :
    k2_pay4 (F := Ideal) x0 x1 x3 x4 x2 x5 = Cert.Sage.lin (R := 5000) (K := 128) (N := 128) x0 x1 x2 x3 x4 x5 := by
  unfold k2_pay4
  simp only [shapeCast_self]
  exact linOps_eq x0 x1 x2 x3 x4 x5

/-- The column sums of a block, as a row: at each column, the sum over the 5000 rows. -/
theorem colRow_apply (L : FVec Ideal S5000x128 .f32) (u : Fin 1) (q : Fin 128) :
    shapeCast S1x128 (multiReduction (F := Ideal) .add [0] S128 L 0x00000000#32 reduces_S5000x128_S128 (.inl rfl) rfl)
        shapeCasts_S128_S1x128 (ix2 u q)
      = ∑ r : Fin 5000, L (ix2 r q) :=
  (shapeCast_a_1a_apply _ shapeCasts_S128_S1x128 u q).trans
    (Cert.LibKeepdims.multiReduction_add_cols L 0x00000000#32 reduces_S5000x128_S128 (.inl rfl) rfl q)

/-- The zero row is zero at every entry. -/
theorem pay2_0_apply (i : S1x128.Idx) : k0_pay2 (F := Ideal) i = 0 := Ideal.ofBits_zero_f32
theorem pay3_0_apply (i : S1x128.Idx) : k0_pay3 (F := Ideal) i = 0 := Ideal.ofBits_zero_f32
theorem pay2_2_apply (i : S1x128.Idx) : k2_pay2 (F := Ideal) i = 0 := Ideal.ofBits_zero_f32
theorem pay3_2_apply (i : S1x128.Idx) : k2_pay3 (F := Ideal) i = 0 := Ideal.ofBits_zero_f32

/-- Region 0's running column sums: the row held before plus the column sums of the block. -/
theorem pay5_0_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (v : Vec Ideal S1x128 .f32)
    (u : Fin 1) (q : Fin 128) :
    k0_pay5 (F := Ideal) x0 x1 x3 x4 x2 x5 v (ix2 u q)
      = v (ix2 u q) + ∑ r : Fin 5000, Cert.Sage.lin (R := 5000) (K := 128) (N := 128) x0 x1 x2 x3 x4 x5 (ix2 r q) := by
  unfold k0_pay5
  rw [← pay4_0_eq x0 x1 x2 x3 x4 x5]
  exact congrArg₂ (· + ·) (congrFun (shapeCast_self v shapeCasts_S1x128_S1x128) (ix2 u q)) (colRow_apply _ u q)

/-- Region 2's running column sums. -/
theorem pay5_2_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (v : Vec Ideal S1x128 .f32)
    (u : Fin 1) (q : Fin 128) :
    k2_pay5 (F := Ideal) x0 x1 x3 x4 x2 x5 v (ix2 u q)
      = v (ix2 u q) + ∑ r : Fin 5000, Cert.Sage.lin (R := 5000) (K := 128) (N := 128) x0 x1 x2 x3 x4 x5 (ix2 r q) := by
  unfold k2_pay5
  rw [← pay4_2_eq x0 x1 x2 x3 x4 x5]
  exact congrArg₂ (· + ·) (congrFun (shapeCast_self v shapeCasts_S1x128_S1x128) (ix2 u q)) (colRow_apply _ u q)

/-- Region 0's running column sums of squares: the row held before plus the column sums of the block's squares. -/
theorem pay1_0_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (v : Vec Ideal S1x128 .f32)
    (u : Fin 1) (q : Fin 128) :
    k0_pay1 (F := Ideal) (k0_pay6 v) (k0_pay7 x0 x1 x3 x4 x2 x5) (ix2 u q)
      = v (ix2 u q) + ∑ r : Fin 5000, Cert.Sage.lin (R := 5000) (K := 128) (N := 128) x0 x1 x2 x3 x4 x5 (ix2 r q)
          * Cert.Sage.lin (R := 5000) (K := 128) (N := 128) x0 x1 x2 x3 x4 x5 (ix2 r q) := by
  unfold k0_pay1 k0_pay6 k0_pay7
  rw [← pay4_0_eq x0 x1 x2 x3 x4 x5]
  exact congrArg₂ (· + ·) (congrFun (shapeCast_self v shapeCasts_S1x128_S1x128) (ix2 u q)) (colRow_apply _ u q)

/-- Region 2's running column sums of squares. -/
theorem pay1_2_apply (x0 : Vec Ideal S5000x128 .f32) (x1 : Vec Ideal S5000x1 .f32) (x2 : Vec Ideal S5000x128 .f32)
    (x3 : Vec Ideal S128x128 .f32) (x4 : Vec Ideal S1x128 .f32) (x5 : Vec Ideal S128x128 .f32) (v : Vec Ideal S1x128 .f32)
    (u : Fin 1) (q : Fin 128) :
    k2_pay1 (F := Ideal) (k2_pay4 x0 x1 x3 x4 x2 x5) (k2_pay6 v) (ix2 u q)
      = v (ix2 u q) + ∑ r : Fin 5000, Cert.Sage.lin (R := 5000) (K := 128) (N := 128) x0 x1 x2 x3 x4 x5 (ix2 r q)
          * Cert.Sage.lin (R := 5000) (K := 128) (N := 128) x0 x1 x2 x3 x4 x5 (ix2 r q) := by
  unfold k2_pay1 k2_pay6
  rw [← pay4_2_eq x0 x1 x2 x3 x4 x5]
  exact congrArg₂ (· + ·) (congrFun (shapeCast_self v shapeCasts_S1x128_S1x128) (ix2 u q)) (colRow_apply _ u q)

end Cert.KernelIdeal.RegR

end
-- ==== Proof.RegStatsPieces.lean ====
/-
  What one grid point of the projection-with-statistics kernel leaves in its three output buffers, as values.

  The body stores the block of the dense update once, and each of the two statistics rows once (at the first point,
  after a store of the zero row which it then reads back).  Each buffer therefore ends holding the payload of its
  last store, whose operands are the point's input blocks and, for the statistics rows, the row held before.
-/
import proofs.«126719_j90941637525590_2_alg».proof.Proof.Gen.KernelIdeal.Frame
import Idealize.ShloMosaic.Lib.Pipeline.Value
import Idealize.ShloMosaic.Lib.Tactic

set_option maxRecDepth 16384

noncomputable section

namespace Cert.KernelIdeal.RegR

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

variable (c : Dev nD)
  (a1 : Memref sig .tc .vmem S5000x128 .f32) (h1 : a1.IsWhole) (a2 : Memref sig .tc .vmem S5000x1 .f32) (h2 : a2.IsWhole)
  (a3 : Memref sig .tc .vmem S5000x128 .f32) (h3 : a3.IsWhole) (a4 : Memref sig .tc .vmem S128x128 .f32) (h4 : a4.IsWhole)
  (a5 : Memref sig .tc .vmem S1x128 .f32) (h5 : a5.IsWhole) (a6 : Memref sig .tc .vmem S128x128 .f32) (h6 : a6.IsWhole)
  (a7 : Memref sig .tc .vmem S5000x128 .f32) (h7 : a7.IsWhole) (a8 : Memref sig .tc .vmem S1x128 .f32) (h8 : a8.IsWhole)
  (a9 : Memref sig .tc .vmem S1x128 .f32) (h9 : a9.IsWhole)
  (x0 : Vec F S5000x128 .f32) (x1 : Vec F S5000x1 .f32) (x2 : Vec F S5000x128 .f32) (x3 : Vec F S128x128 .f32)
  (x4 : Vec F S1x128 .f32) (x5 : Vec F S128x128 .f32)

/-! ## Region 0 -/

/-- At the first point the block buffer ends holding the dense update of the point's input blocks. -/
theorem out0_A_6_eq (i : grid0.Coords) (hc : cond0_0 i) :
    out0_A_6 c i a1 h1 a2 h2 a3 h3 a4 h4 a5 h5 a6 h6 a7 h7 a8 h8 a9 h9 hc x0 x1 x2 x3 x4 x5 = k0_pay4 x0 x1 x3 x4 x2 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At a later point likewise. -/
theorem out0_B_6_eq (i : grid0.Coords) (hc : ¬cond0_0 i) (xo7 xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x3 x4 x2 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At the first point the sums row ends holding the zero row plus the block's column sums. -/
theorem out0_A_7_eq (i : grid0.Coords) (hc : cond0_0 i) :
    out0_A_7 c i a1 h1 a2 h2 a3 h3 a4 h4 a5 h5 a6 h6 a7 h7 a8 h8 a9 h9 hc x0 x1 x2 x3 x4 x5 = k0_pay5 x0 x1 x3 x4 x2 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]
  rw [View.readCov_unit_zero (S := S1x128) _ hz]

/-- At a later point it ends holding the row held before plus the block's column sums. -/
theorem out0_B_7_eq (i : grid0.Coords) (hc : ¬cond0_0 i) (xo7 xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x3 x4 x2 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At the first point the squares row ends holding the zero row plus the column sums of the block's squares. -/
theorem out0_A_8_eq (i : grid0.Coords) (hc : cond0_0 i) :
    out0_A_8 c i a1 h1 a2 h2 a3 h3 a4 h4 a5 h5 a6 h6 a7 h7 a8 h8 a9 h9 hc x0 x1 x2 x3 x4 x5 = k0_pay1 (k0_pay6 k0_pay3) (k0_pay7 x0 x1 x3 x4 x2 x5) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]
  rw [View.readCov_unit_zero (S := S1x128) _ hz]

/-- At a later point it ends holding the row held before plus the column sums of the block's squares. -/
theorem out0_B_8_eq (i : grid0.Coords) (hc : ¬cond0_0 i) (xo7 xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay6 xo8) (k0_pay7 x0 x1 x3 x4 x2 x5) := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-! ## Region 2 -/

/-- At the first point the block buffer ends holding the dense update of the point's input blocks. -/
theorem out2_A_6_eq (i : grid2.Coords) (hc : cond2_0 i) :
    out2_A_6 c i a1 h1 a2 h2 a3 h3 a4 h4 a5 h5 a6 h6 a7 h7 a8 h8 a9 h9 hc x0 x1 x2 x3 x4 x5 = k2_pay4 x0 x1 x3 x4 x2 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At a later point likewise. -/
theorem out2_B_6_eq (i : grid2.Coords) (hc : ¬cond2_0 i) (xo7 xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x3 x4 x2 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At the first point the sums row ends holding the zero row plus the block's column sums. -/
theorem out2_A_7_eq (i : grid2.Coords) (hc : cond2_0 i) :
    out2_A_7 c i a1 h1 a2 h2 a3 h3 a4 h4 a5 h5 a6 h6 a7 h7 a8 h8 a9 h9 hc x0 x1 x2 x3 x4 x5 = k2_pay5 x0 x1 x3 x4 x2 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]
  rw [View.readCov_unit_zero (S := S1x128) _ hz]

/-- At a later point it ends holding the row held before plus the block's column sums. -/
theorem out2_B_7_eq (i : grid2.Coords) (hc : ¬cond2_0 i) (xo7 xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x3 x4 x2 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

/-- At the first point the squares row ends holding the zero row plus the column sums of the block's squares. -/
theorem out2_A_8_eq (i : grid2.Coords) (hc : cond2_0 i) :
    out2_A_8 c i a1 h1 a2 h2 a3 h3 a4 h4 a5 h5 a6 h6 a7 h7 a8 h8 a9 h9 hc x0 x1 x2 x3 x4 x5 = k2_pay1 (k2_pay4 x0 x1 x3 x4 x2 x5) (k2_pay6 k2_pay3) := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]
  rw [View.readCov_unit_zero (S := S1x128) _ hz]

/-- At a later point it ends holding the row held before plus the column sums of the block's squares. -/
theorem out2_B_8_eq (i : grid2.Coords) (hc : ¬cond2_0 i) (xo7 xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x3 x4 x2 x5) (k2_pay6 xo8) := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S5000x128) hz, View.ld_unit_zero (S := S5000x1) hz, View.ld_unit_zero (S := S128x128) hz, View.ld_unit_zero (S := S1x128) hz]

end Cert.KernelIdeal.RegR

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.RegStats.lean ====
/-
  The three results of the projection-with-statistics kernel, as functions of its six input arrays.

  The grid has ten points; point t holds rows 5000·t … 5000·t + 4999 of the three row operands and the whole of the two
  weight matrices and of the bias row.  It writes the dense update of its block of rows to the same rows of the first
  result, so that result is the dense update of the whole arrays (a row of a matrix product depends on that row of the
  left operand only).  The two statistics rows are carried from point to point: zeroed at the first point, each point
  adds its block's column sums (of the entries, of their squares), and the rows are written back after the last point.
  By induction on the point, after point n they hold the column sums over the rows below 5000·(n + 1); after the last
  point that is every row, because a sum over 50000 = 10 · 5000 rows is ten runs of 5000.
-/
import proofs.«126719_j90941637525590_2_alg».proof.Proof.Gen.KernelIdeal.Frame
import proofs.«126719_j90941637525590_2_alg».proof.Proof.RegStatsPay
import proofs.«126719_j90941637525590_2_alg».proof.Proof.RegStatsPieces
import proofs.«126719_j90941637525590_2_alg».proof.Proof.LibRowBlock
import proofs.«126719_j90941637525590_2_alg».proof.Proof.LibSumSplit
import Idealize.ShloMosaic.Lib.Pipeline.Value

set_option maxRecDepth 16384

noncomputable section

open scoped BigOperators

namespace Cert.KernelIdeal.RegR

open Idealize.ShloMosaic Idealize.ShloMosaic.TcCoe Idealize.SL.Sem Idealize.ShloMosaic.ValueIdx
open Idealize.ShloMosaic.Pipeline (Dat)
open Cert.Linear Cert.KernelIdeal Cert.KernelIdeal.Gen

/-! ## Rows of the whole arrays and rows of a block -/

/-- An entry of the dense update of a block is the entry of the dense update of the whole arrays in the row the
    block's row comes from: row p of the block's row operands is row r of the arrays, and the weights and the bias
    are the arrays' own. -/
theorem lin_of_rows (A : (Mat 50000 128).Idx → EReal) (D : (Mat 50000 1).Idx → EReal) (H : (Mat 50000 128).Idx → EReal)
    (WL : (Mat 128 128).Idx → EReal) (B : (Mat 1 128).Idx → EReal) (WR : (Mat 128 128).Idx → EReal)
    (x0 : (Mat 5000 128).Idx → EReal) (x1 : (Mat 5000 1).Idx → EReal) (x2 : (Mat 5000 128).Idx → EReal)
    (x3 : (Mat 128 128).Idx → EReal) (x4 : (Mat 1 128).Idx → EReal) (x5 : (Mat 128 128).Idx → EReal)
    (p : Fin 5000) (r : Fin 50000) (q : Fin 128)
    (h0 : ∀ k : Fin 128, x0 (ix2 p k) = A (ix2 r k)) (h1 : x1 (ix2 p (0 : Fin 1)) = D (ix2 r (0 : Fin 1)))
    (h2 : ∀ k : Fin 128, x2 (ix2 p k) = H (ix2 r k)) (h3 : ∀ k : Fin 128, x3 (ix2 k q) = WL (ix2 k q))
    (h4 : x4 (ix2 (0 : Fin 1) q) = B (ix2 (0 : Fin 1) q)) (h5 : ∀ k : Fin 128, x5 (ix2 k q) = WR (ix2 k q)) :
    Cert.Sage.lin (R := 5000) (K := 128) (N := 128) x0 x1 x2 x3 x4 x5 (ix2 p q)
      = Cert.Sage.lin (R := 50000) (K := 128) (N := 128) A D H WL B WR (ix2 r q) := by
  have e1 : matProd (fun j => x0 j * x1 (ix2 (n0 := 5000) (n1 := 1) (j 0) 0)) x3 (ix2 p q)
      = matProd (fun j => A j * D (ix2 (n0 := 50000) (n1 := 1) (j 0) 0)) WL (ix2 r q) :=
    matProd_of_rows _ _ _ _ (ix2 p q) (ix2 r q)
      (fun k => by
        show x0 (ix2 p k) * x1 (ix2 p (0 : Fin 1)) = A (ix2 r k) * D (ix2 r (0 : Fin 1))
        rw [h0 k, h1])
      (fun k => h3 k)
  have e2 : matProd x2 x5 (ix2 p q) = matProd H WR (ix2 r q) :=
    matProd_of_rows _ _ _ _ (ix2 p q) (ix2 r q) (fun k => h2 k) (fun k => h5 k)
  show (matProd (fun j => x0 j * x1 (ix2 (n0 := 5000) (n1 := 1) (j 0) 0)) x3 (ix2 p q) + x4 (ix2 (0 : Fin 1) q))
        + matProd x2 x5 (ix2 p q)
      = (matProd (fun j => A j * D (ix2 (n0 := 50000) (n1 := 1) (j 0) 0)) WL (ix2 r q) + B (ix2 (0 : Fin 1) q))
        + matProd H WR (ix2 r q)
  rw [e1, e2, h4]

/-- A function of the 50000 rows continued by zero past them. -/
def rowExt (f : Fin 50000 → EReal) (k : ℕ) : EReal := if h : k < 50000 then f ⟨k, h⟩ else 0

theorem rowExt_of_lt (f : Fin 50000 → EReal) (k : ℕ) (h : k < 50000) : rowExt f k = f ⟨k, h⟩ := dif_pos h

/-- A sum over the 50000 rows is ten runs of 5000 rows. -/
theorem sum_rows_split (f : Fin 50000 → EReal) :
    ∑ n : Fin 50000, f n = ∑ i ∈ Finset.range 10, ∑ j ∈ Finset.range 5000, rowExt f (i * 5000 + j) := by
  rw [← Cert.LibSumSplit.sum_range_mul (rowExt f) 10 5000]
  show _ = ∑ k ∈ Finset.range 50000, rowExt f k
  rw [Finset.sum_range]
  exact Finset.sum_congr rfl fun n _ => (rowExt_of_lt f n.val n.isLt).symm

/-- The sum over a block's 5000 rows is run t of the sum over all rows, when the block's row p is row 5000·t + p. -/
theorem sum_block (f : Fin 50000 → EReal) (b : Fin 5000 → EReal) (t : ℕ) (ht : t < 10)
    (hb : ∀ p : Fin 5000, b p = f ⟨t * 5000 + p.val, by have := p.isLt; omega⟩) :
    ∑ p : Fin 5000, b p = ∑ j ∈ Finset.range 5000, rowExt f (t * 5000 + j) := by
  rw [Finset.sum_range]
  exact Finset.sum_congr rfl fun p _ => (hb p).trans (rowExt_of_lt f _ _).symm

/-- The column sums read at a column. -/
theorem colSum_apply (L : (Mat 50000 128).Idx → EReal) (u : Fin 1) (q : Fin 128) :
    Cert.Sage.colSum L (ix2 u q) = ∑ n : Fin 50000, L (ix2 n q) := by
  unfold Cert.Sage.colSum
  rfl

/-- The column sums of squares read at a column. -/
theorem colSumSq_apply (L : (Mat 50000 128).Idx → EReal) (u : Fin 1) (q : Fin 128) :
    Cert.Sage.colSumSq L (ix2 u q) = ∑ n : Fin 50000, L (ix2 n q) * L (ix2 n q) := by
  unfold Cert.Sage.colSumSq
  rfl

/-! ## Region 0 -/

section Region0

variable (V : (c : Dev nD) → (b : Ref sig .tc) → Buf (Elt Ideal) ((c : Thread nD τ).loc b))

/-! The printed index maps over the grid: the three row operands and the block result move one block of rows per
    point; the weights, the bias and the two statistics rows stay. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)

theorem lt_ten0 (t : Fin cfg0.N) : t.val < 10 := lt_of_lt_of_eq t.isLt N_0

/-- Row p of point t's block is row 5000·t + p of the arrays. -/
def row0 (t : Fin cfg0.N) (p : Fin 5000) : Fin 50000 :=
  ⟨t.val * 5000 + p.val, by have h := lt_ten0 t; have := p.isLt; omega⟩

/-! Each input block read at an entry, in the array it is a block of. -/

theorem blk0_0 (c : Dev nD) (t : Fin cfg0.N) (p : Fin 5000) (k : Fin 128) :
    (iblk0 V c 0 t : S5000x128.Idx → EReal) (ix2 p k) = (V c (Pipeline.arrRef spec0 0) : S50000x128.Idx → EReal) (ix2 (row0 t p) k) := by
  have e0 := (idx0_0 t).1
  have e1 := (idx0_0 t).2
  unfold iblk0
  rw [View.read_apply]
  refine congrArg (V c (Pipeline.arrRef spec0 0) : S50000x128.Idx → EReal) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blk0_1 (c : Dev nD) (t : Fin cfg0.N) (p : Fin 5000) :
    (iblk0 V c 1 t : S5000x1.Idx → EReal) (ix2 p (0 : Fin 1)) = (V c (Pipeline.arrRef spec0 1) : S50000x1.Idx → EReal) (ix2 (row0 t p) (0 : Fin 1)) := by
  have e0 := (idx0_1 t).1
  have e1 := (idx0_1 t).2
  unfold iblk0
  rw [View.read_apply]
  refine congrArg (V c (Pipeline.arrRef spec0 1) : S50000x1.Idx → EReal) (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 1 + 1 * 0 = 0; rw [e1]

theorem blk0_2 (c : Dev nD) (t : Fin cfg0.N) (p : Fin 5000) (k : Fin 128) :
    (iblk0 V c 2 t : S5000x128.Idx → EReal) (ix2 p k) = (V c (Pipeline.arrRef spec0 2) : S50000x128.Idx → EReal) (ix2 (row0 t p) k) := by
  have e0 := (idx0_2 t).1
  have e1 := (idx0_2 t).2
  unfold iblk0
  rw [View.read_apply]
  refine congrArg (V c (Pipeline.arrRef spec0 2) : S50000x128.Idx → EReal) (funext fun a => Fin.ext ?_)
  match a with
  | ⟨0, _⟩ => show win0_2.index t (0 : Fin 2) * 5000 + 1 * p.val = t.val * 5000 + p.val; rw [e0]; omega
  | ⟨1, _⟩ => show win0_2.index t (1 : Fin 2) * 128 + 1 * k.val = k.val; rw [e1]; omega

theorem blk0_3 (c : Dev nD) (t : Fin cfg0.N) (k : Fin 128) (q : Fin 128) :
    (iblk0 V c 3 t : S128x128.Idx → EReal) (ix2 k q) = (V c (Pipeline.arrRef spec0 3) : S128x128.Idx → EReal) (ix2 k q) := by
  have e0 := (idx0_3 t).1
  have e1 := (idx0_3 t).2
  unfold iblk0
  rw [View.read_apply]
  refine congrArg (V c (Pipeline.arrRef spec0 3) : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk0_4 (c : Dev nD) (t : Fin cfg0.N) (q : Fin 128) :
    (iblk0 V c 4 t : S1x128.Idx → EReal) (ix2 (0 : Fin 1) q) = (V c (Pipeline.arrRef spec0 4) : S1x128.Idx → EReal) (ix2 (0 : Fin 1) q) := by
  have e0 := (idx0_4 t).1
  have e1 := (idx0_4 t).2
  unfold iblk0
  rw [View.read_apply]
  refine congrArg (V c (Pipeline.arrRef spec0 4) : S1x128.Idx → EReal) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

theorem blk0_5 (c : Dev nD) (t : Fin cfg0.N) (k : Fin 128) (q : Fin 128) :
    (iblk0 V c 5 t : S128x128.Idx → EReal) (ix2 k q) = (V c (Pipeline.arrRef spec0 5) : S128x128.Idx → EReal) (ix2 k q) := by
  have e0 := (idx0_5 t).1
  have e1 := (idx0_5 t).2
  unfold iblk0
  rw [View.read_apply]
  refine congrArg (V c (Pipeline.arrRef spec0 5) : S128x128.Idx → EReal) (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- The dense update of the whole input arrays of the region. -/
abbrev LIN0 (c : Dev nD) : (Mat 50000 128).Idx → EReal :=
  Cert.Sage.lin (R := 50000) (K := 128) (N := 128)
    (V c (Pipeline.arrRef spec0 0) : S50000x128.Idx → EReal) (V c (Pipeline.arrRef spec0 1) : S50000x1.Idx → EReal) (V c (Pipeline.arrRef spec0 2) : S50000x128.Idx → EReal)
    (V c (Pipeline.arrRef spec0 3) : S128x128.Idx → EReal) (V c (Pipeline.arrRef spec0 4) : S1x128.Idx → EReal) (V c (Pipeline.arrRef spec0 5) : S128x128.Idx → EReal)

/-- The dense update of point t's blocks, at row p, is the dense update of the arrays at row 5000·t + p. -/
theorem linRow0 (c : Dev nD) (t : Fin cfg0.N) (p : Fin 5000) (q : Fin 128) :
    Cert.Sage.lin (R := 5000) (K := 128) (N := 128) (iblk0 V c 0 t) (iblk0 V c 1 t) (iblk0 V c 2 t) (iblk0 V c 3 t) (iblk0 V c 4 t) (iblk0 V c 5 t) (ix2 p q)
      = LIN0 V c (ix2 (row0 t p) q) :=
  lin_of_rows (V c (Pipeline.arrRef spec0 0) : S50000x128.Idx → EReal) (V c (Pipeline.arrRef spec0 1) : S50000x1.Idx → EReal) (V c (Pipeline.arrRef spec0 2) : S50000x128.Idx → EReal)
    (V c (Pipeline.arrRef spec0 3) : S128x128.Idx → EReal) (V c (Pipeline.arrRef spec0 4) : S1x128.Idx → EReal) (V c (Pipeline.arrRef spec0 5) : S128x128.Idx → EReal)
    (iblk0 V c 0 t) (iblk0 V c 1 t) (iblk0 V c 2 t) (iblk0 V c 3 t) (iblk0 V c 4 t) (iblk0 V c 5 t) p (row0 t p) q
    (fun k => blk0_0 V c t p k) (blk0_1 V c t p) (fun k => blk0_2 V c t p k)
    (fun k => blk0_3 V c t k q) (blk0_4 V c t q) (fun k => blk0_5 V c t k q)

/-! What the three output buffers hold after a point, as payloads of the point's input blocks. -/

theorem outs0_A (c : Dev nD) (t : Fin cfg0.N) (h0 : t.val % 10 = 0) :
    outsAt0 V c t.val t.isLt
      = (k0_pay4 (iblk0 V c 0 t) (iblk0 V c 1 t) (iblk0 V c 3 t) (iblk0 V c 4 t) (iblk0 V c 2 t) (iblk0 V c 5 t), k0_pay5 (iblk0 V c 0 t) (iblk0 V c 1 t) (iblk0 V c 3 t) (iblk0 V c 4 t) (iblk0 V c 2 t) (iblk0 V c 5 t) (k0_pay2 (F := Ideal)), k0_pay1 (k0_pay6 (k0_pay3 (F := Ideal))) (k0_pay7 (iblk0 V c 0 t) (iblk0 V c 1 t) (iblk0 V c 3 t) (iblk0 V c 4 t) (iblk0 V c 2 t) (iblk0 V c 5 t))) := by
  rw [outsAt0_A V c t h0]
  exact congrArg₂ Prod.mk
    (out0_A_6_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) ((hcond0_0 t).mpr h0))
    (congrArg₂ Prod.mk
      (out0_A_7_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) ((hcond0_0 t).mpr h0))
      (out0_A_8_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) ((hcond0_0 t).mpr h0)))

theorem outs0_B (c : Dev nD) (t : Fin cfg0.N) (h0 : ¬t.val % 10 = 0) :
    outsAt0 V c t.val t.isLt
      = (k0_pay4 (iblk0 V c 0 t) (iblk0 V c 1 t) (iblk0 V c 3 t) (iblk0 V c 4 t) (iblk0 V c 2 t) (iblk0 V c 5 t), k0_pay5 (iblk0 V c 0 t) (iblk0 V c 1 t) (iblk0 V c 3 t) (iblk0 V c 4 t) (iblk0 V c 2 t) (iblk0 V c 5 t) (outsAt0 V c (t.val - 1) (Nat.lt_of_le_of_lt (Nat.sub_le _ _) t.isLt)).2.1, k0_pay1 (k0_pay6 (outsAt0 V c (t.val - 1) (Nat.lt_of_le_of_lt (Nat.sub_le _ _) t.isLt)).2.2) (k0_pay7 (iblk0 V c 0 t) (iblk0 V c 1 t) (iblk0 V c 3 t) (iblk0 V c 4 t) (iblk0 V c 2 t) (iblk0 V c 5 t))) := by
  rw [outsAt0_B V c t h0]
  exact congrArg₂ Prod.mk
    (out0_B_6_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out0_B_7_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2)
      (out0_B_8_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (grid0.coords t) (fun h => h0 ((hcond0_0 t).mp h)) (outsAt0 V c (t.val - 1) (Nat.lt_of_le_of_lt (Nat.sub_le _ _) t.isLt)).2.1 (outsAt0 V c (t.val - 1) (Nat.lt_of_le_of_lt (Nat.sub_le _ _) t.isLt)).2.2))

/-- After every point the block buffer holds the dense update of the point's input blocks. -/
theorem blockOut0 (c : Dev nD) (t : Fin cfg0.N) :
    (outsAt0 V c t.val t.isLt).1 = Cert.Sage.lin (R := 5000) (K := 128) (N := 128) (iblk0 V c 0 t) (iblk0 V c 1 t) (iblk0 V c 2 t) (iblk0 V c 3 t) (iblk0 V c 4 t) (iblk0 V c 5 t) := by
  by_cases h0 : t.val % 10 = 0
  · rw [outs0_A V c t h0]
    exact pay4_0_eq (iblk0 V c 0 t) (iblk0 V c 1 t) (iblk0 V c 2 t) (iblk0 V c 3 t) (iblk0 V c 4 t) (iblk0 V c 5 t)
  · rw [outs0_B V c t h0]
    exact pay4_0_eq (iblk0 V c 0 t) (iblk0 V c 1 t) (iblk0 V c 2 t) (iblk0 V c 3 t) (iblk0 V c 4 t) (iblk0 V c 5 t)

/-! ### The block result: every point writes its rows of the dense update -/

theorem flushed0_6 (c : Dev nD) (t : Fin cfg0.N) :
    (dat0 V c).flushed 6 t = ((cfg0.win 6).blk t).view.read (Elt Ideal) (LIN0 V c) := by
  show (cfg0.win 6).cut (grid0.coords t) ((dat0 V c).after 6 t) = _
  rw [after0_6, blockOut0 V c t]
  funext j
  obtain ⟨p, q, rfl⟩ : ∃ (p : Fin 5000) (q : Fin 128), j = ix2 p q := ⟨j 0, j 1, eq_ix2 j⟩
  have he : ((cfg0.win 6).blk t).view.emb (ix2 p q) = ix2 (row0 t p) q := funext fun a => Fin.ext (by
    match a with
    | ⟨0, _⟩ => show win0_6.index t (0 : Fin 2) * 5000 + 1 * p.val = t.val * 5000 + p.val; rw [(idx0_6 t).1]; omega
    | ⟨1, _⟩ => show win0_6.index t (1 : Fin 2) * 128 + 1 * q.val = q.val; rw [(idx0_6 t).2]; omega)
  show Cert.Sage.lin (R := 5000) (K := 128) (N := 128) (iblk0 V c 0 t) (iblk0 V c 1 t) (iblk0 V c 2 t) (iblk0 V c 3 t) (iblk0 V c 4 t) (iblk0 V c 5 t) (ix2 p q)
    = LIN0 V c (((cfg0.win 6).blk t).view.emb (ix2 p q))
  rw [he]
  exact linRow0 V c t p q

/-- An index of the block result is in point t's block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26_0).slice (win0_6.rect t)).set ↔ _
  rw [View.set_slice_whole, Rect.mem_set_unit]
  exact Iff.rfl

/-- THE BLOCK RESULT: the dense update of the region's input arrays (row r is written by point r / 5000). -/
theorem final0_6 (c : Dev nD) :
    (Gen.dat0 (F := Ideal) V c).arrAt 6 cfg0.N = Cert.Sage.lin (R := 50000) (K := 128) (N := 128)
      (V c (Pipeline.arrRef spec0 0) : S50000x128.Idx → EReal) (V c (Pipeline.arrRef spec0 1) : S50000x1.Idx → EReal)
      (V c (Pipeline.arrRef spec0 2) : S50000x128.Idx → EReal) (V c (Pipeline.arrRef spec0 3) : S128x128.Idx → EReal)
      (V c (Pipeline.arrRef spec0 4) : S1x128.Idx → EReal) (V c (Pipeline.arrRef spec0 5) : S128x128.Idx → EReal) :=
  (dat0 V c).arrAt_eq_of_cover 6 (LIN0 V c) (fun t _ => flushed0_6 V c t) fun i => by
    have hi0 : (i 0).val < 50000 := (i 0).isLt
    have hi1 : (i 1).val < 128 := (i 1).isLt
    have ht : (i 0).val / 5000 < cfg0.N := by rw [show cfg0.N = 10 from N_0]; omega
    refine ⟨⟨(i 0).val / 5000, ht⟩, flush0_6 _, ?_⟩
    rw [mem_blk0_6]
    intro a
    match a with
    | ⟨0, _⟩ =>
      show win0_6.index ⟨(i 0).val / 5000, ht⟩ (0 : Fin 2) * 5000 ≤ (i 0).val
        ∧ (i 0).val < win0_6.index ⟨(i 0).val / 5000, ht⟩ (0 : Fin 2) * 5000 + 5000
      rw [(idx0_6 ⟨(i 0).val / 5000, ht⟩).1]
      show (i 0).val / 5000 * 5000 ≤ (i 0).val ∧ (i 0).val < (i 0).val / 5000 * 5000 + 5000
      omega
    | ⟨1, _⟩ =>
      show win0_6.index ⟨(i 0).val / 5000, ht⟩ (1 : Fin 2) * 128 ≤ (i 1).val
        ∧ (i 1).val < win0_6.index ⟨(i 0).val / 5000, ht⟩ (1 : Fin 2) * 128 + 128
      rw [(idx0_6 ⟨(i 0).val / 5000, ht⟩).2]
      omega

/-! ### The statistics rows: carried from point to point, written back after the last -/

/-- The column sums of point t's block are run t of the column sums over all rows. -/
theorem blockCol0 (c : Dev nD) (t : Fin cfg0.N) (q : Fin 128) :
    ∑ r : Fin 5000, Cert.Sage.lin (R := 5000) (K := 128) (N := 128) (iblk0 V c 0 t) (iblk0 V c 1 t) (iblk0 V c 2 t) (iblk0 V c 3 t) (iblk0 V c 4 t) (iblk0 V c 5 t) (ix2 r q)
      = ∑ j ∈ Finset.range 5000, rowExt (fun r => LIN0 V c (ix2 r q)) (t.val * 5000 + j) :=
  sum_block (fun r => LIN0 V c (ix2 r q)) (fun p => Cert.Sage.lin (R := 5000) (K := 128) (N := 128) (iblk0 V c 0 t) (iblk0 V c 1 t) (iblk0 V c 2 t) (iblk0 V c 3 t) (iblk0 V c 4 t) (iblk0 V c 5 t) (ix2 p q)) t.val (lt_ten0 t) (fun p => linRow0 V c t p q)

/-- Likewise for the squares. -/
theorem blockColSq0 (c : Dev nD) (t : Fin cfg0.N) (q : Fin 128) :
    ∑ r : Fin 5000, Cert.Sage.lin (R := 5000) (K := 128) (N := 128) (iblk0 V c 0 t) (iblk0 V c 1 t) (iblk0 V c 2 t) (iblk0 V c 3 t) (iblk0 V c 4 t) (iblk0 V c 5 t) (ix2 r q) * Cert.Sage.lin (R := 5000) (K := 128) (N := 128) (iblk0 V c 0 t) (iblk0 V c 1 t) (iblk0 V c 2 t) (iblk0 V c 3 t) (iblk0 V c 4 t) (iblk0 V c 5 t) (ix2 r q)
      = ∑ j ∈ Finset.range 5000, rowExt (fun r => LIN0 V c (ix2 r q) * LIN0 V c (ix2 r q)) (t.val * 5000 + j) :=
  sum_block (fun r => LIN0 V c (ix2 r q) * LIN0 V c (ix2 r q)) (fun p => Cert.Sage.lin (R := 5000) (K := 128) (N := 128) (iblk0 V c 0 t) (iblk0 V c 1 t) (iblk0 V c 2 t) (iblk0 V c 3 t) (iblk0 V c 4 t) (iblk0 V c 5 t) (ix2 p q) * Cert.Sage.lin (R := 5000) (K := 128) (N := 128) (iblk0 V c 0 t) (iblk0 V c 1 t) (iblk0 V c 2 t) (iblk0 V c 3 t) (iblk0 V c 4 t) (iblk0 V c 5 t) (ix2 p q)) t.val (lt_ten0 t)
    (fun p => congrArg₂ (· * ·) (linRow0 V c t p q) (linRow0 V c t p q))

theorem sumsStep0_A (c : Dev nD) (t : Fin cfg0.N) (h0 : t.val % 10 = 0) (u : Fin 1) (q : Fin 128) :
    ((outsAt0 V c t.val t.isLt).2.1 : S1x128.Idx → EReal) (ix2 u q)
      = ∑ j ∈ Finset.range 5000, rowExt (fun r => LIN0 V c (ix2 r q)) (t.val * 5000 + j) := by
  rw [outs0_A V c t h0]
  refine (pay5_0_apply (iblk0 V c 0 t) (iblk0 V c 1 t) (iblk0 V c 2 t) (iblk0 V c 3 t) (iblk0 V c 4 t) (iblk0 V c 5 t) (k0_pay2 (F := Ideal)) u q).trans ?_
  rw [pay2_0_apply, zero_add]
  exact blockCol0 V c t q

theorem sumsStep0_B (c : Dev nD) (t : Fin cfg0.N) (h0 : ¬t.val % 10 = 0) (u : Fin 1) (q : Fin 128) :
    ((outsAt0 V c t.val t.isLt).2.1 : S1x128.Idx → EReal) (ix2 u q)
      = ((outsAt0 V c (t.val - 1) (Nat.lt_of_le_of_lt (Nat.sub_le _ _) t.isLt)).2.1 : S1x128.Idx → EReal) (ix2 u q)
        + ∑ j ∈ Finset.range 5000, rowExt (fun r => LIN0 V c (ix2 r q)) (t.val * 5000 + j) := by
  rw [outs0_B V c t h0]
  refine (pay5_0_apply (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 u q).trans ?_
  rw [blockCol0 V c t q]

/-- After point n the row holds, at each column, the sum over the rows of the first n + 1 blocks. -/
theorem sums0 (c : Dev nD) (u : Fin 1) (q : Fin 128) : ∀ (n : ℕ) (h : n < cfg0.N),
    ((outsAt0 V c n h).2.1 : S1x128.Idx → EReal) (ix2 u q)
      = ∑ i ∈ Finset.range (n + 1), ∑ j ∈ Finset.range 5000, rowExt (fun r => LIN0 V c (ix2 r q)) (i * 5000 + j)
  | 0, h => by
    rw [Finset.sum_range_one]
    exact sumsStep0_A V c ⟨0, h⟩ rfl u q
  | n + 1, h => by
    have hB : ¬(⟨n + 1, h⟩ : Fin cfg0.N).val % 10 = 0 := by
      have := lt_ten0 ⟨n + 1, h⟩
      dsimp only at this ⊢
      omega
    rw [Finset.sum_range_succ, ← sums0 c u q n (Nat.lt_of_succ_lt h)]
    exact sumsStep0_B V c ⟨n + 1, h⟩ hB u q

/-- The one write-back of the row, after the last point, writes the sums over all rows. -/
theorem flushed0_7 (c : Dev nD) (t : Fin cfg0.N) (hf : (cfg0.win 7).flush t = true) :
    (dat0 V c).flushed 7 t = ((cfg0.win 7).blk t).view.read (Elt Ideal) (Cert.Sage.colSum (LIN0 V c)) := by
  have h9 : t.val + 1 = 10 := by have := (flush0_7 t).mp hf; have := lt_ten0 t; omega
  show (cfg0.win 7).cut (grid0.coords t) ((dat0 V c).after 7 t) = _
  rw [after0_7]
  generalize hG : Cert.Sage.colSum (LIN0 V c) = G
  funext j
  obtain ⟨u, q, rfl⟩ : ∃ (u : Fin 1) (q : Fin 128), j = ix2 u q := ⟨j 0, j 1, eq_ix2 j⟩
  have he : ((cfg0.win 7).blk t).view.emb (ix2 u q) = ix2 (0 : Fin 1) q := funext fun a => Fin.ext (by
    match a with
    | ⟨0, _⟩ => show win0_7.index t (0 : Fin 2) * 1 + 1 * u.val = 0; rw [(idx0_7 t).1]; omega
    | ⟨1, _⟩ => show win0_7.index t (1 : Fin 2) * 128 + 1 * q.val = q.val; rw [(idx0_7 t).2]; omega)
  show ((outsAt0 V c t.val t.isLt).2.1 : S1x128.Idx → EReal) (ix2 u q) = G (((cfg0.win 7).blk t).view.emb (ix2 u q))
  rewrite [he, ← hG, colSum_apply (LIN0 V c) 0 q, sums0 V c u q t.val t.isLt, h9]
  exact (sum_rows_split (fun r => LIN0 V c (ix2 r q))).symm

theorem mem_blk0_7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v26_1).slice (win0_7.rect t)).set ↔ _
  rw [View.set_slice_whole, Rect.mem_set_unit]
  exact Iff.rfl

theorem final0_7 (c : Dev nD) :
    (Gen.dat0 (F := Ideal) V c).arrAt 7 cfg0.N = Cert.Sage.colSum (Cert.Sage.lin (R := 50000) (K := 128) (N := 128)
      (V c (Pipeline.arrRef spec0 0) : S50000x128.Idx → EReal) (V c (Pipeline.arrRef spec0 1) : S50000x1.Idx → EReal)
      (V c (Pipeline.arrRef spec0 2) : S50000x128.Idx → EReal) (V c (Pipeline.arrRef spec0 3) : S128x128.Idx → EReal)
      (V c (Pipeline.arrRef spec0 4) : S1x128.Idx → EReal) (V c (Pipeline.arrRef spec0 5) : S128x128.Idx → EReal)) :=
  (dat0 V c).arrAt_eq_of_cover 7 (Cert.Sage.colSum (LIN0 V c)) (flushed0_7 V c) fun i => by
    have h9 : 9 < cfg0.N := by rw [show cfg0.N = 10 from N_0]; omega
    have hi0 : (i 0).val < 1 := (i 0).isLt
    have hi1 : (i 1).val < 128 := (i 1).isLt
    refine ⟨⟨9, h9⟩, (flush0_7 _).mpr rfl, ?_⟩
    rw [mem_blk0_7]
    intro a
    match a with
    | ⟨0, _⟩ =>
      show win0_7.index ⟨9, h9⟩ (0 : Fin 2) * 1 ≤ (i 0).val ∧ (i 0).val < win0_7.index ⟨9, h9⟩ (0 : Fin 2) * 1 + 1
      rw [(idx0_7 ⟨9, h9⟩).1]
      omega
    | ⟨1, _⟩ =>
      show win0_7.index ⟨9, h9⟩ (1 : Fin 2) * 128 ≤ (i 1).val ∧ (i 1).val < win0_7.index ⟨9, h9⟩ (1 : Fin 2) * 128 + 128
      rw [(idx0_7 ⟨9, h9⟩).2]
      omega

theorem sumsqStep0_A (c : Dev nD) (t : Fin cfg0.N) (h0 : t.val % 10 = 0) (u : Fin 1) (q : Fin 128) :
    ((outsAt0 V c t.val t.isLt).2.2 : S1x128.Idx → EReal) (ix2 u q)
      = ∑ j ∈ Finset.range 5000, rowExt (fun r => LIN0 V c (ix2 r q) * LIN0 V c (ix2 r q)) (t.val * 5000 + j) := by
  rw [outs0_A V c t h0]
  refine (pay1_0_apply (iblk0 V c 0 t) (iblk0 V c 1 t) (iblk0 V c 2 t) (iblk0 V c 3 t) (iblk0 V c 4 t) (iblk0 V c 5 t) (k0_pay3 (F := Ideal)) u q).trans ?_
  rw [pay3_0_apply, zero_add]
  exact blockColSq0 V c t q

theorem sumsqStep0_B (c : Dev nD) (t : Fin cfg0.N) (h0 : ¬t.val % 10 = 0) (u : Fin 1) (q : Fin 128) :
    ((outsAt0 V c t.val t.isLt).2.2 : S1x128.Idx → EReal) (ix2 u q)
      = ((outsAt0 V c (t.val - 1) (Nat.lt_of_le_of_lt (Nat.sub_le _ _) t.isLt)).2.2 : S1x128.Idx → EReal) (ix2 u q)
        + ∑ j ∈ Finset.range 5000, rowExt (fun r => LIN0 V c (ix2 r q) * LIN0 V c (ix2 r q)) (t.val * 5000 + j) := by
  rw [outs0_B V c t h0]
  refine (pay1_0_apply (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2 u q).trans ?_
  rw [blockColSq0 V c t q]

/-- After point n the row holds, at each column, the sum over the rows of the first n + 1 blocks. -/
theorem sumsq0 (c : Dev nD) (u : Fin 1) (q : Fin 128) : ∀ (n : ℕ) (h : n < cfg0.N),
    ((outsAt0 V c n h).2.2 : S1x128.Idx → EReal) (ix2 u q)
      = ∑ i ∈ Finset.range (n + 1), ∑ j ∈ Finset.range 5000, rowExt (fun r => LIN0 V c (ix2 r q) * LIN0 V c (ix2 r q)) (i * 5000 + j)
  | 0, h => by
    rw [Finset.sum_range_one]
    exact sumsqStep0_A V c ⟨0, h⟩ rfl u q
  | n + 1, h => by
    have hB : ¬(⟨n + 1, h⟩ : Fin cfg0.N).val % 10 = 0 := by
      have := lt_ten0 ⟨n + 1, h⟩
      dsimp only at this ⊢
      omega
    rw [Finset.sum_range_succ, ← sumsq0 c u q n (Nat.lt_of_succ_lt h)]
    exact sumsqStep0_B V c ⟨n + 1, h⟩ hB u q

/-- The one write-back of the row, after the last point, writes the sums over all rows. -/
theorem flushed0_8 (c : Dev nD) (t : Fin cfg0.N) (hf : (cfg0.win 8).flush t = true) :
    (dat0 V c).flushed 8 t = ((cfg0.win 8).blk t).view.read (Elt Ideal) (Cert.Sage.colSumSq (LIN0 V c)) := by
  have h9 : t.val + 1 = 10 := by have := (flush0_8 t).mp hf; have := lt_ten0 t; omega
  show (cfg0.win 8).cut (grid0.coords t) ((dat0 V c).after 8 t) = _
  rw [after0_8]
  generalize hG : Cert.Sage.colSumSq (LIN0 V c) = G
  funext j
  obtain ⟨u, q, rfl⟩ : ∃ (u : Fin 1) (q : Fin 128), j = ix2 u q := ⟨j 0, j 1, eq_ix2 j⟩
  have he : ((cfg0.win 8).blk t).view.emb (ix2 u q) = ix2 (0 : Fin 1) q := funext fun a => Fin.ext (by
    match a with
    | ⟨0, _⟩ => show win0_8.index t (0 : Fin 2) * 1 + 1 * u.val = 0; rw [(idx0_8 t).1]; omega
    | ⟨1, _⟩ => show win0_8.index t (1 : Fin 2) * 128 + 1 * q.val = q.val; rw [(idx0_8 t).2]; omega)
  show ((outsAt0 V c t.val t.isLt).2.2 : S1x128.Idx → EReal) (ix2 u q) = G (((cfg0.win 8).blk t).view.emb (ix2 u q))
  rewrite [he, ← hG, colSumSq_apply (LIN0 V c) 0 q, sumsq0 V c u q t.val t.isLt, h9]
  exact (sum_rows_split (fun r => LIN0 V c (ix2 r q) * LIN0 V c (ix2 r q))).symm

theorem mem_blk0_8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v26_2).slice (win0_8.rect t)).set ↔ _
  rw [View.set_slice_whole, Rect.mem_set_unit]
  exact Iff.rfl

theorem final0_8 (c : Dev nD) :
    (Gen.dat0 (F := Ideal) V c).arrAt 8 cfg0.N = Cert.Sage.colSumSq (Cert.Sage.lin (R := 50000) (K := 128) (N := 128)
      (V c (Pipeline.arrRef spec0 0) : S50000x128.Idx → EReal) (V c (Pipeline.arrRef spec0 1) : S50000x1.Idx → EReal)
      (V c (Pipeline.arrRef spec0 2) : S50000x128.Idx → EReal) (V c (Pipeline.arrRef spec0 3) : S128x128.Idx → EReal)
      (V c (Pipeline.arrRef spec0 4) : S1x128.Idx → EReal) (V c (Pipeline.arrRef spec0 5) : S128x128.Idx → EReal)) :=
  (dat0 V c).arrAt_eq_of_cover 8 (Cert.Sage.colSumSq (LIN0 V c)) (flushed0_8 V c) fun i => by
    have h9 : 9 < cfg0.N := by rw [show cfg0.N = 10 from N_0]; omega
    have hi0 : (i 0).val < 1 := (i 0).isLt
    have hi1 : (i 1).val < 128 := (i 1).isLt
    refine ⟨⟨9, h9⟩, (flush0_8 _).mpr rfl, ?_⟩
    rw [mem_blk0_8]
    intro a
    match a with
    | ⟨0, _⟩ =>
      show win0_8.index ⟨9, h9⟩ (0 : Fin 2) * 1 ≤ (i 0).val ∧ (i 0).val < win0_8.index ⟨9, h9⟩ (0 : Fin 2) * 1 + 1
      rw [(idx0_8 ⟨9, h9⟩).1]
      omega
    | ⟨1, _⟩ =>
      show win0_8.index ⟨9, h9⟩ (1 : Fin 2) * 128 ≤ (i 1).val ∧ (i 1).val < win0_8.index ⟨9, h9⟩ (1 : Fin 2) * 128 + 128
      rw [(idx0_8 ⟨9, h9⟩).2]
      omega

end Region0

/-! ## Region 2 -/

section Region2

variable (V : (c : Dev nD) → (b : Ref sig .tc) → Buf (Elt Ideal) ((c : Thread nD τ).loc b))

/-! The printed index maps over the grid: the three row operands and the block result move one block of rows per
    point; the weights, the bias and the two statistics rows stay. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = t.val ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = 0 ∧ win2_8.index t (1 : Fin 2) = 0 :=
  (by decide +kernel : ∀ t : Fin grid2.N, _)

theorem lt_ten2 (t : Fin cfg2.N) : t.val < 10 := lt_of_lt_of_eq t.isLt N_2

/-- Row p of point t's block is row 5000·t + p of the arrays. -/
def row2 (t : Fin cfg2.N) (p : Fin 5000) : Fin 50000 :=
  ⟨t.val * 5000 + p.val, by have h := lt_ten2 t; have := p.isLt; omega⟩

/-! Each input block read at an entry, in the array it is a block of. -/

theorem blk2_0 (c : Dev nD) (t : Fin cfg2.N) (p : Fin 5000) (k : Fin 128) :
    (iblk2 V c 0 t : S5000x128.Idx → EReal) (ix2 p k) = (V c (Pipeline.arrRef spec2 0) : S50000x128.Idx → EReal) (ix2 (row2 t p) k) := by
  have e0 := (idx2_0 t).1
  have e1 := (idx2_0 t).2
  unfold iblk2
  rw [View.read_apply]
  refine congrArg (V c (Pipeline.arrRef spec2 0) : S50000x128.Idx → EReal) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem blk2_1 (c : Dev nD) (t : Fin cfg2.N) (p : Fin 5000) :
    (iblk2 V c 1 t : S5000x1.Idx → EReal) (ix2 p (0 : Fin 1)) = (V c (Pipeline.arrRef spec2 1) : S50000x1.Idx → EReal) (ix2 (row2 t p) (0 : Fin 1)) := by
  have e0 := (idx2_1 t).1
  have e1 := (idx2_1 t).2
  unfold iblk2
  rw [View.read_apply]
  refine congrArg (V c (Pipeline.arrRef spec2 1) : S50000x1.Idx → EReal) (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 1 + 1 * 0 = 0; rw [e1]

theorem blk2_2 (c : Dev nD) (t : Fin cfg2.N) (p : Fin 5000) (k : Fin 128) :
    (iblk2 V c 2 t : S5000x128.Idx → EReal) (ix2 p k) = (V c (Pipeline.arrRef spec2 2) : S50000x128.Idx → EReal) (ix2 (row2 t p) k) := by
  have e0 := (idx2_2 t).1
  have e1 := (idx2_2 t).2
  unfold iblk2
  rw [View.read_apply]
  refine congrArg (V c (Pipeline.arrRef spec2 2) : S50000x128.Idx → EReal) (funext fun a => Fin.ext ?_)
  match a with
  | ⟨0, _⟩ => show win2_2.index t (0 : Fin 2) * 5000 + 1 * p.val = t.val * 5000 + p.val; rw [e0]; omega
  | ⟨1, _⟩ => show win2_2.index t (1 : Fin 2) * 128 + 1 * k.val = k.val; rw [e1]; omega

theorem blk2_3 (c : Dev nD) (t : Fin cfg2.N) (k : Fin 128) (q : Fin 128) :
    (iblk2 V c 3 t : S128x128.Idx → EReal) (ix2 k q) = (V c (Pipeline.arrRef spec2 3) : S128x128.Idx → EReal) (ix2 k q) := by
  have e0 := (idx2_3 t).1
  have e1 := (idx2_3 t).2
  unfold iblk2
  rw [View.read_apply]
  refine congrArg (V c (Pipeline.arrRef spec2 3) : S128x128.Idx → EReal) (funext fun a => Fin.ext ?_)
  match a with
  | ⟨0, _⟩ => show win2_3.index t (0 : Fin 2) * 128 + 1 * k.val = k.val; rw [e0]; omega
  | ⟨1, _⟩ => show win2_3.index t (1 : Fin 2) * 128 + 1 * q.val = q.val; rw [e1]; omega

theorem blk2_4 (c : Dev nD) (t : Fin cfg2.N) (q : Fin 128) :
    (iblk2 V c 4 t : S1x128.Idx → EReal) (ix2 (0 : Fin 1) q) = (V c (Pipeline.arrRef spec2 4) : S1x128.Idx → EReal) (ix2 (0 : Fin 1) q) := by
  have e0 := (idx2_4 t).1
  have e1 := (idx2_4 t).2
  unfold iblk2
  rw [View.read_apply]
  refine congrArg (V c (Pipeline.arrRef spec2 4) : S1x128.Idx → EReal) (funext fun a => Fin.ext ?_)
  match a with
  | ⟨0, _⟩ => show win2_4.index t (0 : Fin 2) * 1 + 1 * 0 = 0; rw [e0]
  | ⟨1, _⟩ => show win2_4.index t (1 : Fin 2) * 128 + 1 * q.val = q.val; rw [e1]; omega

theorem blk2_5 (c : Dev nD) (t : Fin cfg2.N) (k : Fin 128) (q : Fin 128) :
    (iblk2 V c 5 t : S128x128.Idx → EReal) (ix2 k q) = (V c (Pipeline.arrRef spec2 5) : S128x128.Idx → EReal) (ix2 k q) := by
  have e0 := (idx2_5 t).1
  have e1 := (idx2_5 t).2
  unfold iblk2
  rw [View.read_apply]
  refine congrArg (V c (Pipeline.arrRef spec2 5) : S128x128.Idx → EReal) (funext fun a => Fin.ext ?_)
  match a with
  | ⟨0, _⟩ => show win2_5.index t (0 : Fin 2) * 128 + 1 * k.val = k.val; rw [e0]; omega
  | ⟨1, _⟩ => show win2_5.index t (1 : Fin 2) * 128 + 1 * q.val = q.val; rw [e1]; omega

/-- The dense update of the whole input arrays of the region. -/
abbrev LIN2 (c : Dev nD) : (Mat 50000 128).Idx → EReal :=
  Cert.Sage.lin (R := 50000) (K := 128) (N := 128)
    (V c (Pipeline.arrRef spec2 0) : S50000x128.Idx → EReal) (V c (Pipeline.arrRef spec2 1) : S50000x1.Idx → EReal) (V c (Pipeline.arrRef spec2 2) : S50000x128.Idx → EReal)
    (V c (Pipeline.arrRef spec2 3) : S128x128.Idx → EReal) (V c (Pipeline.arrRef spec2 4) : S1x128.Idx → EReal) (V c (Pipeline.arrRef spec2 5) : S128x128.Idx → EReal)

/-- The dense update of point t's blocks, at row p, is the dense update of the arrays at row 5000·t + p. -/
theorem linRow2 (c : Dev nD) (t : Fin cfg2.N) (p : Fin 5000) (q : Fin 128) :
    Cert.Sage.lin (R := 5000) (K := 128) (N := 128) (iblk2 V c 0 t) (iblk2 V c 1 t) (iblk2 V c 2 t) (iblk2 V c 3 t) (iblk2 V c 4 t) (iblk2 V c 5 t) (ix2 p q)
      = LIN2 V c (ix2 (row2 t p) q) :=
  lin_of_rows (V c (Pipeline.arrRef spec2 0) : S50000x128.Idx → EReal) (V c (Pipeline.arrRef spec2 1) : S50000x1.Idx → EReal) (V c (Pipeline.arrRef spec2 2) : S50000x128.Idx → EReal)
    (V c (Pipeline.arrRef spec2 3) : S128x128.Idx → EReal) (V c (Pipeline.arrRef spec2 4) : S1x128.Idx → EReal) (V c (Pipeline.arrRef spec2 5) : S128x128.Idx → EReal)
    (iblk2 V c 0 t) (iblk2 V c 1 t) (iblk2 V c 2 t) (iblk2 V c 3 t) (iblk2 V c 4 t) (iblk2 V c 5 t) p (row2 t p) q
    (fun k => blk2_0 V c t p k) (blk2_1 V c t p) (fun k => blk2_2 V c t p k)
    (fun k => blk2_3 V c t k q) (blk2_4 V c t q) (fun k => blk2_5 V c t k q)

/-! What the three output buffers hold after a point, as payloads of the point's input blocks. -/

theorem outs2_A (c : Dev nD) (t : Fin cfg2.N) (h0 : t.val % 10 = 0) :
    outsAt2 V c t.val t.isLt
      = (k2_pay4 (iblk2 V c 0 t) (iblk2 V c 1 t) (iblk2 V c 3 t) (iblk2 V c 4 t) (iblk2 V c 2 t) (iblk2 V c 5 t), k2_pay5 (iblk2 V c 0 t) (iblk2 V c 1 t) (iblk2 V c 3 t) (iblk2 V c 4 t) (iblk2 V c 2 t) (iblk2 V c 5 t) (k2_pay2 (F := Ideal)), k2_pay1 (k2_pay4 (iblk2 V c 0 t) (iblk2 V c 1 t) (iblk2 V c 3 t) (iblk2 V c 4 t) (iblk2 V c 2 t) (iblk2 V c 5 t)) (k2_pay6 (k2_pay3 (F := Ideal)))) := by
  rw [outsAt2_A V c t h0]
  exact congrArg₂ Prod.mk
    (out2_A_6_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) ((hcond2_0 t).mpr h0))
    (congrArg₂ Prod.mk
      (out2_A_7_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) ((hcond2_0 t).mpr h0))
      (out2_A_8_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) ((hcond2_0 t).mpr h0)))

theorem outs2_B (c : Dev nD) (t : Fin cfg2.N) (h0 : ¬t.val % 10 = 0) :
    outsAt2 V c t.val t.isLt
      = (k2_pay4 (iblk2 V c 0 t) (iblk2 V c 1 t) (iblk2 V c 3 t) (iblk2 V c 4 t) (iblk2 V c 2 t) (iblk2 V c 5 t), k2_pay5 (iblk2 V c 0 t) (iblk2 V c 1 t) (iblk2 V c 3 t) (iblk2 V c 4 t) (iblk2 V c 2 t) (iblk2 V c 5 t) (outsAt2 V c (t.val - 1) (Nat.lt_of_le_of_lt (Nat.sub_le _ _) t.isLt)).2.1, k2_pay1 (k2_pay4 (iblk2 V c 0 t) (iblk2 V c 1 t) (iblk2 V c 3 t) (iblk2 V c 4 t) (iblk2 V c 2 t) (iblk2 V c 5 t)) (k2_pay6 (outsAt2 V c (t.val - 1) (Nat.lt_of_le_of_lt (Nat.sub_le _ _) t.isLt)).2.2)) := by
  rw [outsAt2_B V c t h0]
  exact congrArg₂ Prod.mk
    (out2_B_6_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out2_B_7_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2)
      (out2_B_8_eq c (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t) (grid2.coords t) (fun h => h0 ((hcond2_0 t).mp h)) (outsAt2 V c (t.val - 1) (Nat.lt_of_le_of_lt (Nat.sub_le _ _) t.isLt)).2.1 (outsAt2 V c (t.val - 1) (Nat.lt_of_le_of_lt (Nat.sub_le _ _) t.isLt)).2.2))

/-- After every point the block buffer holds the dense update of the point's input blocks. -/
theorem blockOut2 (c : Dev nD) (t : Fin cfg2.N) :
    (outsAt2 V c t.val t.isLt).1 = Cert.Sage.lin (R := 5000) (K := 128) (N := 128) (iblk2 V c 0 t) (iblk2 V c 1 t) (iblk2 V c 2 t) (iblk2 V c 3 t) (iblk2 V c 4 t) (iblk2 V c 5 t) := by
  by_cases h0 : t.val % 10 = 0
  · rw [outs2_A V c t h0]
    exact pay4_2_eq (iblk2 V c 0 t) (iblk2 V c 1 t) (iblk2 V c 2 t) (iblk2 V c 3 t) (iblk2 V c 4 t) (iblk2 V c 5 t)
  · rw [outs2_B V c t h0]
    exact pay4_2_eq (iblk2 V c 0 t) (iblk2 V c 1 t) (iblk2 V c 2 t) (iblk2 V c 3 t) (iblk2 V c 4 t) (iblk2 V c 5 t)

/-! ### The block result: every point writes its rows of the dense update -/

theorem flushed2_6 (c : Dev nD) (t : Fin cfg2.N) :
    (dat2 V c).flushed 6 t = ((cfg2.win 6).blk t).view.read (Elt Ideal) (LIN2 V c) := by
  show (cfg2.win 6).cut (grid2.coords t) ((dat2 V c).after 6 t) = _
  rw [after2_6, blockOut2 V c t]
  funext j
  obtain ⟨p, q, rfl⟩ : ∃ (p : Fin 5000) (q : Fin 128), j = ix2 p q := ⟨j 0, j 1, eq_ix2 j⟩
  have he : ((cfg2.win 6).blk t).view.emb (ix2 p q) = ix2 (row2 t p) q := funext fun a => Fin.ext (by
    match a with
    | ⟨0, _⟩ => show win2_6.index t (0 : Fin 2) * 5000 + 1 * p.val = t.val * 5000 + p.val; rw [(idx2_6 t).1]; omega
    | ⟨1, _⟩ => show win2_6.index t (1 : Fin 2) * 128 + 1 * q.val = q.val; rw [(idx2_6 t).2]; omega)
  show Cert.Sage.lin (R := 5000) (K := 128) (N := 128) (iblk2 V c 0 t) (iblk2 V c 1 t) (iblk2 V c 2 t) (iblk2 V c 3 t) (iblk2 V c 4 t) (iblk2 V c 5 t) (ix2 p q)
    = LIN2 V c (((cfg2.win 6).blk t).view.emb (ix2 p q))
  rw [he]
  exact linRow2 V c t p q

/-- An index of the block result is in point t's block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v56_0).slice (win2_6.rect t)).set ↔ _
  rw [View.set_slice_whole, Rect.mem_set_unit]
  exact Iff.rfl

/-- THE BLOCK RESULT: the dense update of the region's input arrays (row r is written by point r / 5000). -/
theorem final2_6 (c : Dev nD) :
    (Gen.dat2 (F := Ideal) V c).arrAt 6 cfg2.N = Cert.Sage.lin (R := 50000) (K := 128) (N := 128)
      (V c (Pipeline.arrRef spec2 0) : S50000x128.Idx → EReal) (V c (Pipeline.arrRef spec2 1) : S50000x1.Idx → EReal)
      (V c (Pipeline.arrRef spec2 2) : S50000x128.Idx → EReal) (V c (Pipeline.arrRef spec2 3) : S128x128.Idx → EReal)
      (V c (Pipeline.arrRef spec2 4) : S1x128.Idx → EReal) (V c (Pipeline.arrRef spec2 5) : S128x128.Idx → EReal) :=
  (dat2 V c).arrAt_eq_of_cover 6 (LIN2 V c) (fun t _ => flushed2_6 V c t) fun i => by
    have hi0 : (i 0).val < 50000 := (i 0).isLt
    have hi1 : (i 1).val < 128 := (i 1).isLt
    have ht : (i 0).val / 5000 < cfg2.N := by rw [show cfg2.N = 10 from N_2]; omega
    refine ⟨⟨(i 0).val / 5000, ht⟩, flush2_6 _, ?_⟩
    rw [mem_blk2_6]
    intro a
    match a with
    | ⟨0, _⟩ =>
      show win2_6.index ⟨(i 0).val / 5000, ht⟩ (0 : Fin 2) * 5000 ≤ (i 0).val
        ∧ (i 0).val < win2_6.index ⟨(i 0).val / 5000, ht⟩ (0 : Fin 2) * 5000 + 5000
      rw [(idx2_6 ⟨(i 0).val / 5000, ht⟩).1]
      show (i 0).val / 5000 * 5000 ≤ (i 0).val ∧ (i 0).val < (i 0).val / 5000 * 5000 + 5000
      omega
    | ⟨1, _⟩ =>
      show win2_6.index ⟨(i 0).val / 5000, ht⟩ (1 : Fin 2) * 128 ≤ (i 1).val
        ∧ (i 1).val < win2_6.index ⟨(i 0).val / 5000, ht⟩ (1 : Fin 2) * 128 + 128
      rw [(idx2_6 ⟨(i 0).val / 5000, ht⟩).2]
      omega

/-! ### The statistics rows: carried from point to point, written back after the last -/

/-- The column sums of point t's block are run t of the column sums over all rows. -/
theorem blockCol2 (c : Dev nD) (t : Fin cfg2.N) (q : Fin 128) :
    ∑ r : Fin 5000, Cert.Sage.lin (R := 5000) (K := 128) (N := 128) (iblk2 V c 0 t) (iblk2 V c 1 t) (iblk2 V c 2 t) (iblk2 V c 3 t) (iblk2 V c 4 t) (iblk2 V c 5 t) (ix2 r q)
      = ∑ j ∈ Finset.range 5000, rowExt (fun r => LIN2 V c (ix2 r q)) (t.val * 5000 + j) :=
  sum_block (fun r => LIN2 V c (ix2 r q)) (fun p => Cert.Sage.lin (R := 5000) (K := 128) (N := 128) (iblk2 V c 0 t) (iblk2 V c 1 t) (iblk2 V c 2 t) (iblk2 V c 3 t) (iblk2 V c 4 t) (iblk2 V c 5 t) (ix2 p q)) t.val (lt_ten2 t) (fun p => linRow2 V c t p q)

/-- Likewise for the squares. -/
theorem blockColSq2 (c : Dev nD) (t : Fin cfg2.N) (q : Fin 128) :
    ∑ r : Fin 5000, Cert.Sage.lin (R := 5000) (K := 128) (N := 128) (iblk2 V c 0 t) (iblk2 V c 1 t) (iblk2 V c 2 t) (iblk2 V c 3 t) (iblk2 V c 4 t) (iblk2 V c 5 t) (ix2 r q) * Cert.Sage.lin (R := 5000) (K := 128) (N := 128) (iblk2 V c 0 t) (iblk2 V c 1 t) (iblk2 V c 2 t) (iblk2 V c 3 t) (iblk2 V c 4 t) (iblk2 V c 5 t) (ix2 r q)
      = ∑ j ∈ Finset.range 5000, rowExt (fun r => LIN2 V c (ix2 r q) * LIN2 V c (ix2 r q)) (t.val * 5000 + j) :=
  sum_block (fun r => LIN2 V c (ix2 r q) * LIN2 V c (ix2 r q)) (fun p => Cert.Sage.lin (R := 5000) (K := 128) (N := 128) (iblk2 V c 0 t) (iblk2 V c 1 t) (iblk2 V c 2 t) (iblk2 V c 3 t) (iblk2 V c 4 t) (iblk2 V c 5 t) (ix2 p q) * Cert.Sage.lin (R := 5000) (K := 128) (N := 128) (iblk2 V c 0 t) (iblk2 V c 1 t) (iblk2 V c 2 t) (iblk2 V c 3 t) (iblk2 V c 4 t) (iblk2 V c 5 t) (ix2 p q)) t.val (lt_ten2 t)
    (fun p => congrArg₂ (· * ·) (linRow2 V c t p q) (linRow2 V c t p q))

theorem sumsStep2_A (c : Dev nD) (t : Fin cfg2.N) (h0 : t.val % 10 = 0) (u : Fin 1) (q : Fin 128) :
    ((outsAt2 V c t.val t.isLt).2.1 : S1x128.Idx → EReal) (ix2 u q)
      = ∑ j ∈ Finset.range 5000, rowExt (fun r => LIN2 V c (ix2 r q)) (t.val * 5000 + j) := by
  rw [outs2_A V c t h0]
  refine (pay5_2_apply (iblk2 V c 0 t) (iblk2 V c 1 t) (iblk2 V c 2 t) (iblk2 V c 3 t) (iblk2 V c 4 t) (iblk2 V c 5 t) (k2_pay2 (F := Ideal)) u q).trans ?_
  rw [pay2_2_apply, zero_add]
  exact blockCol2 V c t q

theorem sumsStep2_B (c : Dev nD) (t : Fin cfg2.N) (h0 : ¬t.val % 10 = 0) (u : Fin 1) (q : Fin 128) :
    ((outsAt2 V c t.val t.isLt).2.1 : S1x128.Idx → EReal) (ix2 u q)
      = ((outsAt2 V c (t.val - 1) (Nat.lt_of_le_of_lt (Nat.sub_le _ _) t.isLt)).2.1 : S1x128.Idx → EReal) (ix2 u q)
        + ∑ j ∈ Finset.range 5000, rowExt (fun r => LIN2 V c (ix2 r q)) (t.val * 5000 + j) := by
  rw [outs2_B V c t h0]
  refine (pay5_2_apply (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 u q).trans ?_
  rw [blockCol2 V c t q]

/-- After point n the row holds, at each column, the sum over the rows of the first n + 1 blocks. -/
theorem sums2 (c : Dev nD) (u : Fin 1) (q : Fin 128) : ∀ (n : ℕ) (h : n < cfg2.N),
    ((outsAt2 V c n h).2.1 : S1x128.Idx → EReal) (ix2 u q)
      = ∑ i ∈ Finset.range (n + 1), ∑ j ∈ Finset.range 5000, rowExt (fun r => LIN2 V c (ix2 r q)) (i * 5000 + j)
  | 0, h => by
    rw [Finset.sum_range_one]
    exact sumsStep2_A V c ⟨0, h⟩ rfl u q
  | n + 1, h => by
    have hB : ¬(⟨n + 1, h⟩ : Fin cfg2.N).val % 10 = 0 := by
      have := lt_ten2 ⟨n + 1, h⟩
      dsimp only at this ⊢
      omega
    rw [Finset.sum_range_succ, ← sums2 c u q n (Nat.lt_of_succ_lt h)]
    exact sumsStep2_B V c ⟨n + 1, h⟩ hB u q

/-- The one write-back of the row, after the last point, writes the sums over all rows. -/
theorem flushed2_7 (c : Dev nD) (t : Fin cfg2.N) (hf : (cfg2.win 7).flush t = true) :
    (dat2 V c).flushed 7 t = ((cfg2.win 7).blk t).view.read (Elt Ideal) (Cert.Sage.colSum (LIN2 V c)) := by
  have h9 : t.val + 1 = 10 := by have := (flush2_7 t).mp hf; have := lt_ten2 t; omega
  show (cfg2.win 7).cut (grid2.coords t) ((dat2 V c).after 7 t) = _
  rw [after2_7]
  generalize hG : Cert.Sage.colSum (LIN2 V c) = G
  funext j
  obtain ⟨u, q, rfl⟩ : ∃ (u : Fin 1) (q : Fin 128), j = ix2 u q := ⟨j 0, j 1, eq_ix2 j⟩
  have he : ((cfg2.win 7).blk t).view.emb (ix2 u q) = ix2 (0 : Fin 1) q := funext fun a => Fin.ext (by
    match a with
    | ⟨0, _⟩ => show win2_7.index t (0 : Fin 2) * 1 + 1 * u.val = 0; rw [(idx2_7 t).1]; omega
    | ⟨1, _⟩ => show win2_7.index t (1 : Fin 2) * 128 + 1 * q.val = q.val; rw [(idx2_7 t).2]; omega)
  show ((outsAt2 V c t.val t.isLt).2.1 : S1x128.Idx → EReal) (ix2 u q) = G (((cfg2.win 7).blk t).view.emb (ix2 u q))
  rewrite [he, ← hG, colSum_apply (LIN2 V c) 0 q, sums2 V c u q t.val t.isLt, h9]
  exact (sum_rows_split (fun r => LIN2 V c (ix2 r q))).symm

theorem mem_blk2_7 (t : Fin cfg2.N) (i : S1x128.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v56_1).slice (win2_7.rect t)).set ↔ _
  rw [View.set_slice_whole, Rect.mem_set_unit]
  exact Iff.rfl

theorem final2_7 (c : Dev nD) :
    (Gen.dat2 (F := Ideal) V c).arrAt 7 cfg2.N = Cert.Sage.colSum (Cert.Sage.lin (R := 50000) (K := 128) (N := 128)
      (V c (Pipeline.arrRef spec2 0) : S50000x128.Idx → EReal) (V c (Pipeline.arrRef spec2 1) : S50000x1.Idx → EReal)
      (V c (Pipeline.arrRef spec2 2) : S50000x128.Idx → EReal) (V c (Pipeline.arrRef spec2 3) : S128x128.Idx → EReal)
      (V c (Pipeline.arrRef spec2 4) : S1x128.Idx → EReal) (V c (Pipeline.arrRef spec2 5) : S128x128.Idx → EReal)) :=
  (dat2 V c).arrAt_eq_of_cover 7 (Cert.Sage.colSum (LIN2 V c)) (flushed2_7 V c) fun i => by
    have h9 : 9 < cfg2.N := by rw [show cfg2.N = 10 from N_2]; omega
    have hi0 : (i 0).val < 1 := (i 0).isLt
    have hi1 : (i 1).val < 128 := (i 1).isLt
    refine ⟨⟨9, h9⟩, (flush2_7 _).mpr rfl, ?_⟩
    rw [mem_blk2_7]
    intro a
    match a with
    | ⟨0, _⟩ =>
      show win2_7.index ⟨9, h9⟩ (0 : Fin 2) * 1 ≤ (i 0).val ∧ (i 0).val < win2_7.index ⟨9, h9⟩ (0 : Fin 2) * 1 + 1
      rw [(idx2_7 ⟨9, h9⟩).1]
      omega
    | ⟨1, _⟩ =>
      show win2_7.index ⟨9, h9⟩ (1 : Fin 2) * 128 ≤ (i 1).val ∧ (i 1).val < win2_7.index ⟨9, h9⟩ (1 : Fin 2) * 128 + 128
      rw [(idx2_7 ⟨9, h9⟩).2]
      omega

theorem sumsqStep2_A (c : Dev nD) (t : Fin cfg2.N) (h0 : t.val % 10 = 0) (u : Fin 1) (q : Fin 128) :
    ((outsAt2 V c t.val t.isLt).2.2 : S1x128.Idx → EReal) (ix2 u q)
      = ∑ j ∈ Finset.range 5000, rowExt (fun r => LIN2 V c (ix2 r q) * LIN2 V c (ix2 r q)) (t.val * 5000 + j) := by
  rw [outs2_A V c t h0]
  refine (pay1_2_apply (iblk2 V c 0 t) (iblk2 V c 1 t) (iblk2 V c 2 t) (iblk2 V c 3 t) (iblk2 V c 4 t) (iblk2 V c 5 t) (k2_pay3 (F := Ideal)) u q).trans ?_
  rw [pay3_2_apply, zero_add]
  exact blockColSq2 V c t q

theorem sumsqStep2_B (c : Dev nD) (t : Fin cfg2.N) (h0 : ¬t.val % 10 = 0) (u : Fin 1) (q : Fin 128) :
    ((outsAt2 V c t.val t.isLt).2.2 : S1x128.Idx → EReal) (ix2 u q)
      = ((outsAt2 V c (t.val - 1) (Nat.lt_of_le_of_lt (Nat.sub_le _ _) t.isLt)).2.2 : S1x128.Idx → EReal) (ix2 u q)
        + ∑ j ∈ Finset.range 5000, rowExt (fun r => LIN2 V c (ix2 r q) * LIN2 V c (ix2 r q)) (t.val * 5000 + j) := by
  rw [outs2_B V c t h0]
  refine (pay1_2_apply (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2 u q).trans ?_
  rw [blockColSq2 V c t q]

/-- After point n the row holds, at each column, the sum over the rows of the first n + 1 blocks. -/
theorem sumsq2 (c : Dev nD) (u : Fin 1) (q : Fin 128) : ∀ (n : ℕ) (h : n < cfg2.N),
    ((outsAt2 V c n h).2.2 : S1x128.Idx → EReal) (ix2 u q)
      = ∑ i ∈ Finset.range (n + 1), ∑ j ∈ Finset.range 5000, rowExt (fun r => LIN2 V c (ix2 r q) * LIN2 V c (ix2 r q)) (i * 5000 + j)
  | 0, h => by
    rw [Finset.sum_range_one]
    exact sumsqStep2_A V c ⟨0, h⟩ rfl u q
  | n + 1, h => by
    have hB : ¬(⟨n + 1, h⟩ : Fin cfg2.N).val % 10 = 0 := by
      have := lt_ten2 ⟨n + 1, h⟩
      dsimp only at this ⊢
      omega
    rw [Finset.sum_range_succ, ← sumsq2 c u q n (Nat.lt_of_succ_lt h)]
    exact sumsqStep2_B V c ⟨n + 1, h⟩ hB u q

/-- The one write-back of the row, after the last point, writes the sums over all rows. -/
theorem flushed2_8 (c : Dev nD) (t : Fin cfg2.N) (hf : (cfg2.win 8).flush t = true) :
    (dat2 V c).flushed 8 t = ((cfg2.win 8).blk t).view.read (Elt Ideal) (Cert.Sage.colSumSq (LIN2 V c)) := by
  have h9 : t.val + 1 = 10 := by have := (flush2_8 t).mp hf; have := lt_ten2 t; omega
  show (cfg2.win 8).cut (grid2.coords t) ((dat2 V c).after 8 t) = _
  rw [after2_8]
  generalize hG : Cert.Sage.colSumSq (LIN2 V c) = G
  funext j
  obtain ⟨u, q, rfl⟩ : ∃ (u : Fin 1) (q : Fin 128), j = ix2 u q := ⟨j 0, j 1, eq_ix2 j⟩
  have he : ((cfg2.win 8).blk t).view.emb (ix2 u q) = ix2 (0 : Fin 1) q := funext fun a => Fin.ext (by
    match a with
    | ⟨0, _⟩ => show win2_8.index t (0 : Fin 2) * 1 + 1 * u.val = 0; rw [(idx2_8 t).1]; omega
    | ⟨1, _⟩ => show win2_8.index t (1 : Fin 2) * 128 + 1 * q.val = q.val; rw [(idx2_8 t).2]; omega)
  show ((outsAt2 V c t.val t.isLt).2.2 : S1x128.Idx → EReal) (ix2 u q) = G (((cfg2.win 8).blk t).view.emb (ix2 u q))
  rewrite [he, ← hG, colSumSq_apply (LIN2 V c) 0 q, sumsq2 V c u q t.val t.isLt, h9]
  exact (sum_rows_split (fun r => LIN2 V c (ix2 r q) * LIN2 V c (ix2 r q))).symm

theorem mem_blk2_8 (t : Fin cfg2.N) (i : S1x128.Idx) :
    i ∈ ((cfg2.win 8).blk t).view.set ↔ ∀ a : Fin 2, win2_8.index t a * S1x128.size a ≤ (i a).val
      ∧ (i a).val < win2_8.index t a * S1x128.size a + S1x128.size a := by
  show i ∈ ((View.whole main_v56_2).slice (win2_8.rect t)).set ↔ _
  rw [View.set_slice_whole, Rect.mem_set_unit]
  exact Iff.rfl

theorem final2_8 (c : Dev nD) :
    (Gen.dat2 (F := Ideal) V c).arrAt 8 cfg2.N = Cert.Sage.colSumSq (Cert.Sage.lin (R := 50000) (K := 128) (N := 128)
      (V c (Pipeline.arrRef spec2 0) : S50000x128.Idx → EReal) (V c (Pipeline.arrRef spec2 1) : S50000x1.Idx → EReal)
      (V c (Pipeline.arrRef spec2 2) : S50000x128.Idx → EReal) (V c (Pipeline.arrRef spec2 3) : S128x128.Idx → EReal)
      (V c (Pipeline.arrRef spec2 4) : S1x128.Idx → EReal) (V c (Pipeline.arrRef spec2 5) : S128x128.Idx → EReal)) :=
  (dat2 V c).arrAt_eq_of_cover 8 (Cert.Sage.colSumSq (LIN2 V c)) (flushed2_8 V c) fun i => by
    have h9 : 9 < cfg2.N := by rw [show cfg2.N = 10 from N_2]; omega
    have hi0 : (i 0).val < 1 := (i 0).isLt
    have hi1 : (i 1).val < 128 := (i 1).isLt
    refine ⟨⟨9, h9⟩, (flush2_8 _).mpr rfl, ?_⟩
    rw [mem_blk2_8]
    intro a
    match a with
    | ⟨0, _⟩ =>
      show win2_8.index ⟨9, h9⟩ (0 : Fin 2) * 1 ≤ (i 0).val ∧ (i 0).val < win2_8.index ⟨9, h9⟩ (0 : Fin 2) * 1 + 1
      rw [(idx2_8 ⟨9, h9⟩).1]
      omega
    | ⟨1, _⟩ =>
      show win2_8.index ⟨9, h9⟩ (1 : Fin 2) * 128 ≤ (i 1).val ∧ (i 1).val < win2_8.index ⟨9, h9⟩ (1 : Fin 2) * 128 + 128
      rw [(idx2_8 ⟨9, h9⟩).2]
      omega

end Region2

end Cert.KernelIdeal.RegR

end
-- ==== Proof.KChain.lean ====
/-
  The idealized kernel's result as ONE function of its fifteen arguments.
  The buffers' contents are followed through the program's twelve segments: a stretch of host operations rewrites the
  buffers it writes as whole-array functions of what it reads; a region leaves in each of its output arrays the
  function of its input arrays that its body computes block by block, and every other buffer untouched. The first
  two layers are a dense update `linK` (the aggregated features scaled by the reciprocal degree, times the left weights,
  plus the bias, plus the features times the right weights) followed by `hidK`: normalisation at the mean and floored
  variance computed from the update's column sums and column sums of squares, and the positive part. The last layer
  `outK` multiplies by the left weights BEFORE aggregating, and ends with the softmax of every row.
-/
import proofs.«126719_j90941637525590_2_alg».proof.Proof.Gen.KernelIdeal.Frame
import proofs.«126719_j90941637525590_2_alg».proof.Proof.KHost
import proofs.«126719_j90941637525590_2_alg».proof.Proof.KNet
import proofs.«126719_j90941637525590_2_alg».proof.Proof.RegMat
import proofs.«126719_j90941637525590_2_alg».proof.Proof.RegBn
import proofs.«126719_j90941637525590_2_alg».proof.Proof.RegSoft
import proofs.«126719_j90941637525590_2_alg».proof.Proof.RegStats

set_option maxRecDepth 16384

noncomputable section

namespace Cert.KernelIdeal.KChain

open Cert.KernelIdeal Cert.KernelIdeal.Gen Cert.KernelIdeal.KHost Idealize.ShloMosaic Idealize.ShloMosaic.TcCoe Idealize.SL.Sem
open Cert.Sage Cert.Linear Cert.KernelIdeal.KNet

variable (m : (ℓ : Loc nD τ sig) → Buf (Elt Ideal) ℓ) (ρ : Dev nD → PrngReg) (c : Dev nD)

theorem W1_main_v1 : W1 m ρ c (Proc.devRef .tc main_v1) = srcOf (W0 m ρ c (Proc.devRef .tc main_arg1)) :=
  (KHost.h0_main_v1 (W0 m ρ c)).trans (by rfl)
theorem W1_main_v3 : W1 m ρ c (Proc.devRef .tc main_v3) = dstOf (W0 m ρ c (Proc.devRef .tc main_arg1)) :=
  (KHost.h0_main_v3 (W0 m ρ c)).trans (by rfl)
theorem W1_main_v11 : W1 m ρ c (Proc.devRef .tc main_v11) = invDeg (dstOf (W0 m ρ c (Proc.devRef .tc main_arg1))) :=
  (KHost.h0_main_v11 (W0 m ρ c)).trans (by rfl)
theorem W1_main_v21 : W1 m ρ c (Proc.devRef .tc main_v21) = aggOf (W0 m ρ c (Proc.devRef .tc main_arg0)) (srcOf (W0 m ρ c (Proc.devRef .tc main_arg1))) (dstOf (W0 m ρ c (Proc.devRef .tc main_arg1))) :=
  (KHost.h0_main_v21 (W0 m ρ c)).trans (by rfl)
theorem W1_main_v22 : W1 m ρ c (Proc.devRef .tc main_v22) = tr (W0 m ρ c (Proc.devRef .tc main_arg2)) :=
  (KHost.h0_main_v22 (W0 m ρ c)).trans (by rfl)
theorem W1_main_v23 : W1 m ρ c (Proc.devRef .tc main_v23) = tr (W0 m ρ c (Proc.devRef .tc main_arg4)) :=
  (KHost.h0_main_v23 (W0 m ρ c)).trans (by rfl)
theorem W1_main_v24 : W1 m ρ c (Proc.devRef .tc main_v24) = colOf (invDeg (dstOf (W0 m ρ c (Proc.devRef .tc main_arg1)))) :=
  (KHost.h0_main_v24 (W0 m ρ c)).trans (by rfl)
theorem W1_main_v25 : W1 m ρ c (Proc.devRef .tc main_v25) = row1 (W0 m ρ c (Proc.devRef .tc main_arg3)) :=
  (KHost.h0_main_v25 (W0 m ρ c)).trans (by rfl)
theorem W1_main_arg0 : W1 m ρ c (Proc.devRef .tc main_arg0) = (W0 m ρ c (Proc.devRef .tc main_arg0)) :=
  KHost.h0_keep_main_arg0 (W0 m ρ c)
theorem W1_main_arg5 : W1 m ρ c (Proc.devRef .tc main_arg5) = (W0 m ρ c (Proc.devRef .tc main_arg5)) :=
  KHost.h0_keep_main_arg5 (W0 m ρ c)
theorem W1_main_arg6 : W1 m ρ c (Proc.devRef .tc main_arg6) = (W0 m ρ c (Proc.devRef .tc main_arg6)) :=
  KHost.h0_keep_main_arg6 (W0 m ρ c)
theorem W1_main_arg7 : W1 m ρ c (Proc.devRef .tc main_arg7) = (W0 m ρ c (Proc.devRef .tc main_arg7)) :=
  KHost.h0_keep_main_arg7 (W0 m ρ c)
theorem W1_main_arg8 : W1 m ρ c (Proc.devRef .tc main_arg8) = (W0 m ρ c (Proc.devRef .tc main_arg8)) :=
  KHost.h0_keep_main_arg8 (W0 m ρ c)
theorem W1_main_arg9 : W1 m ρ c (Proc.devRef .tc main_arg9) = (W0 m ρ c (Proc.devRef .tc main_arg9)) :=
  KHost.h0_keep_main_arg9 (W0 m ρ c)
theorem W1_main_arg10 : W1 m ρ c (Proc.devRef .tc main_arg10) = (W0 m ρ c (Proc.devRef .tc main_arg10)) :=
  KHost.h0_keep_main_arg10 (W0 m ρ c)
theorem W1_main_arg11 : W1 m ρ c (Proc.devRef .tc main_arg11) = (W0 m ρ c (Proc.devRef .tc main_arg11)) :=
  KHost.h0_keep_main_arg11 (W0 m ρ c)
theorem W1_main_arg12 : W1 m ρ c (Proc.devRef .tc main_arg12) = (W0 m ρ c (Proc.devRef .tc main_arg12)) :=
  KHost.h0_keep_main_arg12 (W0 m ρ c)
theorem W1_main_arg13 : W1 m ρ c (Proc.devRef .tc main_arg13) = (W0 m ρ c (Proc.devRef .tc main_arg13)) :=
  KHost.h0_keep_main_arg13 (W0 m ρ c)
theorem W1_main_arg14 : W1 m ρ c (Proc.devRef .tc main_arg14) = (W0 m ρ c (Proc.devRef .tc main_arg14)) :=
  KHost.h0_keep_main_arg14 (W0 m ρ c)
theorem W2_main_v26_0 : W2 m ρ c (Proc.devRef .tc main_v26_0) = linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) :=
  (W2_arr m ρ c 6).trans ((Cert.KernelIdeal.RegR.final0_6 (V1 m ρ) c).trans (by
    show Cert.Sage.lin (R := 50000) (K := 128) (N := 128) (W1 m ρ c (Proc.devRef .tc main_v21) : S50000x128.Idx → EReal) (W1 m ρ c (Proc.devRef .tc main_v24) : S50000x1.Idx → EReal) (W1 m ρ c (Proc.devRef .tc main_arg0) : S50000x128.Idx → EReal) (W1 m ρ c (Proc.devRef .tc main_v22) : S128x128.Idx → EReal) (W1 m ρ c (Proc.devRef .tc main_v25) : S1x128.Idx → EReal) (W1 m ρ c (Proc.devRef .tc main_v23) : S128x128.Idx → EReal) = _
    rw [(W1_main_v21 m ρ c), (W1_main_v24 m ρ c), (W1_main_arg0 m ρ c), (W1_main_v22 m ρ c), (W1_main_v25 m ρ c), (W1_main_v23 m ρ c)]
    rfl))
theorem W2_main_v26_1 : W2 m ρ c (Proc.devRef .tc main_v26_1) = Cert.Sage.colSum (R := 50000) (N := 128) (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) :=
  (W2_arr m ρ c 7).trans ((Cert.KernelIdeal.RegR.final0_7 (V1 m ρ) c).trans (by
    show Cert.Sage.colSum (R := 50000) (N := 128) (Cert.Sage.lin (R := 50000) (K := 128) (N := 128) (W1 m ρ c (Proc.devRef .tc main_v21) : S50000x128.Idx → EReal) (W1 m ρ c (Proc.devRef .tc main_v24) : S50000x1.Idx → EReal) (W1 m ρ c (Proc.devRef .tc main_arg0) : S50000x128.Idx → EReal) (W1 m ρ c (Proc.devRef .tc main_v22) : S128x128.Idx → EReal) (W1 m ρ c (Proc.devRef .tc main_v25) : S1x128.Idx → EReal) (W1 m ρ c (Proc.devRef .tc main_v23) : S128x128.Idx → EReal)) = _
    rw [(W1_main_v21 m ρ c), (W1_main_v24 m ρ c), (W1_main_arg0 m ρ c), (W1_main_v22 m ρ c), (W1_main_v25 m ρ c), (W1_main_v23 m ρ c)]
    rfl))
theorem W2_main_v26_2 : W2 m ρ c (Proc.devRef .tc main_v26_2) = Cert.Sage.colSumSq (R := 50000) (N := 128) (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) :=
  (W2_arr m ρ c 8).trans ((Cert.KernelIdeal.RegR.final0_8 (V1 m ρ) c).trans (by
    show Cert.Sage.colSumSq (R := 50000) (N := 128) (Cert.Sage.lin (R := 50000) (K := 128) (N := 128) (W1 m ρ c (Proc.devRef .tc main_v21) : S50000x128.Idx → EReal) (W1 m ρ c (Proc.devRef .tc main_v24) : S50000x1.Idx → EReal) (W1 m ρ c (Proc.devRef .tc main_arg0) : S50000x128.Idx → EReal) (W1 m ρ c (Proc.devRef .tc main_v22) : S128x128.Idx → EReal) (W1 m ρ c (Proc.devRef .tc main_v25) : S1x128.Idx → EReal) (W1 m ρ c (Proc.devRef .tc main_v23) : S128x128.Idx → EReal)) = _
    rw [(W1_main_v21 m ρ c), (W1_main_v24 m ρ c), (W1_main_arg0 m ρ c), (W1_main_v22 m ρ c), (W1_main_v25 m ρ c), (W1_main_v23 m ρ c)]
    rfl))
theorem W2_main_v1 : W2 m ρ c (Proc.devRef .tc main_v1) = srcOf (W0 m ρ c (Proc.devRef .tc main_arg1)) :=
  (W2_of_ne m ρ c main_v1 (by decide)).trans (W1_main_v1 m ρ c)
theorem W2_main_v3 : W2 m ρ c (Proc.devRef .tc main_v3) = dstOf (W0 m ρ c (Proc.devRef .tc main_arg1)) :=
  (W2_of_ne m ρ c main_v3 (by decide)).trans (W1_main_v3 m ρ c)
theorem W2_main_v11 : W2 m ρ c (Proc.devRef .tc main_v11) = invDeg (dstOf (W0 m ρ c (Proc.devRef .tc main_arg1))) :=
  (W2_of_ne m ρ c main_v11 (by decide)).trans (W1_main_v11 m ρ c)
theorem W2_main_arg5 : W2 m ρ c (Proc.devRef .tc main_arg5) = (W0 m ρ c (Proc.devRef .tc main_arg5)) :=
  (W2_of_ne m ρ c main_arg5 (by decide)).trans (W1_main_arg5 m ρ c)
theorem W2_main_arg6 : W2 m ρ c (Proc.devRef .tc main_arg6) = (W0 m ρ c (Proc.devRef .tc main_arg6)) :=
  (W2_of_ne m ρ c main_arg6 (by decide)).trans (W1_main_arg6 m ρ c)
theorem W2_main_arg7 : W2 m ρ c (Proc.devRef .tc main_arg7) = (W0 m ρ c (Proc.devRef .tc main_arg7)) :=
  (W2_of_ne m ρ c main_arg7 (by decide)).trans (W1_main_arg7 m ρ c)
theorem W2_main_arg8 : W2 m ρ c (Proc.devRef .tc main_arg8) = (W0 m ρ c (Proc.devRef .tc main_arg8)) :=
  (W2_of_ne m ρ c main_arg8 (by decide)).trans (W1_main_arg8 m ρ c)
theorem W2_main_arg9 : W2 m ρ c (Proc.devRef .tc main_arg9) = (W0 m ρ c (Proc.devRef .tc main_arg9)) :=
  (W2_of_ne m ρ c main_arg9 (by decide)).trans (W1_main_arg9 m ρ c)
theorem W2_main_arg10 : W2 m ρ c (Proc.devRef .tc main_arg10) = (W0 m ρ c (Proc.devRef .tc main_arg10)) :=
  (W2_of_ne m ρ c main_arg10 (by decide)).trans (W1_main_arg10 m ρ c)
theorem W2_main_arg11 : W2 m ρ c (Proc.devRef .tc main_arg11) = (W0 m ρ c (Proc.devRef .tc main_arg11)) :=
  (W2_of_ne m ρ c main_arg11 (by decide)).trans (W1_main_arg11 m ρ c)
theorem W2_main_arg12 : W2 m ρ c (Proc.devRef .tc main_arg12) = (W0 m ρ c (Proc.devRef .tc main_arg12)) :=
  (W2_of_ne m ρ c main_arg12 (by decide)).trans (W1_main_arg12 m ρ c)
theorem W2_main_arg13 : W2 m ρ c (Proc.devRef .tc main_arg13) = (W0 m ρ c (Proc.devRef .tc main_arg13)) :=
  (W2_of_ne m ρ c main_arg13 (by decide)).trans (W1_main_arg13 m ρ c)
theorem W2_main_arg14 : W2 m ρ c (Proc.devRef .tc main_arg14) = (W0 m ρ c (Proc.devRef .tc main_arg14)) :=
  (W2_of_ne m ρ c main_arg14 (by decide)).trans (W1_main_arg14 m ρ c)
theorem W3_main_v37 : W3 m ρ c (Proc.devRef .tc main_v37) = row1 (meanK (Cert.Sage.colSum (R := 50000) (N := 128) (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))))) :=
  (KHost.h1_main_v37 (W2 m ρ c)).trans (by rw [(W2_main_v26_1 m ρ c)])
theorem W3_main_v38 : W3 m ρ c (Proc.devRef .tc main_v38) = row1 (varK (Cert.Sage.colSum (R := 50000) (N := 128) (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)))) (Cert.Sage.colSumSq (R := 50000) (N := 128) (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))))) :=
  (KHost.h1_main_v38 (W2 m ρ c)).trans (by rw [(W2_main_v26_1 m ρ c), (W2_main_v26_2 m ρ c)])
theorem W3_main_v39 : W3 m ρ c (Proc.devRef .tc main_v39) = row1 (W0 m ρ c (Proc.devRef .tc main_arg11)) :=
  (KHost.h1_main_v39 (W2 m ρ c)).trans (by rw [(W2_main_arg11 m ρ c)])
theorem W3_main_v40 : W3 m ρ c (Proc.devRef .tc main_v40) = row1 (W0 m ρ c (Proc.devRef .tc main_arg12)) :=
  (KHost.h1_main_v40 (W2 m ρ c)).trans (by rw [(W2_main_arg12 m ρ c)])
theorem W3_main_v26_0 : W3 m ρ c (Proc.devRef .tc main_v26_0) = linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) :=
  (KHost.h1_keep_main_v26_0 (W2 m ρ c)).trans (W2_main_v26_0 m ρ c)
theorem W3_main_v1 : W3 m ρ c (Proc.devRef .tc main_v1) = srcOf (W0 m ρ c (Proc.devRef .tc main_arg1)) :=
  (KHost.h1_keep_main_v1 (W2 m ρ c)).trans (W2_main_v1 m ρ c)
theorem W3_main_v3 : W3 m ρ c (Proc.devRef .tc main_v3) = dstOf (W0 m ρ c (Proc.devRef .tc main_arg1)) :=
  (KHost.h1_keep_main_v3 (W2 m ρ c)).trans (W2_main_v3 m ρ c)
theorem W3_main_v11 : W3 m ρ c (Proc.devRef .tc main_v11) = invDeg (dstOf (W0 m ρ c (Proc.devRef .tc main_arg1))) :=
  (KHost.h1_keep_main_v11 (W2 m ρ c)).trans (W2_main_v11 m ρ c)
theorem W3_main_arg5 : W3 m ρ c (Proc.devRef .tc main_arg5) = (W0 m ρ c (Proc.devRef .tc main_arg5)) :=
  (KHost.h1_keep_main_arg5 (W2 m ρ c)).trans (W2_main_arg5 m ρ c)
theorem W3_main_arg6 : W3 m ρ c (Proc.devRef .tc main_arg6) = (W0 m ρ c (Proc.devRef .tc main_arg6)) :=
  (KHost.h1_keep_main_arg6 (W2 m ρ c)).trans (W2_main_arg6 m ρ c)
theorem W3_main_arg7 : W3 m ρ c (Proc.devRef .tc main_arg7) = (W0 m ρ c (Proc.devRef .tc main_arg7)) :=
  (KHost.h1_keep_main_arg7 (W2 m ρ c)).trans (W2_main_arg7 m ρ c)
theorem W3_main_arg8 : W3 m ρ c (Proc.devRef .tc main_arg8) = (W0 m ρ c (Proc.devRef .tc main_arg8)) :=
  (KHost.h1_keep_main_arg8 (W2 m ρ c)).trans (W2_main_arg8 m ρ c)
theorem W3_main_arg9 : W3 m ρ c (Proc.devRef .tc main_arg9) = (W0 m ρ c (Proc.devRef .tc main_arg9)) :=
  (KHost.h1_keep_main_arg9 (W2 m ρ c)).trans (W2_main_arg9 m ρ c)
theorem W3_main_arg10 : W3 m ρ c (Proc.devRef .tc main_arg10) = (W0 m ρ c (Proc.devRef .tc main_arg10)) :=
  (KHost.h1_keep_main_arg10 (W2 m ρ c)).trans (W2_main_arg10 m ρ c)
theorem W3_main_arg13 : W3 m ρ c (Proc.devRef .tc main_arg13) = (W0 m ρ c (Proc.devRef .tc main_arg13)) :=
  (KHost.h1_keep_main_arg13 (W2 m ρ c)).trans (W2_main_arg13 m ρ c)
theorem W3_main_arg14 : W3 m ρ c (Proc.devRef .tc main_arg14) = (W0 m ρ c (Proc.devRef .tc main_arg14)) :=
  (KHost.h1_keep_main_arg14 (W2 m ρ c)).trans (W2_main_arg14 m ρ c)
theorem W4_main_v41 : W4 m ρ c (Proc.devRef .tc main_v41) = (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) :=
  (W4_arr m ρ c 5).trans ((Cert.KernelIdeal.RegA.final1 (V3 m ρ) c).trans (by
    show Cert.Sage.bnRelu (R := 50000) (K := 128) (W3 m ρ c (Proc.devRef .tc main_v26_0) : S50000x128.Idx → EReal) (W3 m ρ c (Proc.devRef .tc main_v37) : S1x128.Idx → EReal) (W3 m ρ c (Proc.devRef .tc main_v38) : S1x128.Idx → EReal) (W3 m ρ c (Proc.devRef .tc main_v39) : S1x128.Idx → EReal) (W3 m ρ c (Proc.devRef .tc main_v40) : S1x128.Idx → EReal) = _
    rw [(W3_main_v26_0 m ρ c), (W3_main_v37 m ρ c), (W3_main_v38 m ρ c), (W3_main_v39 m ρ c), (W3_main_v40 m ρ c)]
    rfl))
theorem W4_main_v1 : W4 m ρ c (Proc.devRef .tc main_v1) = srcOf (W0 m ρ c (Proc.devRef .tc main_arg1)) :=
  (W4_of_ne m ρ c main_v1 (by decide)).trans (W3_main_v1 m ρ c)
theorem W4_main_v3 : W4 m ρ c (Proc.devRef .tc main_v3) = dstOf (W0 m ρ c (Proc.devRef .tc main_arg1)) :=
  (W4_of_ne m ρ c main_v3 (by decide)).trans (W3_main_v3 m ρ c)
theorem W4_main_v11 : W4 m ρ c (Proc.devRef .tc main_v11) = invDeg (dstOf (W0 m ρ c (Proc.devRef .tc main_arg1))) :=
  (W4_of_ne m ρ c main_v11 (by decide)).trans (W3_main_v11 m ρ c)
theorem W4_main_arg5 : W4 m ρ c (Proc.devRef .tc main_arg5) = (W0 m ρ c (Proc.devRef .tc main_arg5)) :=
  (W4_of_ne m ρ c main_arg5 (by decide)).trans (W3_main_arg5 m ρ c)
theorem W4_main_arg6 : W4 m ρ c (Proc.devRef .tc main_arg6) = (W0 m ρ c (Proc.devRef .tc main_arg6)) :=
  (W4_of_ne m ρ c main_arg6 (by decide)).trans (W3_main_arg6 m ρ c)
theorem W4_main_arg7 : W4 m ρ c (Proc.devRef .tc main_arg7) = (W0 m ρ c (Proc.devRef .tc main_arg7)) :=
  (W4_of_ne m ρ c main_arg7 (by decide)).trans (W3_main_arg7 m ρ c)
theorem W4_main_arg8 : W4 m ρ c (Proc.devRef .tc main_arg8) = (W0 m ρ c (Proc.devRef .tc main_arg8)) :=
  (W4_of_ne m ρ c main_arg8 (by decide)).trans (W3_main_arg8 m ρ c)
theorem W4_main_arg9 : W4 m ρ c (Proc.devRef .tc main_arg9) = (W0 m ρ c (Proc.devRef .tc main_arg9)) :=
  (W4_of_ne m ρ c main_arg9 (by decide)).trans (W3_main_arg9 m ρ c)
theorem W4_main_arg10 : W4 m ρ c (Proc.devRef .tc main_arg10) = (W0 m ρ c (Proc.devRef .tc main_arg10)) :=
  (W4_of_ne m ρ c main_arg10 (by decide)).trans (W3_main_arg10 m ρ c)
theorem W4_main_arg13 : W4 m ρ c (Proc.devRef .tc main_arg13) = (W0 m ρ c (Proc.devRef .tc main_arg13)) :=
  (W4_of_ne m ρ c main_arg13 (by decide)).trans (W3_main_arg13 m ρ c)
theorem W4_main_arg14 : W4 m ρ c (Proc.devRef .tc main_arg14) = (W0 m ρ c (Proc.devRef .tc main_arg14)) :=
  (W4_of_ne m ρ c main_arg14 (by decide)).trans (W3_main_arg14 m ρ c)
theorem W5_main_v51 : W5 m ρ c (Proc.devRef .tc main_v51) = aggOf (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (srcOf (W0 m ρ c (Proc.devRef .tc main_arg1))) (dstOf (W0 m ρ c (Proc.devRef .tc main_arg1))) :=
  (KHost.h2_main_v51 (W4 m ρ c)).trans (by rw [(W4_main_v41 m ρ c), (W4_main_v1 m ρ c), (W4_main_v3 m ρ c)])
theorem W5_main_v52 : W5 m ρ c (Proc.devRef .tc main_v52) = tr (W0 m ρ c (Proc.devRef .tc main_arg5)) :=
  (KHost.h2_main_v52 (W4 m ρ c)).trans (by rw [(W4_main_arg5 m ρ c)])
theorem W5_main_v53 : W5 m ρ c (Proc.devRef .tc main_v53) = tr (W0 m ρ c (Proc.devRef .tc main_arg7)) :=
  (KHost.h2_main_v53 (W4 m ρ c)).trans (by rw [(W4_main_arg7 m ρ c)])
theorem W5_main_v54 : W5 m ρ c (Proc.devRef .tc main_v54) = colOf (invDeg (dstOf (W0 m ρ c (Proc.devRef .tc main_arg1)))) :=
  (KHost.h2_main_v54 (W4 m ρ c)).trans (by rw [(W4_main_v11 m ρ c)])
theorem W5_main_v55 : W5 m ρ c (Proc.devRef .tc main_v55) = row1 (W0 m ρ c (Proc.devRef .tc main_arg6)) :=
  (KHost.h2_main_v55 (W4 m ρ c)).trans (by rw [(W4_main_arg6 m ρ c)])
theorem W5_main_v41 : W5 m ρ c (Proc.devRef .tc main_v41) = (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) :=
  (KHost.h2_keep_main_v41 (W4 m ρ c)).trans (W4_main_v41 m ρ c)
theorem W5_main_v1 : W5 m ρ c (Proc.devRef .tc main_v1) = srcOf (W0 m ρ c (Proc.devRef .tc main_arg1)) :=
  (KHost.h2_keep_main_v1 (W4 m ρ c)).trans (W4_main_v1 m ρ c)
theorem W5_main_v3 : W5 m ρ c (Proc.devRef .tc main_v3) = dstOf (W0 m ρ c (Proc.devRef .tc main_arg1)) :=
  (KHost.h2_keep_main_v3 (W4 m ρ c)).trans (W4_main_v3 m ρ c)
theorem W5_main_v11 : W5 m ρ c (Proc.devRef .tc main_v11) = invDeg (dstOf (W0 m ρ c (Proc.devRef .tc main_arg1))) :=
  (KHost.h2_keep_main_v11 (W4 m ρ c)).trans (W4_main_v11 m ρ c)
theorem W5_main_arg8 : W5 m ρ c (Proc.devRef .tc main_arg8) = (W0 m ρ c (Proc.devRef .tc main_arg8)) :=
  (KHost.h2_keep_main_arg8 (W4 m ρ c)).trans (W4_main_arg8 m ρ c)
theorem W5_main_arg9 : W5 m ρ c (Proc.devRef .tc main_arg9) = (W0 m ρ c (Proc.devRef .tc main_arg9)) :=
  (KHost.h2_keep_main_arg9 (W4 m ρ c)).trans (W4_main_arg9 m ρ c)
theorem W5_main_arg10 : W5 m ρ c (Proc.devRef .tc main_arg10) = (W0 m ρ c (Proc.devRef .tc main_arg10)) :=
  (KHost.h2_keep_main_arg10 (W4 m ρ c)).trans (W4_main_arg10 m ρ c)
theorem W5_main_arg13 : W5 m ρ c (Proc.devRef .tc main_arg13) = (W0 m ρ c (Proc.devRef .tc main_arg13)) :=
  (KHost.h2_keep_main_arg13 (W4 m ρ c)).trans (W4_main_arg13 m ρ c)
theorem W5_main_arg14 : W5 m ρ c (Proc.devRef .tc main_arg14) = (W0 m ρ c (Proc.devRef .tc main_arg14)) :=
  (KHost.h2_keep_main_arg14 (W4 m ρ c)).trans (W4_main_arg14 m ρ c)
theorem W6_main_v56_0 : W6 m ρ c (Proc.devRef .tc main_v56_0) = linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7)) :=
  (W6_arr m ρ c 6).trans ((Cert.KernelIdeal.RegR.final2_6 (V5 m ρ) c).trans (by
    show Cert.Sage.lin (R := 50000) (K := 128) (N := 128) (W5 m ρ c (Proc.devRef .tc main_v51) : S50000x128.Idx → EReal) (W5 m ρ c (Proc.devRef .tc main_v54) : S50000x1.Idx → EReal) (W5 m ρ c (Proc.devRef .tc main_v41) : S50000x128.Idx → EReal) (W5 m ρ c (Proc.devRef .tc main_v52) : S128x128.Idx → EReal) (W5 m ρ c (Proc.devRef .tc main_v55) : S1x128.Idx → EReal) (W5 m ρ c (Proc.devRef .tc main_v53) : S128x128.Idx → EReal) = _
    rw [(W5_main_v51 m ρ c), (W5_main_v54 m ρ c), (W5_main_v41 m ρ c), (W5_main_v52 m ρ c), (W5_main_v55 m ρ c), (W5_main_v53 m ρ c)]
    rfl))
theorem W6_main_v56_1 : W6 m ρ c (Proc.devRef .tc main_v56_1) = Cert.Sage.colSum (R := 50000) (N := 128) (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) :=
  (W6_arr m ρ c 7).trans ((Cert.KernelIdeal.RegR.final2_7 (V5 m ρ) c).trans (by
    show Cert.Sage.colSum (R := 50000) (N := 128) (Cert.Sage.lin (R := 50000) (K := 128) (N := 128) (W5 m ρ c (Proc.devRef .tc main_v51) : S50000x128.Idx → EReal) (W5 m ρ c (Proc.devRef .tc main_v54) : S50000x1.Idx → EReal) (W5 m ρ c (Proc.devRef .tc main_v41) : S50000x128.Idx → EReal) (W5 m ρ c (Proc.devRef .tc main_v52) : S128x128.Idx → EReal) (W5 m ρ c (Proc.devRef .tc main_v55) : S1x128.Idx → EReal) (W5 m ρ c (Proc.devRef .tc main_v53) : S128x128.Idx → EReal)) = _
    rw [(W5_main_v51 m ρ c), (W5_main_v54 m ρ c), (W5_main_v41 m ρ c), (W5_main_v52 m ρ c), (W5_main_v55 m ρ c), (W5_main_v53 m ρ c)]
    rfl))
theorem W6_main_v56_2 : W6 m ρ c (Proc.devRef .tc main_v56_2) = Cert.Sage.colSumSq (R := 50000) (N := 128) (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) :=
  (W6_arr m ρ c 8).trans ((Cert.KernelIdeal.RegR.final2_8 (V5 m ρ) c).trans (by
    show Cert.Sage.colSumSq (R := 50000) (N := 128) (Cert.Sage.lin (R := 50000) (K := 128) (N := 128) (W5 m ρ c (Proc.devRef .tc main_v51) : S50000x128.Idx → EReal) (W5 m ρ c (Proc.devRef .tc main_v54) : S50000x1.Idx → EReal) (W5 m ρ c (Proc.devRef .tc main_v41) : S50000x128.Idx → EReal) (W5 m ρ c (Proc.devRef .tc main_v52) : S128x128.Idx → EReal) (W5 m ρ c (Proc.devRef .tc main_v55) : S1x128.Idx → EReal) (W5 m ρ c (Proc.devRef .tc main_v53) : S128x128.Idx → EReal)) = _
    rw [(W5_main_v51 m ρ c), (W5_main_v54 m ρ c), (W5_main_v41 m ρ c), (W5_main_v52 m ρ c), (W5_main_v55 m ρ c), (W5_main_v53 m ρ c)]
    rfl))
theorem W6_main_v1 : W6 m ρ c (Proc.devRef .tc main_v1) = srcOf (W0 m ρ c (Proc.devRef .tc main_arg1)) :=
  (W6_of_ne m ρ c main_v1 (by decide)).trans (W5_main_v1 m ρ c)
theorem W6_main_v3 : W6 m ρ c (Proc.devRef .tc main_v3) = dstOf (W0 m ρ c (Proc.devRef .tc main_arg1)) :=
  (W6_of_ne m ρ c main_v3 (by decide)).trans (W5_main_v3 m ρ c)
theorem W6_main_v11 : W6 m ρ c (Proc.devRef .tc main_v11) = invDeg (dstOf (W0 m ρ c (Proc.devRef .tc main_arg1))) :=
  (W6_of_ne m ρ c main_v11 (by decide)).trans (W5_main_v11 m ρ c)
theorem W6_main_arg8 : W6 m ρ c (Proc.devRef .tc main_arg8) = (W0 m ρ c (Proc.devRef .tc main_arg8)) :=
  (W6_of_ne m ρ c main_arg8 (by decide)).trans (W5_main_arg8 m ρ c)
theorem W6_main_arg9 : W6 m ρ c (Proc.devRef .tc main_arg9) = (W0 m ρ c (Proc.devRef .tc main_arg9)) :=
  (W6_of_ne m ρ c main_arg9 (by decide)).trans (W5_main_arg9 m ρ c)
theorem W6_main_arg10 : W6 m ρ c (Proc.devRef .tc main_arg10) = (W0 m ρ c (Proc.devRef .tc main_arg10)) :=
  (W6_of_ne m ρ c main_arg10 (by decide)).trans (W5_main_arg10 m ρ c)
theorem W6_main_arg13 : W6 m ρ c (Proc.devRef .tc main_arg13) = (W0 m ρ c (Proc.devRef .tc main_arg13)) :=
  (W6_of_ne m ρ c main_arg13 (by decide)).trans (W5_main_arg13 m ρ c)
theorem W6_main_arg14 : W6 m ρ c (Proc.devRef .tc main_arg14) = (W0 m ρ c (Proc.devRef .tc main_arg14)) :=
  (W6_of_ne m ρ c main_arg14 (by decide)).trans (W5_main_arg14 m ρ c)
theorem W7_main_v67 : W7 m ρ c (Proc.devRef .tc main_v67) = row1 (meanK (Cert.Sage.colSum (R := 50000) (N := 128) (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))))) :=
  (KHost.h3_main_v67 (W6 m ρ c)).trans (by rw [(W6_main_v56_1 m ρ c)])
theorem W7_main_v68 : W7 m ρ c (Proc.devRef .tc main_v68) = row1 (varK (Cert.Sage.colSum (R := 50000) (N := 128) (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7)))) (Cert.Sage.colSumSq (R := 50000) (N := 128) (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))))) :=
  (KHost.h3_main_v68 (W6 m ρ c)).trans (by rw [(W6_main_v56_1 m ρ c), (W6_main_v56_2 m ρ c)])
theorem W7_main_v69 : W7 m ρ c (Proc.devRef .tc main_v69) = row1 (W0 m ρ c (Proc.devRef .tc main_arg13)) :=
  (KHost.h3_main_v69 (W6 m ρ c)).trans (by rw [(W6_main_arg13 m ρ c)])
theorem W7_main_v70 : W7 m ρ c (Proc.devRef .tc main_v70) = row1 (W0 m ρ c (Proc.devRef .tc main_arg14)) :=
  (KHost.h3_main_v70 (W6 m ρ c)).trans (by rw [(W6_main_arg14 m ρ c)])
theorem W7_main_v56_0 : W7 m ρ c (Proc.devRef .tc main_v56_0) = linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7)) :=
  (KHost.h3_keep_main_v56_0 (W6 m ρ c)).trans (W6_main_v56_0 m ρ c)
theorem W7_main_v1 : W7 m ρ c (Proc.devRef .tc main_v1) = srcOf (W0 m ρ c (Proc.devRef .tc main_arg1)) :=
  (KHost.h3_keep_main_v1 (W6 m ρ c)).trans (W6_main_v1 m ρ c)
theorem W7_main_v3 : W7 m ρ c (Proc.devRef .tc main_v3) = dstOf (W0 m ρ c (Proc.devRef .tc main_arg1)) :=
  (KHost.h3_keep_main_v3 (W6 m ρ c)).trans (W6_main_v3 m ρ c)
theorem W7_main_v11 : W7 m ρ c (Proc.devRef .tc main_v11) = invDeg (dstOf (W0 m ρ c (Proc.devRef .tc main_arg1))) :=
  (KHost.h3_keep_main_v11 (W6 m ρ c)).trans (W6_main_v11 m ρ c)
theorem W7_main_arg8 : W7 m ρ c (Proc.devRef .tc main_arg8) = (W0 m ρ c (Proc.devRef .tc main_arg8)) :=
  (KHost.h3_keep_main_arg8 (W6 m ρ c)).trans (W6_main_arg8 m ρ c)
theorem W7_main_arg9 : W7 m ρ c (Proc.devRef .tc main_arg9) = (W0 m ρ c (Proc.devRef .tc main_arg9)) :=
  (KHost.h3_keep_main_arg9 (W6 m ρ c)).trans (W6_main_arg9 m ρ c)
theorem W7_main_arg10 : W7 m ρ c (Proc.devRef .tc main_arg10) = (W0 m ρ c (Proc.devRef .tc main_arg10)) :=
  (KHost.h3_keep_main_arg10 (W6 m ρ c)).trans (W6_main_arg10 m ρ c)
theorem W8_main_v71 : W8 m ρ c (Proc.devRef .tc main_v71) = (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) :=
  (W8_arr m ρ c 5).trans ((Cert.KernelIdeal.RegA.final3 (V7 m ρ) c).trans (by
    show Cert.Sage.bnRelu (R := 50000) (K := 128) (W7 m ρ c (Proc.devRef .tc main_v56_0) : S50000x128.Idx → EReal) (W7 m ρ c (Proc.devRef .tc main_v67) : S1x128.Idx → EReal) (W7 m ρ c (Proc.devRef .tc main_v68) : S1x128.Idx → EReal) (W7 m ρ c (Proc.devRef .tc main_v69) : S1x128.Idx → EReal) (W7 m ρ c (Proc.devRef .tc main_v70) : S1x128.Idx → EReal) = _
    rw [(W7_main_v56_0 m ρ c), (W7_main_v67 m ρ c), (W7_main_v68 m ρ c), (W7_main_v69 m ρ c), (W7_main_v70 m ρ c)]
    rfl))
theorem W8_main_v1 : W8 m ρ c (Proc.devRef .tc main_v1) = srcOf (W0 m ρ c (Proc.devRef .tc main_arg1)) :=
  (W8_of_ne m ρ c main_v1 (by decide)).trans (W7_main_v1 m ρ c)
theorem W8_main_v3 : W8 m ρ c (Proc.devRef .tc main_v3) = dstOf (W0 m ρ c (Proc.devRef .tc main_arg1)) :=
  (W8_of_ne m ρ c main_v3 (by decide)).trans (W7_main_v3 m ρ c)
theorem W8_main_v11 : W8 m ρ c (Proc.devRef .tc main_v11) = invDeg (dstOf (W0 m ρ c (Proc.devRef .tc main_arg1))) :=
  (W8_of_ne m ρ c main_v11 (by decide)).trans (W7_main_v11 m ρ c)
theorem W8_main_arg8 : W8 m ρ c (Proc.devRef .tc main_arg8) = (W0 m ρ c (Proc.devRef .tc main_arg8)) :=
  (W8_of_ne m ρ c main_arg8 (by decide)).trans (W7_main_arg8 m ρ c)
theorem W8_main_arg9 : W8 m ρ c (Proc.devRef .tc main_arg9) = (W0 m ρ c (Proc.devRef .tc main_arg9)) :=
  (W8_of_ne m ρ c main_arg9 (by decide)).trans (W7_main_arg9 m ρ c)
theorem W8_main_arg10 : W8 m ρ c (Proc.devRef .tc main_arg10) = (W0 m ρ c (Proc.devRef .tc main_arg10)) :=
  (W8_of_ne m ρ c main_arg10 (by decide)).trans (W7_main_arg10 m ρ c)
theorem W9_main_v72 : W9 m ρ c (Proc.devRef .tc main_v72) = tr64 (W0 m ρ c (Proc.devRef .tc main_arg8)) :=
  (KHost.h4_main_v72 (W8 m ρ c)).trans (by rw [(W8_main_arg8 m ρ c)])
theorem W9_main_v73 : W9 m ρ c (Proc.devRef .tc main_v73) = tr64 (W0 m ρ c (Proc.devRef .tc main_arg10)) :=
  (KHost.h4_main_v73 (W8 m ρ c)).trans (by rw [(W8_main_arg10 m ρ c)])
theorem W9_main_v71 : W9 m ρ c (Proc.devRef .tc main_v71) = (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) :=
  (KHost.h4_keep_main_v71 (W8 m ρ c)).trans (W8_main_v71 m ρ c)
theorem W9_main_v1 : W9 m ρ c (Proc.devRef .tc main_v1) = srcOf (W0 m ρ c (Proc.devRef .tc main_arg1)) :=
  (KHost.h4_keep_main_v1 (W8 m ρ c)).trans (W8_main_v1 m ρ c)
theorem W9_main_v3 : W9 m ρ c (Proc.devRef .tc main_v3) = dstOf (W0 m ρ c (Proc.devRef .tc main_arg1)) :=
  (KHost.h4_keep_main_v3 (W8 m ρ c)).trans (W8_main_v3 m ρ c)
theorem W9_main_v11 : W9 m ρ c (Proc.devRef .tc main_v11) = invDeg (dstOf (W0 m ρ c (Proc.devRef .tc main_arg1))) :=
  (KHost.h4_keep_main_v11 (W8 m ρ c)).trans (W8_main_v11 m ρ c)
theorem W9_main_arg9 : W9 m ρ c (Proc.devRef .tc main_arg9) = (W0 m ρ c (Proc.devRef .tc main_arg9)) :=
  (KHost.h4_keep_main_arg9 (W8 m ρ c)).trans (W8_main_arg9 m ρ c)
theorem W10_main_v74 : W10 m ρ c (Proc.devRef .tc main_v74) = (Cert.Linear.matProd (R := 50000) (K := 128) (N := 64) (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) (tr64 (W0 m ρ c (Proc.devRef .tc main_arg8)))) :=
  (W10_arr m ρ c 2).trans ((Cert.KernelIdeal.RegA.final4 (V9 m ρ) c).trans (by
    show Cert.Linear.matProd (R := 50000) (K := 128) (N := 64) (W9 m ρ c (Proc.devRef .tc main_v71) : S50000x128.Idx → EReal) (W9 m ρ c (Proc.devRef .tc main_v72) : S128x64.Idx → EReal) = _
    rw [(W9_main_v71 m ρ c), (W9_main_v72 m ρ c)]))
theorem W10_main_v1 : W10 m ρ c (Proc.devRef .tc main_v1) = srcOf (W0 m ρ c (Proc.devRef .tc main_arg1)) :=
  (W10_of_ne m ρ c main_v1 (by decide)).trans (W9_main_v1 m ρ c)
theorem W10_main_v3 : W10 m ρ c (Proc.devRef .tc main_v3) = dstOf (W0 m ρ c (Proc.devRef .tc main_arg1)) :=
  (W10_of_ne m ρ c main_v3 (by decide)).trans (W9_main_v3 m ρ c)
theorem W10_main_v11 : W10 m ρ c (Proc.devRef .tc main_v11) = invDeg (dstOf (W0 m ρ c (Proc.devRef .tc main_arg1))) :=
  (W10_of_ne m ρ c main_v11 (by decide)).trans (W9_main_v11 m ρ c)
theorem W10_main_arg9 : W10 m ρ c (Proc.devRef .tc main_arg9) = (W0 m ρ c (Proc.devRef .tc main_arg9)) :=
  (W10_of_ne m ρ c main_arg9 (by decide)).trans (W9_main_arg9 m ρ c)
theorem W10_main_v73 : W10 m ρ c (Proc.devRef .tc main_v73) = tr64 (W0 m ρ c (Proc.devRef .tc main_arg10)) :=
  (W10_of_ne m ρ c main_v73 (by decide)).trans (W9_main_v73 m ρ c)
theorem W10_main_v71 : W10 m ρ c (Proc.devRef .tc main_v71) = (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) :=
  ((W10_arr m ρ c 0).trans (((dat4 (V9 m ρ) c).arrAt_in 0 rfl _).trans (A_eq4 (V9 m ρ) c 0))).trans (W9_main_v71 m ρ c)
theorem W11_main_v84 : W11 m ρ c (Proc.devRef .tc main_v84) = agg64Of (Cert.Linear.matProd (R := 50000) (K := 128) (N := 64) (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) (tr64 (W0 m ρ c (Proc.devRef .tc main_arg8)))) (srcOf (W0 m ρ c (Proc.devRef .tc main_arg1))) (dstOf (W0 m ρ c (Proc.devRef .tc main_arg1))) :=
  (KHost.h5_main_v84 (W10 m ρ c)).trans (by rw [(W10_main_v74 m ρ c), (W10_main_v1 m ρ c), (W10_main_v3 m ρ c)])
theorem W11_main_v85 : W11 m ρ c (Proc.devRef .tc main_v85) = colOf (invDeg (dstOf (W0 m ρ c (Proc.devRef .tc main_arg1)))) :=
  (KHost.h5_main_v85 (W10 m ρ c)).trans (by rw [(W10_main_v11 m ρ c)])
theorem W11_main_v86 : W11 m ρ c (Proc.devRef .tc main_v86) = row1_64 (W0 m ρ c (Proc.devRef .tc main_arg9)) :=
  (KHost.h5_main_v86 (W10 m ρ c)).trans (by rw [(W10_main_arg9 m ρ c)])
theorem W11_main_v71 : W11 m ρ c (Proc.devRef .tc main_v71) = (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) :=
  (KHost.h5_keep_main_v71 (W10 m ρ c)).trans (W10_main_v71 m ρ c)
theorem W11_main_v73 : W11 m ρ c (Proc.devRef .tc main_v73) = tr64 (W0 m ρ c (Proc.devRef .tc main_arg10)) :=
  (KHost.h5_keep_main_v73 (W10 m ρ c)).trans (W10_main_v73 m ρ c)
theorem W12_main_v87 : W12 m ρ c (Proc.devRef .tc main_v87) = outK (hidK (linK (hidK (linK (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4))) (W0 m ρ c (Proc.devRef .tc main_arg11)) (W0 m ρ c (Proc.devRef .tc main_arg12))) (W0 m ρ c (Proc.devRef .tc main_arg1)) (W0 m ρ c (Proc.devRef .tc main_arg5)) (W0 m ρ c (Proc.devRef .tc main_arg6)) (W0 m ρ c (Proc.devRef .tc main_arg7))) (W0 m ρ c (Proc.devRef .tc main_arg13)) (W0 m ρ c (Proc.devRef .tc main_arg14))) (W0 m ρ c (Proc.devRef .tc main_arg1)) (W0 m ρ c (Proc.devRef .tc main_arg8)) (W0 m ρ c (Proc.devRef .tc main_arg10)) (W0 m ρ c (Proc.devRef .tc main_arg9)) :=
  (W12_arr m ρ c 5).trans ((Cert.KernelIdeal.RegA.final5 (V11 m ρ) c).trans (by
    show Cert.Sage.rowSoft (R := 50000) (N := 64) (Cert.Sage.logits (R := 50000) (K := 128) (N := 64) (W11 m ρ c (Proc.devRef .tc main_v84) : S50000x64.Idx → EReal) (W11 m ρ c (Proc.devRef .tc main_v85) : S50000x1.Idx → EReal) (W11 m ρ c (Proc.devRef .tc main_v71) : S50000x128.Idx → EReal) (W11 m ρ c (Proc.devRef .tc main_v73) : S128x64.Idx → EReal) (W11 m ρ c (Proc.devRef .tc main_v86) : S1x64.Idx → EReal)) = _
    rw [(W11_main_v84 m ρ c), (W11_main_v85 m ρ c), (W11_main_v71 m ρ c), (W11_main_v73 m ρ c), (W11_main_v86 m ρ c)]
    rfl))

end Cert.KernelIdeal.KChain

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program's run, with its result kept as a fold over the program's operations.
  The program is a straight line of 183 host operations (the two calls of the positive part stand as their three
  operations each). It is cut here into six consecutive segments — the first layer's dense update, its normalisation,
  the second layer's dense update, its normalisation, the last layer's logits, the softmax — so that what each segment
  leaves in the buffers can be read for ANY contents it starts from, one segment at a time. Every weakly fair
  execution terminates, without a fault, with every buffer at the contents the fold of the operations over the launch
  memory gives it.
-/
import proofs.«126719_j90941637525590_2_alg».proof.Proof.Gen.ReferenceIdeal
import Idealize.ShloMosaic.Lib.StableHlo.Run
import proofs.«126719_j90941637525590_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 to 37 of @main. -/
abbrev seg1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v1 main_v8 main_v9 (cmpi .slt : (⟨S800000, .i32⟩ : BufTy).Contents (Elt F) → (⟨S800000, .i32⟩ : BufTy).Contents (Elt F) → (⟨S800000, .i1⟩ : BufTy).Contents (Elt F)),
    nullary main_c_1 (constantI S_ 32 50000#32),
    unary main_c_1 main_v10 (broadcastInDim S800000 ![] bcast_S_S800000 : (⟨S_, .i32⟩ : BufTy).Contents (Elt F) → (⟨S800000, .i32⟩ : BufTy).Contents (Elt F)),
    binary main_v1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_arg0 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_2 (constant S_ .f32 0x00000000#32),
    unary main_cst_2 main_v15 (broadcastInDim S50000x128 ![] bcast_S_S50000x128 : (⟨S_, .f32⟩ : BufTy).Contents (Elt F) → (⟨S50000x128, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v7 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v17 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v24 main_v26 main_v27 (addf : (⟨S50000x128, .f32⟩ : BufTy).Contents (Elt F) → (⟨S50000x128, .f32⟩ : BufTy).Contents (Elt F) → (⟨S50000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)) ]

/-- Operations 38 to 70 of @main. -/
abbrev seg2 : List (HloOp τ sig (Elt F)) :=
  [ nullary main_cst_4 (constant S_ .f32 0x00000000#32),
    binary main_v30 main_cst_4 main_v31 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_5 (constant S_ .f32 0x47435000#32),
    unary main_cst_5 main_v32 (broadcastInDim S128 ![] bcast_S_S128 : (⟨S_, .f32⟩ : BufTy).Contents (Elt F) → (⟨S128, .f32⟩ : BufTy).Contents (Elt F)),
    binary main_v31 main_v32 main_v33 (Host.divf : (⟨S128, .f32⟩ : BufTy).Contents (Elt F) → (⟨S128, .f32⟩ : BufTy).Contents (Elt F) → (⟨S128, .f32⟩ : BufTy).Contents (Elt F)),
    unary main_v33 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v30 main_v35 main_v36 (subf : (⟨S50000x128, .f32⟩ : BufTy).Contents (Elt F) → (⟨S50000x128, .f32⟩ : BufTy).Contents (Elt F) → (⟨S50000x128, .f32⟩ : BufTy).Contents (Elt F)),
    binary main_v36 main_v36 main_v37 (mulf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    binary main_v37 main_cst_6 main_v38 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_7 (constant S_ .f32 0x47435000#32),
    unary main_cst_7 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    unary main_v33 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v30 main_v42 main_v43 (subf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3727C5AC#32),
    unary main_cst_8 main_v44 (broadcastInDim S128 ![] bcast_S_S128 : (⟨S_, .f32⟩ : BufTy).Contents (Elt F) → (⟨S128, .f32⟩ : BufTy).Contents (Elt F)),
    binary main_v40 main_v44 main_v45 (addf : (⟨S128, .f32⟩ : BufTy).Contents (Elt F) → (⟨S128, .f32⟩ : BufTy).Contents (Elt F) → (⟨S128, .f32⟩ : BufTy).Contents (Elt F)),
    unary main_v45 main_v46 (Host.rsqrt : (⟨S128, .f32⟩ : BufTy).Contents (Elt F) → (⟨S128, .f32⟩ : BufTy).Contents (Elt F)),
    unary main_v46 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v43 main_v48 main_v49 (mulf : (⟨S50000x128, .f32⟩ : BufTy).Contents (Elt F) → (⟨S50000x128, .f32⟩ : BufTy).Contents (Elt F) → (⟨S50000x128, .f32⟩ : BufTy).Contents (Elt F)),
    unary main_arg11 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (mulf : (⟨S50000x128, .f32⟩ : BufTy).Contents (Elt F) → (⟨S50000x128, .f32⟩ : BufTy).Contents (Elt F) → (⟨S50000x128, .f32⟩ : BufTy).Contents (Elt F)),
    unary main_arg12 main_v53 (broadcastInDim S1x128 ![1] bcast_S128_S1x128_1 : (⟨S128, .f32⟩ : BufTy).Contents (Elt F) → (⟨S1x128, .f32⟩ : BufTy).Contents (Elt F)),
    unary main_v53 main_v54 (broadcastInDim S50000x128 ![0, 1] bcast_S1x128_S50000x128_0_1 : (⟨S1x128, .f32⟩ : BufTy).Contents (Elt F) → (⟨S50000x128, .f32⟩ : BufTy).Contents (Elt F)),
    binary main_v52 main_v54 main_v55 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v55) (TRef.of (T := ⟨S50000x128, .f32⟩) main_call0_v0) (TRef.of (T := ⟨S50000x128, .f32⟩) main_v56) maximumf ]

/-- Operations 71 to 103 of @main. -/
abbrev seg3 : List (HloOp τ sig (Elt F)) :=
  [ nullary main_cst_9 (constant S_ .f32 0x3F800000#32),
    unary main_cst_9 main_v57 (broadcastInDim S800000 ![] bcast_S_S800000 : (⟨S_, .f32⟩ : BufTy).Contents (Elt F) → (⟨S800000, .f32⟩ : BufTy).Contents (Elt F)),
    nullary main_cst_10 (constant S_ .f32 0x00000000#32),
    unary main_cst_10 main_v58 (broadcastInDim S50000 ![] bcast_S_S50000 : (⟨S_, .f32⟩ : BufTy).Contents (Elt F) → (⟨S50000, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_c_11 (constantI S_ 32 0#32),
    unary main_c_11 main_v61 (broadcastInDim S800000 ![] bcast_S_S800000 : (⟨S_, .i32⟩ : BufTy).Contents (Elt F) → (⟨S800000, .i32⟩ : BufTy).Contents (Elt F)),
    binary main_v1 main_v61 main_v62 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v63 (broadcastInDim S800000 ![] bcast_S_S800000 : (⟨S_, .i32⟩ : BufTy).Contents (Elt F) → (⟨S800000, .i32⟩ : BufTy).Contents (Elt F)),
    binary main_v1 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v56 main_v66 main_v67 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_13 (constant S_ .f32 0x00000000#32),
    unary main_cst_13 main_v68 (broadcastInDim S50000x128 ![] bcast_S_S50000x128 : (⟨S_, .f32⟩ : BufTy).Contents (Elt F) → (⟨S50000x128, .f32⟩ : BufTy).Contents (Elt F)),
    unary main_v3 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_14 (constant S_ .f32 0x3F800000#32),
    unary main_cst_14 main_v71 (broadcastInDim S50000 ![] bcast_S_S50000 : (⟨S_, .f32⟩ : BufTy).Contents (Elt F) → (⟨S50000, .f32⟩ : BufTy).Contents (Elt F)),
    binary main_v60 main_v71 main_v72 (maximumf : (⟨S50000, .f32⟩ : BufTy).Contents (Elt F) → (⟨S50000, .f32⟩ : BufTy).Contents (Elt F) → (⟨S50000, .f32⟩ : BufTy).Contents (Elt F)),
    unary main_v72 main_v73 (broadcastInDim S50000x1 ![0] bcast_S50000_S50000x1_0 : (⟨S50000, .f32⟩ : BufTy).Contents (Elt F) → (⟨S50000x1, .f32⟩ : BufTy).Contents (Elt F)),
    unary main_v73 main_v74 (broadcastInDim S50000x128 ![0, 1] bcast_S50000x1_S50000x128_0_1 : (⟨S50000x1, .f32⟩ : BufTy).Contents (Elt F) → (⟨S50000x128, .f32⟩ : BufTy).Contents (Elt F)),
    binary main_v70 main_v74 main_v75 (Host.divf : (⟨S50000x128, .f32⟩ : BufTy).Contents (Elt F) → (⟨S50000x128, .f32⟩ : BufTy).Contents (Elt F) → (⟨S50000x128, .f32⟩ : BufTy).Contents (Elt F)),
    unary main_arg5 main_v76 ((transpose S128x128 [1, 0] · transposes_S128x128_S128x128_1_0) : (⟨S128x128, .f32⟩ : BufTy).Contents (Elt F) → (⟨S128x128, .f32⟩ : BufTy).Contents (Elt F)),
    binary main_v75 main_v76 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)),
    unary main_arg7 main_v81 ((transpose S128x128 [1, 0] · transposes_S128x128_S128x128_1_0) : (⟨S128x128, .f32⟩ : BufTy).Contents (Elt F) → (⟨S128x128, .f32⟩ : BufTy).Contents (Elt F)),
    binary main_v56 main_v81 main_v82 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)) ]

/-- Operations 104 to 136 of @main. -/
abbrev seg4 : List (HloOp τ sig (Elt F)) :=
  [ nullary main_cst_15 (constant S_ .f32 0x00000000#32),
    binary main_v83 main_cst_15 main_v84 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v85 (broadcastInDim S128 ![] bcast_S_S128 : (⟨S_, .f32⟩ : BufTy).Contents (Elt F) → (⟨S128, .f32⟩ : BufTy).Contents (Elt F)),
    binary main_v84 main_v85 main_v86 (Host.divf : (⟨S128, .f32⟩ : BufTy).Contents (Elt F) → (⟨S128, .f32⟩ : BufTy).Contents (Elt F) → (⟨S128, .f32⟩ : BufTy).Contents (Elt F)),
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v83 main_v88 main_v89 (subf : (⟨S50000x128, .f32⟩ : BufTy).Contents (Elt F) → (⟨S50000x128, .f32⟩ : BufTy).Contents (Elt F) → (⟨S50000x128, .f32⟩ : BufTy).Contents (Elt F)),
    binary main_v89 main_v89 main_v90 (mulf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v90 main_cst_17 main_v91 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    unary main_v86 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v83 main_v95 main_v96 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v97 (broadcastInDim S128 ![] bcast_S_S128 : (⟨S_, .f32⟩ : BufTy).Contents (Elt F) → (⟨S128, .f32⟩ : BufTy).Contents (Elt F)),
    binary main_v93 main_v97 main_v98 (addf : (⟨S128, .f32⟩ : BufTy).Contents (Elt F) → (⟨S128, .f32⟩ : BufTy).Contents (Elt F) → (⟨S128, .f32⟩ : BufTy).Contents (Elt F)),
    unary main_v98 main_v99 (Host.rsqrt : (⟨S128, .f32⟩ : BufTy).Contents (Elt F) → (⟨S128, .f32⟩ : BufTy).Contents (Elt F)),
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v96 main_v101 main_v102 (mulf : (⟨S50000x128, .f32⟩ : BufTy).Contents (Elt F) → (⟨S50000x128, .f32⟩ : BufTy).Contents (Elt F) → (⟨S50000x128, .f32⟩ : BufTy).Contents (Elt F)),
    unary main_arg13 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (mulf : (⟨S50000x128, .f32⟩ : BufTy).Contents (Elt F) → (⟨S50000x128, .f32⟩ : BufTy).Contents (Elt F) → (⟨S50000x128, .f32⟩ : BufTy).Contents (Elt F)),
    unary main_arg14 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v108) (TRef.of (T := ⟨S50000x128, .f32⟩) main_call1_v0) (TRef.of (T := ⟨S50000x128, .f32⟩) main_v109) maximumf ]

/-- Operations 137 to 169 of @main. -/
abbrev seg5 : List (HloOp τ sig (Elt F)) :=
  [ nullary main_cst_20 (constant S_ .f32 0x3F800000#32),
    unary main_cst_20 main_v110 (broadcastInDim S800000 ![] bcast_S_S800000 : (⟨S_, .f32⟩ : BufTy).Contents (Elt F) → (⟨S800000, .f32⟩ : BufTy).Contents (Elt F)),
    nullary main_cst_21 (constant S_ .f32 0x00000000#32),
    unary main_cst_21 main_v111 (broadcastInDim S50000 ![] bcast_S_S50000 : (⟨S_, .f32⟩ : BufTy).Contents (Elt F) → (⟨S50000, .f32⟩ : BufTy).Contents (Elt F)),
    unary main_v3 main_v112 (broadcastInDim S800000x1 ![0] bcast_S800000_S800000x1_0 : (⟨S800000, .i32⟩ : BufTy).Contents (Elt F) → (⟨S800000x1, .i32⟩ : BufTy).Contents (Elt F)),
    ternary main_v111 main_v112 main_v110 main_v113 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_c_22 (constantI S_ 32 0#32),
    unary main_c_22 main_v114 (broadcastInDim S800000 ![] bcast_S_S800000 : (⟨S_, .i32⟩ : BufTy).Contents (Elt F) → (⟨S800000, .i32⟩ : BufTy).Contents (Elt F)),
    binary main_v1 main_v114 main_v115 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v116 (broadcastInDim S800000 ![] bcast_S_S800000 : (⟨S_, .i32⟩ : BufTy).Contents (Elt F) → (⟨S800000, .i32⟩ : BufTy).Contents (Elt F)),
    binary main_v1 main_v116 main_v117 (addi : (⟨S800000, .i32⟩ : BufTy).Contents (Elt F) → (⟨S800000, .i32⟩ : BufTy).Contents (Elt F) → (⟨S800000, .i32⟩ : BufTy).Contents (Elt F)),
    ternary main_v115 main_v117 main_v1 main_v118 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v118 main_v119 (broadcastInDim S800000x1 ![0] bcast_S800000_S800000x1_0 : (⟨S800000, .i32⟩ : BufTy).Contents (Elt F) → (⟨S800000x1, .i32⟩ : BufTy).Contents (Elt F)),
    binary main_v109 main_v119 main_v120 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_24 (constant S_ .f32 0x00000000#32),
    unary main_cst_24 main_v121 (broadcastInDim S50000x128 ![] bcast_S_S50000x128 : (⟨S_, .f32⟩ : BufTy).Contents (Elt F) → (⟨S50000x128, .f32⟩ : BufTy).Contents (Elt F)),
    unary main_v3 main_v122 (broadcastInDim S800000x1 ![0] bcast_S800000_S800000x1_0 : (⟨S800000, .i32⟩ : BufTy).Contents (Elt F) → (⟨S800000x1, .i32⟩ : BufTy).Contents (Elt F)),
    ternary main_v121 main_v122 main_v120 main_v123 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_25 (constant S_ .f32 0x3F800000#32),
    unary main_cst_25 main_v124 (broadcastInDim S50000 ![] bcast_S_S50000 : (⟨S_, .f32⟩ : BufTy).Contents (Elt F) → (⟨S50000, .f32⟩ : BufTy).Contents (Elt F)),
    binary main_v113 main_v124 main_v125 (maximumf : (⟨S50000, .f32⟩ : BufTy).Contents (Elt F) → (⟨S50000, .f32⟩ : BufTy).Contents (Elt F) → (⟨S50000, .f32⟩ : BufTy).Contents (Elt F)),
    unary main_v125 main_v126 (broadcastInDim S50000x1 ![0] bcast_S50000_S50000x1_0 : (⟨S50000, .f32⟩ : BufTy).Contents (Elt F) → (⟨S50000x1, .f32⟩ : BufTy).Contents (Elt F)),
    unary main_v126 main_v127 (broadcastInDim S50000x128 ![0, 1] bcast_S50000x1_S50000x128_0_1 : (⟨S50000x1, .f32⟩ : BufTy).Contents (Elt F) → (⟨S50000x128, .f32⟩ : BufTy).Contents (Elt F)),
    binary main_v123 main_v127 main_v128 (Host.divf : (⟨S50000x128, .f32⟩ : BufTy).Contents (Elt F) → (⟨S50000x128, .f32⟩ : BufTy).Contents (Elt F) → (⟨S50000x128, .f32⟩ : BufTy).Contents (Elt F)),
    unary main_arg8 main_v129 ((transpose S128x64 [1, 0] · transposes_S64x128_S128x64_1_0) : (⟨S64x128, .f32⟩ : BufTy).Contents (Elt F) → (⟨S128x64, .f32⟩ : BufTy).Contents (Elt F)),
    binary main_v128 main_v129 main_v130 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg9 main_v131 (broadcastInDim S1x64 ![1] bcast_S64_S1x64_1 : (⟨S64, .f32⟩ : BufTy).Contents (Elt F) → (⟨S1x64, .f32⟩ : BufTy).Contents (Elt F)),
    unary main_v131 main_v132 (broadcastInDim S50000x64 ![0, 1] bcast_S1x64_S50000x64_0_1 : (⟨S1x64, .f32⟩ : BufTy).Contents (Elt F) → (⟨S50000x64, .f32⟩ : BufTy).Contents (Elt F)),
    binary main_v130 main_v132 main_v133 (addf : (⟨S50000x64, .f32⟩ : BufTy).Contents (Elt F) → (⟨S50000x64, .f32⟩ : BufTy).Contents (Elt F) → (⟨S50000x64, .f32⟩ : BufTy).Contents (Elt F)),
    unary main_arg10 main_v134 ((transpose S128x64 [1, 0] · transposes_S64x128_S128x64_1_0) : (⟨S64x128, .f32⟩ : BufTy).Contents (Elt F) → (⟨S128x64, .f32⟩ : BufTy).Contents (Elt F)),
    binary main_v109 main_v134 main_v135 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)) ]

/-- Operations 170 to 183 of @main. -/
abbrev seg6 : List (HloOp τ sig (Elt F)) :=
  [ nullary main_cst_26 (constant S_ .f32 0xFF800000#32),
    binary main_v136 main_cst_26 main_v137 ((fun x v => Host.reduce FloatOps.maximumf x v reducesTo_S50000x64_S50000_d1 h_S_) : (⟨S50000x64, .f32⟩ : BufTy).Contents (Elt F) → (⟨S_, .f32⟩ : BufTy).Contents (Elt F) → (⟨S50000, .f32⟩ : BufTy).Contents (Elt F)),
    nullary main_cst_27 (constant S_ .f32 0xFF800000#32),
    unary main_cst_27 main_v138 (broadcastInDim S50000 ![] bcast_S_S50000 : (⟨S_, .f32⟩ : BufTy).Contents (Elt F) → (⟨S50000, .f32⟩ : BufTy).Contents (Elt F)),
    binary main_v138 main_v137 main_v139 (maximumf : (⟨S50000, .f32⟩ : BufTy).Contents (Elt F) → (⟨S50000, .f32⟩ : BufTy).Contents (Elt F) → (⟨S50000, .f32⟩ : BufTy).Contents (Elt F)),
    unary main_v139 main_v140 (broadcastInDim S50000x1 ![0] bcast_S50000_S50000x1_0 : (⟨S50000, .f32⟩ : BufTy).Contents (Elt F) → (⟨S50000x1, .f32⟩ : BufTy).Contents (Elt F)),
    unary main_v140 main_v141 (broadcastInDim S50000x64 ![0, 1] bcast_S50000x1_S50000x64_0_1 : (⟨S50000x1, .f32⟩ : BufTy).Contents (Elt F) → (⟨S50000x64, .f32⟩ : BufTy).Contents (Elt F)),
    binary main_v136 main_v141 main_v142 (subf : (⟨S50000x64, .f32⟩ : BufTy).Contents (Elt F) → (⟨S50000x64, .f32⟩ : BufTy).Contents (Elt F) → (⟨S50000x64, .f32⟩ : BufTy).Contents (Elt F)),
    unary main_v142 main_v143 (Host.exp : (⟨S50000x64, .f32⟩ : BufTy).Contents (Elt F) → (⟨S50000x64, .f32⟩ : BufTy).Contents (Elt F)),
    nullary main_cst_28 (constant S_ .f32 0x00000000#32),
    binary main_v143 main_cst_28 main_v144 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v144 main_v145 (broadcastInDim S50000x1 ![0] bcast_S50000_S50000x1_0 : (⟨S50000, .f32⟩ : BufTy).Contents (Elt F) → (⟨S50000x1, .f32⟩ : BufTy).Contents (Elt F)),
    unary main_v145 main_v146 (broadcastInDim S50000x64 ![0, 1] bcast_S50000x1_S50000x64_0_1 : (⟨S50000x1, .f32⟩ : BufTy).Contents (Elt F) → (⟨S50000x64, .f32⟩ : BufTy).Contents (Elt F)),
    binary main_v143 main_v146 main_v147 (Host.divf : (⟨S50000x64, .f32⟩ : BufTy).Contents (Elt F) → (⟨S50000x64, .f32⟩ : BufTy).Contents (Elt F) → (⟨S50000x64, .f32⟩ : BufTy).Contents (Elt F)) ]

/-- @main's operations, in order. -/
abbrev ops : List (HloOp τ sig (Elt F)) := seg1 ++ (seg2 ++ (seg3 ++ (seg4 ++ (seg5 ++ seg6))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg1_sub : (seg1 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg1_fresh : (seg1 : List (HloOp τ sig (Elt F))).Forall fun op => op.fresh = ∅ := by
  all_fresh seg1
set_option maxRecDepth 8192 in
theorem seg2_sub : (seg2 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg2_fresh : (seg2 : List (HloOp τ sig (Elt F))).Forall fun op => op.fresh = ∅ := by
  all_fresh seg2
set_option maxRecDepth 8192 in
theorem seg3_sub : (seg3 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg3_fresh : (seg3 : List (HloOp τ sig (Elt F))).Forall fun op => op.fresh = ∅ := by
  all_fresh seg3
set_option maxRecDepth 8192 in
theorem seg4_sub : (seg4 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg4_fresh : (seg4 : List (HloOp τ sig (Elt F))).Forall fun op => op.fresh = ∅ := by
  all_fresh seg4
set_option maxRecDepth 8192 in
theorem seg5_sub : (seg5 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg5_fresh : (seg5 : List (HloOp τ sig (Elt F))).Forall fun op => op.fresh = ∅ := by
  all_fresh seg5
set_option maxRecDepth 8192 in
theorem seg6_sub : (seg6 : List (HloOp τ sig (Elt F))).Forall fun op => op.bufs ⊆ tcRefs τ sig := by
  simp only [List.Forall, nullary_bufs_sub, unary_bufs_sub, binary_bufs_sub, ternary_bufs_sub, reshape_bufs_sub, and_self]
set_option maxRecDepth 8192 in
theorem seg6_fresh : (seg6 : List (HloOp τ sig (Elt F))).Forall fun op => op.fresh = ∅ := by
  all_fresh seg6

open Cert.LibAfter in
theorem ops_sub : (ops : List (HloOp τ sig (Elt F))).Forall fun op => op.bufs ⊆ tcRefs τ sig :=
  Forall.append seg1_sub (Forall.append seg2_sub (Forall.append seg3_sub (Forall.append seg4_sub (Forall.append seg5_sub seg6_sub))))

open Cert.LibAfter in
theorem ops_fresh : (ops : List (HloOp τ sig (Elt F))).Forall fun op => op.fresh = ∅ :=
  Forall.append seg1_fresh (Forall.append seg2_fresh (Forall.append seg3_fresh (Forall.append seg4_fresh (Forall.append seg5_fresh seg6_fresh))))

/-- On every device, from any memory with zero counters: every weakly fair execution of @main terminates with every
    buffer at the contents the fold of the operations over the launch memory gives it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (Cert.LibAfter.fresh_of_forall_dev fun _ => ops_fresh)

end Cert.ReferenceIdeal.RefRun

end
-- ==== Proof.RefSegs.lean ====
/-
  What each segment of the reference program leaves, as whole-array functions of what it starts from.
  A layer's dense update: the features of each edge's source node are gathered, summed per destination node, divided
  by the destination's degree floored at one, multiplied by the left weights; a bias is added to every row, and the
  node's own features times the right weights. The normalisation: every column's mean and mean squared deviation over
  the 50000 nodes, `(x - mean) · rsqrt(var + ε) · g + b`, then the positive part. The softmax of every row of the
  last layer's logits. Each is the program's own operations, composed; a segment's last buffer holds the composition
  applied to the buffers the segment reads, whatever they hold.
-/
import proofs.«126719_j90941637525590_2_alg».proof.Proof.RefRun

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edges' source nodes: row 0 of the edge array. -/
def srcOf (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000
/-- The edges' destination nodes: row 1 of the edge array. -/
def dstOf (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000
/-- An index vector as a column of scatter indices. -/
def idxCol (v : (⟨S800000, .i32⟩ : BufTy).Contents (Elt F)) : (⟨S800000x1, .i32⟩ : BufTy).Contents (Elt F) := broadcastInDim S800000x1 ![0] bcast_S800000_S800000x1_0 v
/-- The source nodes with negative values wrapped once (numpy indexing), as a column of gather starts. -/
def srcCol (src : (⟨S800000, .i32⟩ : BufTy).Contents (Elt F)) : (⟨S800000x1, .i32⟩ : BufTy).Contents (Elt F) :=
  idxCol (select (cmpi .slt src (broadcastInDim S800000 ![] bcast_S_S800000 (constantI S_ 32 0#32)))
    (addi src (broadcastInDim S800000 ![] bcast_S_S800000 (constantI S_ 32 50000#32))) src)
/-- The number of edges arriving at each node. -/
def degOf (dst : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (idxCol dst) (broadcastInDim S800000 ![] bcast_S_S800000 (constant S_ .f32 0x3F800000#32))
/-- The degree floored at one. -/
def maxDeg (dst : (⟨S800000, .i32⟩ : BufTy).Contents (Elt F)) : (⟨S50000, .f32⟩ : BufTy).Contents (Elt F) :=
  maximumf (degOf dst) (broadcastInDim S50000 ![] bcast_S_S50000 (constant S_ .f32 0x3F800000#32))
/-- The sum of the source features over the edges arriving at each node. -/
def aggOf (H : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (idxCol dst) (Host.gather gather_S50000x128_S800000x1_S800000x128_1_0_n_n_0_1_1128 H (srcCol src))
/-- The mean over the arriving edges. -/
def meanAgg (H : (⟨S50000x128, .f32⟩ : BufTy).Contents (Elt F)) (src dst : (⟨S800000, .i32⟩ : BufTy).Contents (Elt F)) : (⟨S50000x128, .f32⟩ : BufTy).Contents (Elt F) :=
  Host.divf (aggOf H src dst)
    (broadcastInDim S50000x128 ![0, 1] bcast_S50000x1_S50000x128_0_1 (broadcastInDim S50000x1 ![0] bcast_S50000_S50000x1_0 (maxDeg dst)))
/-- A length-128 vector repeated over the 50000 rows. -/
def row (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)
/-- A hidden layer's dense update. -/
def linOf (H : (⟨S50000x128, .f32⟩ : BufTy).Contents (Elt F)) (src dst : (⟨S800000, .i32⟩ : BufTy).Contents (Elt F)) (Wl : (⟨S128x128, .f32⟩ : BufTy).Contents (Elt F)) (bl : (⟨S128, .f32⟩ : BufTy).Contents (Elt F)) (Wr : (⟨S128x128, .f32⟩ : BufTy).Contents (Elt F)) :
    (⟨S50000x128, .f32⟩ : BufTy).Contents (Elt F) :=
  addf (addf (Host.dotGeneral dot_S50000x128_S128x128_S50000x128_1_0_0_1_n_n none (meanAgg H src dst)
      (transpose S128x128 [1, 0] Wl transposes_S128x128_S128x128_1_0)) (row bl))
    (Host.dotGeneral dot_S50000x128_S128x128_S50000x128_1_0_0_1_n_n none H (transpose S128x128 [1, 0] Wr transposes_S128x128_S128x128_1_0))
/-- The number of nodes, as a vector. -/
def nodes : (⟨S128, .f32⟩ : BufTy).Contents (Elt F) := broadcastInDim S128 ![] bcast_S_S128 (constant S_ .f32 0x47435000#32)
/-- Every column's mean. -/
def meanOf (L : (⟨S50000x128, .f32⟩ : BufTy).Contents (Elt F)) : (⟨S128, .f32⟩ : BufTy).Contents (Elt F) :=
  Host.divf (Host.reduceAdd L (constant S_ .f32 0x00000000#32) reducesTo_S50000x128_S128_d0 h_S_) nodes
/-- Every column's mean squared deviation from its mean. -/
def varOf (L : (⟨S50000x128, .f32⟩ : BufTy).Contents (Elt F)) : (⟨S128, .f32⟩ : BufTy).Contents (Elt F) :=
  Host.divf (Host.reduceAdd (mulf (subf L (row (meanOf L))) (subf L (row (meanOf L)))) (constant S_ .f32 0x00000000#32)
    reducesTo_S50000x128_S128_d0 h_S_) nodes
/-- The normalisation, its affine map and the positive part. -/
def bnOf (L : (⟨S50000x128, .f32⟩ : BufTy).Contents (Elt F)) (g be : (⟨S128, .f32⟩ : BufTy).Contents (Elt F)) : (⟨S50000x128, .f32⟩ : BufTy).Contents (Elt F) :=
  maximumf (addf (mulf (mulf (subf L (row (meanOf L)))
      (row (Host.rsqrt (addf (varOf L) (broadcastInDim S128 ![] bcast_S_S128 (constant S_ .f32 0x3727C5AC#32)))))) (row g)) (row be))
    (broadcastInDim S50000x128 ![] bcast_S_S50000x128 (constant S_ .f32 0x00000000#32))
/-- The last layer's logits. -/
def lin2Of (H : (⟨S50000x128, .f32⟩ : BufTy).Contents (Elt F)) (src dst : (⟨S800000, .i32⟩ : BufTy).Contents (Elt F)) (Wl : (⟨S64x128, .f32⟩ : BufTy).Contents (Elt F)) (bl : (⟨S64, .f32⟩ : BufTy).Contents (Elt F)) (Wr : (⟨S64x128, .f32⟩ : BufTy).Contents (Elt F)) :
    (⟨S50000x64, .f32⟩ : BufTy).Contents (Elt F) :=
  addf (addf (Host.dotGeneral dot_S50000x128_S128x64_S50000x64_1_0_0_1_n_n none (meanAgg H src dst)
      (transpose S128x64 [1, 0] Wl transposes_S64x128_S128x64_1_0))
      (broadcastInDim S50000x64 ![0, 1] bcast_S1x64_S50000x64_0_1 (broadcastInDim S1x64 ![1] bcast_S64_S1x64_1 bl)))
    (Host.dotGeneral dot_S50000x128_S128x64_S50000x64_1_0_0_1_n_n none H (transpose S128x64 [1, 0] Wr transposes_S64x128_S128x64_1_0))
/-- A per-node value repeated over the 64 columns. -/
def col64 (v : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 v)
/-- The exponentials of the logits shifted by their row's maximum. -/
def expOf (Lg : (⟨S50000x64, .f32⟩ : BufTy).Contents (Elt F)) : (⟨S50000x64, .f32⟩ : BufTy).Contents (Elt F) :=
  Host.exp (subf Lg (col64 (maximumf (broadcastInDim S50000 ![] bcast_S_S50000 (constant S_ .f32 0xFF800000#32))
    (Host.reduce FloatOps.maximumf Lg (constant S_ .f32 0xFF800000#32) reducesTo_S50000x64_S50000_d1 h_S_))))
/-- The softmax of every row. -/
def softOf (Lg : (⟨S50000x64, .f32⟩ : BufTy).Contents (Elt F)) : (⟨S50000x64, .f32⟩ : BufTy).Contents (Elt F) :=
  Host.divf (expOf Lg) (col64 (Host.reduceAdd (expOf Lg) (constant S_ .f32 0x00000000#32) reducesTo_S50000x64_S50000_d1 h_S_))

/-! ## What each segment leaves -/

theorem seg1_src (V : Valuation τ sig (Elt F)) : after seg1 V (Proc.devRef .tc main_v1) = srcOf (V (Proc.devRef .tc main_arg1)) := by
  after_results_simp <;> rfl
theorem seg1_dst (V : Valuation τ sig (Elt F)) : after seg1 V (Proc.devRef .tc main_v3) = dstOf (V (Proc.devRef .tc main_arg1)) := by
  after_results_simp <;> rfl
theorem seg1_lin (V : Valuation τ sig (Elt F)) : after seg1 V (Proc.devRef .tc main_v30)
    = linOf (V (Proc.devRef .tc main_arg0)) (srcOf (V (Proc.devRef .tc main_arg1))) (dstOf (V (Proc.devRef .tc main_arg1)))
        (V (Proc.devRef .tc main_arg2)) (V (Proc.devRef .tc main_arg3)) (V (Proc.devRef .tc main_arg4)) := by
  after_results_simp <;> rfl
theorem seg2_bn (V : Valuation τ sig (Elt F)) : after seg2 V (Proc.devRef .tc main_v56)
    = bnOf (V (Proc.devRef .tc main_v30)) (V (Proc.devRef .tc main_arg11)) (V (Proc.devRef .tc main_arg12)) := by
  after_results_simp <;> rfl
theorem seg3_lin (V : Valuation τ sig (Elt F)) : after seg3 V (Proc.devRef .tc main_v83)
    = linOf (V (Proc.devRef .tc main_v56)) (V (Proc.devRef .tc main_v1)) (V (Proc.devRef .tc main_v3))
        (V (Proc.devRef .tc main_arg5)) (V (Proc.devRef .tc main_arg6)) (V (Proc.devRef .tc main_arg7)) := by
  after_results_simp <;> rfl
theorem seg4_bn (V : Valuation τ sig (Elt F)) : after seg4 V (Proc.devRef .tc main_v109)
    = bnOf (V (Proc.devRef .tc main_v83)) (V (Proc.devRef .tc main_arg13)) (V (Proc.devRef .tc main_arg14)) := by
  after_results_simp <;> rfl
theorem seg5_lin (V : Valuation τ sig (Elt F)) : after seg5 V (Proc.devRef .tc main_v136)
    = lin2Of (V (Proc.devRef .tc main_v109)) (V (Proc.devRef .tc main_v1)) (V (Proc.devRef .tc main_v3))
        (V (Proc.devRef .tc main_arg8)) (V (Proc.devRef .tc main_arg9)) (V (Proc.devRef .tc main_arg10)) := by
  after_results_simp <;> rfl
theorem seg6_soft (V : Valuation τ sig (Elt F)) : after seg6 V (Proc.devRef .tc main_v147) = softOf (V (Proc.devRef .tc main_v136)) := by
  after_results_simp <;> rfl

/-! ## Buffers a segment does not write -/

theorem seg1_keep_main_arg11 (V : Valuation τ sig (Elt F)) : after seg1 V (Proc.devRef .tc main_arg11) = V (Proc.devRef .tc main_arg11) := by
  after_results_simp <;> rfl
theorem seg1_keep_main_arg12 (V : Valuation τ sig (Elt F)) : after seg1 V (Proc.devRef .tc main_arg12) = V (Proc.devRef .tc main_arg12) := by
  after_results_simp <;> rfl
theorem seg1_keep_main_arg5 (V : Valuation τ sig (Elt F)) : after seg1 V (Proc.devRef .tc main_arg5) = V (Proc.devRef .tc main_arg5) := by
  after_results_simp <;> rfl
theorem seg1_keep_main_arg6 (V : Valuation τ sig (Elt F)) : after seg1 V (Proc.devRef .tc main_arg6) = V (Proc.devRef .tc main_arg6) := by
  after_results_simp <;> rfl
theorem seg1_keep_main_arg7 (V : Valuation τ sig (Elt F)) : after seg1 V (Proc.devRef .tc main_arg7) = V (Proc.devRef .tc main_arg7) := by
  after_results_simp <;> rfl
theorem seg1_keep_main_arg13 (V : Valuation τ sig (Elt F)) : after seg1 V (Proc.devRef .tc main_arg13) = V (Proc.devRef .tc main_arg13) := by
  after_results_simp <;> rfl
theorem seg1_keep_main_arg14 (V : Valuation τ sig (Elt F)) : after seg1 V (Proc.devRef .tc main_arg14) = V (Proc.devRef .tc main_arg14) := by
  after_results_simp <;> rfl
theorem seg1_keep_main_arg8 (V : Valuation τ sig (Elt F)) : after seg1 V (Proc.devRef .tc main_arg8) = V (Proc.devRef .tc main_arg8) := by
  after_results_simp <;> rfl
theorem seg1_keep_main_arg9 (V : Valuation τ sig (Elt F)) : after seg1 V (Proc.devRef .tc main_arg9) = V (Proc.devRef .tc main_arg9) := by
  after_results_simp <;> rfl
theorem seg1_keep_main_arg10 (V : Valuation τ sig (Elt F)) : after seg1 V (Proc.devRef .tc main_arg10) = V (Proc.devRef .tc main_arg10) := by
  after_results_simp <;> rfl
theorem seg2_keep_main_v1 (V : Valuation τ sig (Elt F)) : after seg2 V (Proc.devRef .tc main_v1) = V (Proc.devRef .tc main_v1) := by
  after_results_simp <;> rfl
theorem seg2_keep_main_v3 (V : Valuation τ sig (Elt F)) : after seg2 V (Proc.devRef .tc main_v3) = V (Proc.devRef .tc main_v3) := by
  after_results_simp <;> rfl
theorem seg2_keep_main_arg5 (V : Valuation τ sig (Elt F)) : after seg2 V (Proc.devRef .tc main_arg5) = V (Proc.devRef .tc main_arg5) := by
  after_results_simp <;> rfl
theorem seg2_keep_main_arg6 (V : Valuation τ sig (Elt F)) : after seg2 V (Proc.devRef .tc main_arg6) = V (Proc.devRef .tc main_arg6) := by
  after_results_simp <;> rfl
theorem seg2_keep_main_arg7 (V : Valuation τ sig (Elt F)) : after seg2 V (Proc.devRef .tc main_arg7) = V (Proc.devRef .tc main_arg7) := by
  after_results_simp <;> rfl
theorem seg2_keep_main_arg13 (V : Valuation τ sig (Elt F)) : after seg2 V (Proc.devRef .tc main_arg13) = V (Proc.devRef .tc main_arg13) := by
  after_results_simp <;> rfl
theorem seg2_keep_main_arg14 (V : Valuation τ sig (Elt F)) : after seg2 V (Proc.devRef .tc main_arg14) = V (Proc.devRef .tc main_arg14) := by
  after_results_simp <;> rfl
theorem seg2_keep_main_arg8 (V : Valuation τ sig (Elt F)) : after seg2 V (Proc.devRef .tc main_arg8) = V (Proc.devRef .tc main_arg8) := by
  after_results_simp <;> rfl
theorem seg2_keep_main_arg9 (V : Valuation τ sig (Elt F)) : after seg2 V (Proc.devRef .tc main_arg9) = V (Proc.devRef .tc main_arg9) := by
  after_results_simp <;> rfl
theorem seg2_keep_main_arg10 (V : Valuation τ sig (Elt F)) : after seg2 V (Proc.devRef .tc main_arg10) = V (Proc.devRef .tc main_arg10) := by
  after_results_simp <;> rfl
theorem seg3_keep_main_v1 (V : Valuation τ sig (Elt F)) : after seg3 V (Proc.devRef .tc main_v1) = V (Proc.devRef .tc main_v1) := by
  after_results_simp <;> rfl
theorem seg3_keep_main_v3 (V : Valuation τ sig (Elt F)) : after seg3 V (Proc.devRef .tc main_v3) = V (Proc.devRef .tc main_v3) := by
  after_results_simp <;> rfl
theorem seg3_keep_main_arg13 (V : Valuation τ sig (Elt F)) : after seg3 V (Proc.devRef .tc main_arg13) = V (Proc.devRef .tc main_arg13) := by
  after_results_simp <;> rfl
theorem seg3_keep_main_arg14 (V : Valuation τ sig (Elt F)) : after seg3 V (Proc.devRef .tc main_arg14) = V (Proc.devRef .tc main_arg14) := by
  after_results_simp <;> rfl
theorem seg3_keep_main_arg8 (V : Valuation τ sig (Elt F)) : after seg3 V (Proc.devRef .tc main_arg8) = V (Proc.devRef .tc main_arg8) := by
  after_results_simp <;> rfl
theorem seg3_keep_main_arg9 (V : Valuation τ sig (Elt F)) : after seg3 V (Proc.devRef .tc main_arg9) = V (Proc.devRef .tc main_arg9) := by
  after_results_simp <;> rfl
theorem seg3_keep_main_arg10 (V : Valuation τ sig (Elt F)) : after seg3 V (Proc.devRef .tc main_arg10) = V (Proc.devRef .tc main_arg10) := by
  after_results_simp <;> rfl
theorem seg4_keep_main_v1 (V : Valuation τ sig (Elt F)) : after seg4 V (Proc.devRef .tc main_v1) = V (Proc.devRef .tc main_v1) := by
  after_results_simp <;> rfl
theorem seg4_keep_main_v3 (V : Valuation τ sig (Elt F)) : after seg4 V (Proc.devRef .tc main_v3) = V (Proc.devRef .tc main_v3) := by
  after_results_simp <;> rfl
theorem seg4_keep_main_arg8 (V : Valuation τ sig (Elt F)) : after seg4 V (Proc.devRef .tc main_arg8) = V (Proc.devRef .tc main_arg8) := by
  after_results_simp <;> rfl
theorem seg4_keep_main_arg9 (V : Valuation τ sig (Elt F)) : after seg4 V (Proc.devRef .tc main_arg9) = V (Proc.devRef .tc main_arg9) := by
  after_results_simp <;> rfl
theorem seg4_keep_main_arg10 (V : Valuation τ sig (Elt F)) : after seg4 V (Proc.devRef .tc main_arg10) = V (Proc.devRef .tc main_arg10) := by
  after_results_simp <;> rfl

end Cert.ReferenceIdeal.RefRun

end
-- ==== Proof.RefKeep.lean ====
/-
  No operation of the reference program writes an argument array: after each segment, and so after the whole program,
  every argument buffer holds what it held before.
-/
import proofs.«126719_j90941637525590_2_alg».proof.Proof.RefRun

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem keep1_main_arg0 (V : Valuation τ sig (Elt F)) : after seg1 V (Proc.devRef .tc main_arg0) = V (Proc.devRef .tc main_arg0) := by
  after_results_simp <;> rfl
theorem keep1_main_arg1 (V : Valuation τ sig (Elt F)) : after seg1 V (Proc.devRef .tc main_arg1) = V (Proc.devRef .tc main_arg1) := by
  after_results_simp <;> rfl
theorem keep1_main_arg2 (V : Valuation τ sig (Elt F)) : after seg1 V (Proc.devRef .tc main_arg2) = V (Proc.devRef .tc main_arg2) := by
  after_results_simp <;> rfl
theorem keep1_main_arg3 (V : Valuation τ sig (Elt F)) : after seg1 V (Proc.devRef .tc main_arg3) = V (Proc.devRef .tc main_arg3) := by
  after_results_simp <;> rfl
theorem keep1_main_arg4 (V : Valuation τ sig (Elt F)) : after seg1 V (Proc.devRef .tc main_arg4) = V (Proc.devRef .tc main_arg4) := by
  after_results_simp <;> rfl
theorem keep1_main_arg5 (V : Valuation τ sig (Elt F)) : after seg1 V (Proc.devRef .tc main_arg5) = V (Proc.devRef .tc main_arg5) := by
  after_results_simp <;> rfl
theorem keep1_main_arg6 (V : Valuation τ sig (Elt F)) : after seg1 V (Proc.devRef .tc main_arg6) = V (Proc.devRef .tc main_arg6) := by
  after_results_simp <;> rfl
theorem keep1_main_arg7 (V : Valuation τ sig (Elt F)) : after seg1 V (Proc.devRef .tc main_arg7) = V (Proc.devRef .tc main_arg7) := by
  after_results_simp <;> rfl
theorem keep1_main_arg8 (V : Valuation τ sig (Elt F)) : after seg1 V (Proc.devRef .tc main_arg8) = V (Proc.devRef .tc main_arg8) := by
  after_results_simp <;> rfl
theorem keep1_main_arg9 (V : Valuation τ sig (Elt F)) : after seg1 V (Proc.devRef .tc main_arg9) = V (Proc.devRef .tc main_arg9) := by
  after_results_simp <;> rfl
theorem keep1_main_arg10 (V : Valuation τ sig (Elt F)) : after seg1 V (Proc.devRef .tc main_arg10) = V (Proc.devRef .tc main_arg10) := by
  after_results_simp <;> rfl
theorem keep1_main_arg11 (V : Valuation τ sig (Elt F)) : after seg1 V (Proc.devRef .tc main_arg11) = V (Proc.devRef .tc main_arg11) := by
  after_results_simp <;> rfl
theorem keep1_main_arg12 (V : Valuation τ sig (Elt F)) : after seg1 V (Proc.devRef .tc main_arg12) = V (Proc.devRef .tc main_arg12) := by
  after_results_simp <;> rfl
theorem keep1_main_arg13 (V : Valuation τ sig (Elt F)) : after seg1 V (Proc.devRef .tc main_arg13) = V (Proc.devRef .tc main_arg13) := by
  after_results_simp <;> rfl
theorem keep1_main_arg14 (V : Valuation τ sig (Elt F)) : after seg1 V (Proc.devRef .tc main_arg14) = V (Proc.devRef .tc main_arg14) := by
  after_results_simp <;> rfl
theorem keep2_main_arg0 (V : Valuation τ sig (Elt F)) : after seg2 V (Proc.devRef .tc main_arg0) = V (Proc.devRef .tc main_arg0) := by
  after_results_simp <;> rfl
theorem keep2_main_arg1 (V : Valuation τ sig (Elt F)) : after seg2 V (Proc.devRef .tc main_arg1) = V (Proc.devRef .tc main_arg1) := by
  after_results_simp <;> rfl
theorem keep2_main_arg2 (V : Valuation τ sig (Elt F)) : after seg2 V (Proc.devRef .tc main_arg2) = V (Proc.devRef .tc main_arg2) := by
  after_results_simp <;> rfl
theorem keep2_main_arg3 (V : Valuation τ sig (Elt F)) : after seg2 V (Proc.devRef .tc main_arg3) = V (Proc.devRef .tc main_arg3) := by
  after_results_simp <;> rfl
theorem keep2_main_arg4 (V : Valuation τ sig (Elt F)) : after seg2 V (Proc.devRef .tc main_arg4) = V (Proc.devRef .tc main_arg4) := by
  after_results_simp <;> rfl
theorem keep2_main_arg5 (V : Valuation τ sig (Elt F)) : after seg2 V (Proc.devRef .tc main_arg5) = V (Proc.devRef .tc main_arg5) := by
  after_results_simp <;> rfl
theorem keep2_main_arg6 (V : Valuation τ sig (Elt F)) : after seg2 V (Proc.devRef .tc main_arg6) = V (Proc.devRef .tc main_arg6) := by
  after_results_simp <;> rfl
theorem keep2_main_arg7 (V : Valuation τ sig (Elt F)) : after seg2 V (Proc.devRef .tc main_arg7) = V (Proc.devRef .tc main_arg7) := by
  after_results_simp <;> rfl
theorem keep2_main_arg8 (V : Valuation τ sig (Elt F)) : after seg2 V (Proc.devRef .tc main_arg8) = V (Proc.devRef .tc main_arg8) := by
  after_results_simp <;> rfl
theorem keep2_main_arg9 (V : Valuation τ sig (Elt F)) : after seg2 V (Proc.devRef .tc main_arg9) = V (Proc.devRef .tc main_arg9) := by
  after_results_simp <;> rfl
theorem keep2_main_arg10 (V : Valuation τ sig (Elt F)) : after seg2 V (Proc.devRef .tc main_arg10) = V (Proc.devRef .tc main_arg10) := by
  after_results_simp <;> rfl
theorem keep2_main_arg11 (V : Valuation τ sig (Elt F)) : after seg2 V (Proc.devRef .tc main_arg11) = V (Proc.devRef .tc main_arg11) := by
  after_results_simp <;> rfl
theorem keep2_main_arg12 (V : Valuation τ sig (Elt F)) : after seg2 V (Proc.devRef .tc main_arg12) = V (Proc.devRef .tc main_arg12) := by
  after_results_simp <;> rfl
theorem keep2_main_arg13 (V : Valuation τ sig (Elt F)) : after seg2 V (Proc.devRef .tc main_arg13) = V (Proc.devRef .tc main_arg13) := by
  after_results_simp <;> rfl
theorem keep2_main_arg14 (V : Valuation τ sig (Elt F)) : after seg2 V (Proc.devRef .tc main_arg14) = V (Proc.devRef .tc main_arg14) := by
  after_results_simp <;> rfl
theorem keep3_main_arg0 (V : Valuation τ sig (Elt F)) : after seg3 V (Proc.devRef .tc main_arg0) = V (Proc.devRef .tc main_arg0) := by
  after_results_simp <;> rfl
theorem keep3_main_arg1 (V : Valuation τ sig (Elt F)) : after seg3 V (Proc.devRef .tc main_arg1) = V (Proc.devRef .tc main_arg1) := by
  after_results_simp <;> rfl
theorem keep3_main_arg2 (V : Valuation τ sig (Elt F)) : after seg3 V (Proc.devRef .tc main_arg2) = V (Proc.devRef .tc main_arg2) := by
  after_results_simp <;> rfl
theorem keep3_main_arg3 (V : Valuation τ sig (Elt F)) : after seg3 V (Proc.devRef .tc main_arg3) = V (Proc.devRef .tc main_arg3) := by
  after_results_simp <;> rfl
theorem keep3_main_arg4 (V : Valuation τ sig (Elt F)) : after seg3 V (Proc.devRef .tc main_arg4) = V (Proc.devRef .tc main_arg4) := by
  after_results_simp <;> rfl
theorem keep3_main_arg5 (V : Valuation τ sig (Elt F)) : after seg3 V (Proc.devRef .tc main_arg5) = V (Proc.devRef .tc main_arg5) := by
  after_results_simp <;> rfl
theorem keep3_main_arg6 (V : Valuation τ sig (Elt F)) : after seg3 V (Proc.devRef .tc main_arg6) = V (Proc.devRef .tc main_arg6) := by
  after_results_simp <;> rfl
theorem keep3_main_arg7 (V : Valuation τ sig (Elt F)) : after seg3 V (Proc.devRef .tc main_arg7) = V (Proc.devRef .tc main_arg7) := by
  after_results_simp <;> rfl
theorem keep3_main_arg8 (V : Valuation τ sig (Elt F)) : after seg3 V (Proc.devRef .tc main_arg8) = V (Proc.devRef .tc main_arg8) := by
  after_results_simp <;> rfl
theorem keep3_main_arg9 (V : Valuation τ sig (Elt F)) : after seg3 V (Proc.devRef .tc main_arg9) = V (Proc.devRef .tc main_arg9) := by
  after_results_simp <;> rfl
theorem keep3_main_arg10 (V : Valuation τ sig (Elt F)) : after seg3 V (Proc.devRef .tc main_arg10) = V (Proc.devRef .tc main_arg10) := by
  after_results_simp <;> rfl
theorem keep3_main_arg11 (V : Valuation τ sig (Elt F)) : after seg3 V (Proc.devRef .tc main_arg11) = V (Proc.devRef .tc main_arg11) := by
  after_results_simp <;> rfl
theorem keep3_main_arg12 (V : Valuation τ sig (Elt F)) : after seg3 V (Proc.devRef .tc main_arg12) = V (Proc.devRef .tc main_arg12) := by
  after_results_simp <;> rfl
theorem keep3_main_arg13 (V : Valuation τ sig (Elt F)) : after seg3 V (Proc.devRef .tc main_arg13) = V (Proc.devRef .tc main_arg13) := by
  after_results_simp <;> rfl
theorem keep3_main_arg14 (V : Valuation τ sig (Elt F)) : after seg3 V (Proc.devRef .tc main_arg14) = V (Proc.devRef .tc main_arg14) := by
  after_results_simp <;> rfl
theorem keep4_main_arg0 (V : Valuation τ sig (Elt F)) : after seg4 V (Proc.devRef .tc main_arg0) = V (Proc.devRef .tc main_arg0) := by
  after_results_simp <;> rfl
theorem keep4_main_arg1 (V : Valuation τ sig (Elt F)) : after seg4 V (Proc.devRef .tc main_arg1) = V (Proc.devRef .tc main_arg1) := by
  after_results_simp <;> rfl
theorem keep4_main_arg2 (V : Valuation τ sig (Elt F)) : after seg4 V (Proc.devRef .tc main_arg2) = V (Proc.devRef .tc main_arg2) := by
  after_results_simp <;> rfl
theorem keep4_main_arg3 (V : Valuation τ sig (Elt F)) : after seg4 V (Proc.devRef .tc main_arg3) = V (Proc.devRef .tc main_arg3) := by
  after_results_simp <;> rfl
theorem keep4_main_arg4 (V : Valuation τ sig (Elt F)) : after seg4 V (Proc.devRef .tc main_arg4) = V (Proc.devRef .tc main_arg4) := by
  after_results_simp <;> rfl
theorem keep4_main_arg5 (V : Valuation τ sig (Elt F)) : after seg4 V (Proc.devRef .tc main_arg5) = V (Proc.devRef .tc main_arg5) := by
  after_results_simp <;> rfl
theorem keep4_main_arg6 (V : Valuation τ sig (Elt F)) : after seg4 V (Proc.devRef .tc main_arg6) = V (Proc.devRef .tc main_arg6) := by
  after_results_simp <;> rfl
theorem keep4_main_arg7 (V : Valuation τ sig (Elt F)) : after seg4 V (Proc.devRef .tc main_arg7) = V (Proc.devRef .tc main_arg7) := by
  after_results_simp <;> rfl
theorem keep4_main_arg8 (V : Valuation τ sig (Elt F)) : after seg4 V (Proc.devRef .tc main_arg8) = V (Proc.devRef .tc main_arg8) := by
  after_results_simp <;> rfl
theorem keep4_main_arg9 (V : Valuation τ sig (Elt F)) : after seg4 V (Proc.devRef .tc main_arg9) = V (Proc.devRef .tc main_arg9) := by
  after_results_simp <;> rfl
theorem keep4_main_arg10 (V : Valuation τ sig (Elt F)) : after seg4 V (Proc.devRef .tc main_arg10) = V (Proc.devRef .tc main_arg10) := by
  after_results_simp <;> rfl
theorem keep4_main_arg11 (V : Valuation τ sig (Elt F)) : after seg4 V (Proc.devRef .tc main_arg11) = V (Proc.devRef .tc main_arg11) := by
  after_results_simp <;> rfl
theorem keep4_main_arg12 (V : Valuation τ sig (Elt F)) : after seg4 V (Proc.devRef .tc main_arg12) = V (Proc.devRef .tc main_arg12) := by
  after_results_simp <;> rfl
theorem keep4_main_arg13 (V : Valuation τ sig (Elt F)) : after seg4 V (Proc.devRef .tc main_arg13) = V (Proc.devRef .tc main_arg13) := by
  after_results_simp <;> rfl
theorem keep4_main_arg14 (V : Valuation τ sig (Elt F)) : after seg4 V (Proc.devRef .tc main_arg14) = V (Proc.devRef .tc main_arg14) := by
  after_results_simp <;> rfl
theorem keep5_main_arg0 (V : Valuation τ sig (Elt F)) : after seg5 V (Proc.devRef .tc main_arg0) = V (Proc.devRef .tc main_arg0) := by
  after_results_simp <;> rfl
theorem keep5_main_arg1 (V : Valuation τ sig (Elt F)) : after seg5 V (Proc.devRef .tc main_arg1) = V (Proc.devRef .tc main_arg1) := by
  after_results_simp <;> rfl
theorem keep5_main_arg2 (V : Valuation τ sig (Elt F)) : after seg5 V (Proc.devRef .tc main_arg2) = V (Proc.devRef .tc main_arg2) := by
  after_results_simp <;> rfl
theorem keep5_main_arg3 (V : Valuation τ sig (Elt F)) : after seg5 V (Proc.devRef .tc main_arg3) = V (Proc.devRef .tc main_arg3) := by
  after_results_simp <;> rfl
theorem keep5_main_arg4 (V : Valuation τ sig (Elt F)) : after seg5 V (Proc.devRef .tc main_arg4) = V (Proc.devRef .tc main_arg4) := by
  after_results_simp <;> rfl
theorem keep5_main_arg5 (V : Valuation τ sig (Elt F)) : after seg5 V (Proc.devRef .tc main_arg5) = V (Proc.devRef .tc main_arg5) := by
  after_results_simp <;> rfl
theorem keep5_main_arg6 (V : Valuation τ sig (Elt F)) : after seg5 V (Proc.devRef .tc main_arg6) = V (Proc.devRef .tc main_arg6) := by
  after_results_simp <;> rfl
theorem keep5_main_arg7 (V : Valuation τ sig (Elt F)) : after seg5 V (Proc.devRef .tc main_arg7) = V (Proc.devRef .tc main_arg7) := by
  after_results_simp <;> rfl
theorem keep5_main_arg8 (V : Valuation τ sig (Elt F)) : after seg5 V (Proc.devRef .tc main_arg8) = V (Proc.devRef .tc main_arg8) := by
  after_results_simp <;> rfl
theorem keep5_main_arg9 (V : Valuation τ sig (Elt F)) : after seg5 V (Proc.devRef .tc main_arg9) = V (Proc.devRef .tc main_arg9) := by
  after_results_simp <;> rfl
theorem keep5_main_arg10 (V : Valuation τ sig (Elt F)) : after seg5 V (Proc.devRef .tc main_arg10) = V (Proc.devRef .tc main_arg10) := by
  after_results_simp <;> rfl
theorem keep5_main_arg11 (V : Valuation τ sig (Elt F)) : after seg5 V (Proc.devRef .tc main_arg11) = V (Proc.devRef .tc main_arg11) := by
  after_results_simp <;> rfl
theorem keep5_main_arg12 (V : Valuation τ sig (Elt F)) : after seg5 V (Proc.devRef .tc main_arg12) = V (Proc.devRef .tc main_arg12) := by
  after_results_simp <;> rfl
theorem keep5_main_arg13 (V : Valuation τ sig (Elt F)) : after seg5 V (Proc.devRef .tc main_arg13) = V (Proc.devRef .tc main_arg13) := by
  after_results_simp <;> rfl
theorem keep5_main_arg14 (V : Valuation τ sig (Elt F)) : after seg5 V (Proc.devRef .tc main_arg14) = V (Proc.devRef .tc main_arg14) := by
  after_results_simp <;> rfl
theorem keep6_main_arg0 (V : Valuation τ sig (Elt F)) : after seg6 V (Proc.devRef .tc main_arg0) = V (Proc.devRef .tc main_arg0) := by
  after_results_simp <;> rfl
theorem keep6_main_arg1 (V : Valuation τ sig (Elt F)) : after seg6 V (Proc.devRef .tc main_arg1) = V (Proc.devRef .tc main_arg1) := by
  after_results_simp <;> rfl
theorem keep6_main_arg2 (V : Valuation τ sig (Elt F)) : after seg6 V (Proc.devRef .tc main_arg2) = V (Proc.devRef .tc main_arg2) := by
  after_results_simp <;> rfl
theorem keep6_main_arg3 (V : Valuation τ sig (Elt F)) : after seg6 V (Proc.devRef .tc main_arg3) = V (Proc.devRef .tc main_arg3) := by
  after_results_simp <;> rfl
theorem keep6_main_arg4 (V : Valuation τ sig (Elt F)) : after seg6 V (Proc.devRef .tc main_arg4) = V (Proc.devRef .tc main_arg4) := by
  after_results_simp <;> rfl
theorem keep6_main_arg5 (V : Valuation τ sig (Elt F)) : after seg6 V (Proc.devRef .tc main_arg5) = V (Proc.devRef .tc main_arg5) := by
  after_results_simp <;> rfl
theorem keep6_main_arg6 (V : Valuation τ sig (Elt F)) : after seg6 V (Proc.devRef .tc main_arg6) = V (Proc.devRef .tc main_arg6) := by
  after_results_simp <;> rfl
theorem keep6_main_arg7 (V : Valuation τ sig (Elt F)) : after seg6 V (Proc.devRef .tc main_arg7) = V (Proc.devRef .tc main_arg7) := by
  after_results_simp <;> rfl
theorem keep6_main_arg8 (V : Valuation τ sig (Elt F)) : after seg6 V (Proc.devRef .tc main_arg8) = V (Proc.devRef .tc main_arg8) := by
  after_results_simp <;> rfl
theorem keep6_main_arg9 (V : Valuation τ sig (Elt F)) : after seg6 V (Proc.devRef .tc main_arg9) = V (Proc.devRef .tc main_arg9) := by
  after_results_simp <;> rfl
theorem keep6_main_arg10 (V : Valuation τ sig (Elt F)) : after seg6 V (Proc.devRef .tc main_arg10) = V (Proc.devRef .tc main_arg10) := by
  after_results_simp <;> rfl
theorem keep6_main_arg11 (V : Valuation τ sig (Elt F)) : after seg6 V (Proc.devRef .tc main_arg11) = V (Proc.devRef .tc main_arg11) := by
  after_results_simp <;> rfl
theorem keep6_main_arg12 (V : Valuation τ sig (Elt F)) : after seg6 V (Proc.devRef .tc main_arg12) = V (Proc.devRef .tc main_arg12) := by
  after_results_simp <;> rfl
theorem keep6_main_arg13 (V : Valuation τ sig (Elt F)) : after seg6 V (Proc.devRef .tc main_arg13) = V (Proc.devRef .tc main_arg13) := by
  after_results_simp <;> rfl
theorem keep6_main_arg14 (V : Valuation τ sig (Elt F)) : after seg6 V (Proc.devRef .tc main_arg14) = V (Proc.devRef .tc main_arg14) := by
  after_results_simp <;> rfl

theorem ops_keep_main_arg0 (V : Valuation τ sig (Elt F)) : after ops V (Proc.devRef .tc main_arg0) = V (Proc.devRef .tc main_arg0) := by
  simp only [ops, Cert.LibAfter.after_append]
  exact (keep6_main_arg0 _).trans ((keep5_main_arg0 _).trans ((keep4_main_arg0 _).trans ((keep3_main_arg0 _).trans ((keep2_main_arg0 _).trans (keep1_main_arg0 _)))))
theorem ops_keep_main_arg1 (V : Valuation τ sig (Elt F)) : after ops V (Proc.devRef .tc main_arg1) = V (Proc.devRef .tc main_arg1) := by
  simp only [ops, Cert.LibAfter.after_append]
  exact (keep6_main_arg1 _).trans ((keep5_main_arg1 _).trans ((keep4_main_arg1 _).trans ((keep3_main_arg1 _).trans ((keep2_main_arg1 _).trans (keep1_main_arg1 _)))))
theorem ops_keep_main_arg2 (V : Valuation τ sig (Elt F)) : after ops V (Proc.devRef .tc main_arg2) = V (Proc.devRef .tc main_arg2) := by
  simp only [ops, Cert.LibAfter.after_append]
  exact (keep6_main_arg2 _).trans ((keep5_main_arg2 _).trans ((keep4_main_arg2 _).trans ((keep3_main_arg2 _).trans ((keep2_main_arg2 _).trans (keep1_main_arg2 _)))))
theorem ops_keep_main_arg3 (V : Valuation τ sig (Elt F)) : after ops V (Proc.devRef .tc main_arg3) = V (Proc.devRef .tc main_arg3) := by
  simp only [ops, Cert.LibAfter.after_append]
  exact (keep6_main_arg3 _).trans ((keep5_main_arg3 _).trans ((keep4_main_arg3 _).trans ((keep3_main_arg3 _).trans ((keep2_main_arg3 _).trans (keep1_main_arg3 _)))))
theorem ops_keep_main_arg4 (V : Valuation τ sig (Elt F)) : after ops V (Proc.devRef .tc main_arg4) = V (Proc.devRef .tc main_arg4) := by
  simp only [ops, Cert.LibAfter.after_append]
  exact (keep6_main_arg4 _).trans ((keep5_main_arg4 _).trans ((keep4_main_arg4 _).trans ((keep3_main_arg4 _).trans ((keep2_main_arg4 _).trans (keep1_main_arg4 _)))))
theorem ops_keep_main_arg5 (V : Valuation τ sig (Elt F)) : after ops V (Proc.devRef .tc main_arg5) = V (Proc.devRef .tc main_arg5) := by
  simp only [ops, Cert.LibAfter.after_append]
  exact (keep6_main_arg5 _).trans ((keep5_main_arg5 _).trans ((keep4_main_arg5 _).trans ((keep3_main_arg5 _).trans ((keep2_main_arg5 _).trans (keep1_main_arg5 _)))))
theorem ops_keep_main_arg6 (V : Valuation τ sig (Elt F)) : after ops V (Proc.devRef .tc main_arg6) = V (Proc.devRef .tc main_arg6) := by
  simp only [ops, Cert.LibAfter.after_append]
  exact (keep6_main_arg6 _).trans ((keep5_main_arg6 _).trans ((keep4_main_arg6 _).trans ((keep3_main_arg6 _).trans ((keep2_main_arg6 _).trans (keep1_main_arg6 _)))))
theorem ops_keep_main_arg7 (V : Valuation τ sig (Elt F)) : after ops V (Proc.devRef .tc main_arg7) = V (Proc.devRef .tc main_arg7) := by
  simp only [ops, Cert.LibAfter.after_append]
  exact (keep6_main_arg7 _).trans ((keep5_main_arg7 _).trans ((keep4_main_arg7 _).trans ((keep3_main_arg7 _).trans ((keep2_main_arg7 _).trans (keep1_main_arg7 _)))))
theorem ops_keep_main_arg8 (V : Valuation τ sig (Elt F)) : after ops V (Proc.devRef .tc main_arg8) = V (Proc.devRef .tc main_arg8) := by
  simp only [ops, Cert.LibAfter.after_append]
  exact (keep6_main_arg8 _).trans ((keep5_main_arg8 _).trans ((keep4_main_arg8 _).trans ((keep3_main_arg8 _).trans ((keep2_main_arg8 _).trans (keep1_main_arg8 _)))))
theorem ops_keep_main_arg9 (V : Valuation τ sig (Elt F)) : after ops V (Proc.devRef .tc main_arg9) = V (Proc.devRef .tc main_arg9) := by
  simp only [ops, Cert.LibAfter.after_append]
  exact (keep6_main_arg9 _).trans ((keep5_main_arg9 _).trans ((keep4_main_arg9 _).trans ((keep3_main_arg9 _).trans ((keep2_main_arg9 _).trans (keep1_main_arg9 _)))))
theorem ops_keep_main_arg10 (V : Valuation τ sig (Elt F)) : after ops V (Proc.devRef .tc main_arg10) = V (Proc.devRef .tc main_arg10) := by
  simp only [ops, Cert.LibAfter.after_append]
  exact (keep6_main_arg10 _).trans ((keep5_main_arg10 _).trans ((keep4_main_arg10 _).trans ((keep3_main_arg10 _).trans ((keep2_main_arg10 _).trans (keep1_main_arg10 _)))))
theorem ops_keep_main_arg11 (V : Valuation τ sig (Elt F)) : after ops V (Proc.devRef .tc main_arg11) = V (Proc.devRef .tc main_arg11) := by
  simp only [ops, Cert.LibAfter.after_append]
  exact (keep6_main_arg11 _).trans ((keep5_main_arg11 _).trans ((keep4_main_arg11 _).trans ((keep3_main_arg11 _).trans ((keep2_main_arg11 _).trans (keep1_main_arg11 _)))))
theorem ops_keep_main_arg12 (V : Valuation τ sig (Elt F)) : after ops V (Proc.devRef .tc main_arg12) = V (Proc.devRef .tc main_arg12) := by
  simp only [ops, Cert.LibAfter.after_append]
  exact (keep6_main_arg12 _).trans ((keep5_main_arg12 _).trans ((keep4_main_arg12 _).trans ((keep3_main_arg12 _).trans ((keep2_main_arg12 _).trans (keep1_main_arg12 _)))))
theorem ops_keep_main_arg13 (V : Valuation τ sig (Elt F)) : after ops V (Proc.devRef .tc main_arg13) = V (Proc.devRef .tc main_arg13) := by
  simp only [ops, Cert.LibAfter.after_append]
  exact (keep6_main_arg13 _).trans ((keep5_main_arg13 _).trans ((keep4_main_arg13 _).trans ((keep3_main_arg13 _).trans ((keep2_main_arg13 _).trans (keep1_main_arg13 _)))))
theorem ops_keep_main_arg14 (V : Valuation τ sig (Elt F)) : after ops V (Proc.devRef .tc main_arg14) = V (Proc.devRef .tc main_arg14) := by
  simp only [ops, Cert.LibAfter.after_append]
  exact (keep6_main_arg14 _).trans ((keep5_main_arg14 _).trans ((keep4_main_arg14 _).trans ((keep3_main_arg14 _).trans ((keep2_main_arg14 _).trans (keep1_main_arg14 _)))))

end Cert.ReferenceIdeal.RefRun

end
-- ==== Proof.RefChain.lean ====
/-
  The reference program's result as ONE function of its fifteen arguments, and its run stated with that function.
  Two hidden layers — dense update, normalisation with the positive part — and the last layer's dense update followed
  by the softmax of every row, each layer reading the edges' source and destination nodes from the edge array.
-/
import proofs.«126719_j90941637525590_2_alg».proof.Proof.RefSegs
import proofs.«126719_j90941637525590_2_alg».proof.Proof.RefKeep

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first hidden layer. -/
def hid1 (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F))
    (x11 x12 : (⟨S128, .f32⟩ : BufTy).Contents (Elt F)) : (⟨S50000x128, .f32⟩ : BufTy).Contents (Elt F) :=
  bnOf (linOf x0 (srcOf x1) (dstOf x1) x2 x3 x4) x11 x12

/-- The network: two hidden layers, the last layer's logits, the softmax. -/
def refNet (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F))
    (x5 : (⟨S128x128, .f32⟩ : BufTy).Contents (Elt F)) (x6 : (⟨S128, .f32⟩ : BufTy).Contents (Elt F)) (x7 : (⟨S128x128, .f32⟩ : BufTy).Contents (Elt F))
    (x8 : (⟨S64x128, .f32⟩ : BufTy).Contents (Elt F)) (x9 : (⟨S64, .f32⟩ : BufTy).Contents (Elt F)) (x10 : (⟨S64x128, .f32⟩ : BufTy).Contents (Elt F))
    (x11 x12 x13 x14 : (⟨S128, .f32⟩ : BufTy).Contents (Elt F)) : (⟨S50000x64, .f32⟩ : BufTy).Contents (Elt F) :=
  softOf (lin2Of (bnOf (linOf (hid1 x0 x1 x2 x3 x4 x11 x12) (srcOf x1) (dstOf x1) x5 x6 x7) x13 x14) (srcOf x1) (dstOf x1) x8 x9 x10)

/-- After the whole program the result buffer holds the network of the arguments' contents. -/
theorem ops_result (V : Valuation τ sig (Elt F)) : after ops V (Proc.devRef .tc main_v147)
    = refNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  simp only [ops, Cert.LibAfter.after_append]
  rw [seg6_soft, seg5_lin, seg4_bn, seg4_keep_main_v1, seg4_keep_main_v3, seg4_keep_main_arg8, seg4_keep_main_arg9, seg4_keep_main_arg10,
    seg3_lin, seg3_keep_main_arg13, seg3_keep_main_arg14, seg3_keep_main_v1, seg3_keep_main_v3, seg3_keep_main_arg8, seg3_keep_main_arg9, seg3_keep_main_arg10,
    seg2_bn, seg2_keep_main_v1, seg2_keep_main_v3, seg2_keep_main_arg5, seg2_keep_main_arg6, seg2_keep_main_arg7, seg2_keep_main_arg13, seg2_keep_main_arg14, seg2_keep_main_arg8, seg2_keep_main_arg9, seg2_keep_main_arg10,
    seg1_lin, seg1_src, seg1_dst, seg1_keep_main_arg11, seg1_keep_main_arg12, seg1_keep_main_arg5, seg1_keep_main_arg6, seg1_keep_main_arg7, seg1_keep_main_arg13, seg1_keep_main_arg14, seg1_keep_main_arg8, seg1_keep_main_arg9, seg1_keep_main_arg10]
  rfl

/-- The run: every weakly fair execution terminates with the result at the network of the arguments and the arguments
    unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v147) = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v147).trans (ops_result _),
      (h c main_arg0).trans (ops_keep_main_arg0 _),
      (h c main_arg1).trans (ops_keep_main_arg1 _),
      (h c main_arg2).trans (ops_keep_main_arg2 _),
      (h c main_arg3).trans (ops_keep_main_arg3 _),
      (h c main_arg4).trans (ops_keep_main_arg4 _),
      (h c main_arg5).trans (ops_keep_main_arg5 _),
      (h c main_arg6).trans (ops_keep_main_arg6 _),
      (h c main_arg7).trans (ops_keep_main_arg7 _),
      (h c main_arg8).trans (ops_keep_main_arg8 _),
      (h c main_arg9).trans (ops_keep_main_arg9 _),
      (h c main_arg10).trans (ops_keep_main_arg10 _),
      (h c main_arg11).trans (ops_keep_main_arg11 _),
      (h c main_arg12).trans (ops_keep_main_arg12 _),
      (h c main_arg13).trans (ops_keep_main_arg13 _),
      (h c main_arg14).trans (ops_keep_main_arg14 _)⟩)
    (run m ρ)

end Cert.ReferenceIdeal.RefRun

end
-- ==== Proof.LibVariance.lean ====
/-
  The algebra of batch normalisation on the extended reals, with no program in sight.

  A batch norm of a column of numbers can spell its variance as the mean of the squared deviations from the
  mean, or as the mean of the squares minus the square of the mean, floored at zero. On real numbers the two are
  one number (and it is never negative, so the floor is the identity); on the extended reals they differ at the
  infinities, so the identity is stated for columns of REAL entries. The module also keeps the small calculus of
  "this extended real is a real number" that carries finiteness through sums, products, quotients by a non-zero
  real and inverse square roots of positive numbers, and the two float words the programs spell: 100000 and the
  batch-norm epsilon.
-/
import Idealize.ShloMosaic.PureOps.Ideal
import Idealize.ShloMosaic.PureOps.Ideal.Laws

noncomputable section

namespace Cert.BnAlgebra

open Idealize.ShloMosaic

/-! ## Extended reals that are real numbers -/

/-- The extended real is (the image of) a real number. -/
def IsR (x : EReal) : Prop := ∃ a : ℝ, x = (a : EReal)

theorem IsR.coe (a : ℝ) : IsR (a : EReal) := ⟨a, rfl⟩
theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rw [max_eq_right h]; exact hy
  · rw [max_eq_left h]; exact hx
theorem IsR.sum {ι : Type} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- A finite sum of real numbers, summed on the extended reals, is the real sum. -/
theorem coe_sum {ι : Type} (s : Finset ι) (a : ι → ℝ) : ∑ i ∈ s, ((a i : ℝ) : EReal) = ((∑ i ∈ s, a i : ℝ) : EReal) := by
  classical
  induction s using Finset.induction_on with
  | empty => simp
  | insert i s hi ih => rw [Finset.sum_insert hi, Finset.sum_insert hi, ih, EReal.coe_add]

theorem IsR.div_coe {x : EReal} (hx : IsR x) {n : ℝ} (hn : n ≠ 0) : IsR (Ideal.div x (n : EReal)) := by
  rw [Ideal.div_coe hn]; exact hx.mul (IsR.coe _)

theorem IsR.rsqrt_pos {x : EReal} (hx : IsR x) (hpos : 0 < x) : IsR (Ideal.rsqrt x) := by
  obtain ⟨a, rfl⟩ := hx
  have ha : 0 < a := by exact_mod_cast hpos
  rw [Ideal.rsqrt_coe, if_neg (not_lt.mpr ha.le), if_neg ha.ne']
  exact IsR.coe _

theorem IsR.ne_top {x : EReal} (hx : IsR x) : x ≠ ⊤ := by obtain ⟨a, rfl⟩ := hx; exact EReal.coe_ne_top a
theorem IsR.ne_bot {x : EReal} (hx : IsR x) : x ≠ ⊥ := by obtain ⟨a, rfl⟩ := hx; exact EReal.coe_ne_bot a

/-- Not negative and not `+∞`: a real number. -/
theorem IsR.of_nonneg_ne_top {x : EReal} (h0 : 0 ≤ x) (ht : x ≠ ⊤) : IsR x := by
  induction x using EReal.rec with
  | bot => exact absurd h0 (by simp)
  | top => exact absurd rfl ht
  | coe r => exact IsR.coe r

/-! ## The two float words -/

/-- The word of `100000.0` denotes the real 100000. -/
theorem ofBits_n : Ideal.ofBits .f32 0x47C35000#32 = ((100000 : ℝ) : EReal) := by
  simp [Ideal.ofBits, Ideal.ieee, -EReal.coe_mul]; norm_num

/-- The batch-norm epsilon's word denotes a positive real (the dyadic 10995116 / 2^40). -/
theorem ofBits_eps : Ideal.ofBits .f32 0x3727C5AC#32 = ((10995116 / 1099511627776 : ℝ) : EReal) := by
  simp [Ideal.ofBits, Ideal.ieee, -EReal.coe_mul]; norm_num

/-! ## The variance, spelt two ways -/

/-- For a column of REAL numbers over an index type of `n` elements: the mean of the squared deviations from the
    mean is the mean of the squares minus the squared mean, and flooring that at zero changes nothing. -/
theorem var_eq {ι : Type} [Fintype ι] (X : ι → EReal) (hX : ∀ i, IsR (X i)) (n : ℝ) (hn : 0 < n)
    (hcard : (Fintype.card ι : ℝ) = n) (μ : EReal) (hμ : μ = Ideal.div (∑ i, X i) (n : EReal)) :
    Ideal.div (∑ i, (X i - μ) * (X i - μ)) (n : EReal)
      = max (Ideal.div (∑ i, X i * X i) (n : EReal) - μ * μ) 0 := by
  choose a ha using hX
  have hn0 : n ≠ 0 := hn.ne'
  set m : ℝ := (∑ i, a i) * (1 / n) with hm
  have hμ' : μ = (m : EReal) := by
    rw [hμ, Ideal.div_coe hn0]
    simp only [ha, coe_sum, ← EReal.coe_mul, hm]
  have h1 : ∑ i, (X i - μ) * (X i - μ) = ((∑ i, (a i - m) * (a i - m) : ℝ) : EReal) := by
    rw [← coe_sum]; refine Finset.sum_congr rfl fun i _ => ?_
    rw [ha i, hμ', ← EReal.coe_sub, ← EReal.coe_mul]
  have h2 : ∑ i, X i * X i = ((∑ i, a i * a i : ℝ) : EReal) := by
    rw [← coe_sum]; refine Finset.sum_congr rfl fun i _ => ?_
    rw [ha i, ← EReal.coe_mul]
  rw [h1, h2, Ideal.div_coe hn0, Ideal.div_coe hn0, hμ', ← EReal.coe_mul, ← EReal.coe_mul, ← EReal.coe_mul,
    ← EReal.coe_sub]
  have key : (∑ i, (a i - m) * (a i - m)) * (1 / n) = (∑ i, a i * a i) * (1 / n) - m * m := by
    have e1 : ∑ i, (a i - m) * (a i - m) = (∑ i, a i * a i) - 2 * m * (∑ i, a i) + n * (m * m) := by
      have : ∀ i, (a i - m) * (a i - m) = a i * a i - 2 * m * a i + m * m := fun i => by ring
      simp only [this, Finset.sum_add_distrib, Finset.sum_sub_distrib, ← Finset.mul_sum, Finset.sum_const,
        Finset.card_univ, nsmul_eq_mul, hcard]
      ring
    have e2 : ∑ i, a i = n * m := by rw [hm]; field_simp
    rw [e1, e2]; field_simp; ring
  have hnn : 0 ≤ (∑ i, (a i - m) * (a i - m)) * (1 / n) :=
    mul_nonneg (Finset.sum_nonneg fun i _ => mul_self_nonneg _) (by positivity)
  rw [← key, max_eq_left (by exact_mod_cast hnn)]

end Cert.BnAlgebra

end
-- ==== Proof.Algebra.lean ====
/-
  The algebra that joins the two spellings of the network, on the extended reals.
  * A row scaled by the reciprocal of a non-zero number is that row divided by the number: `a · (1 / y) = a / y`,
    with no finiteness (both are `a · y⁻¹`).
  * The float words of one and of the number of nodes.
  * Which entries are real numbers: products of real matrices, the dense update, the normalised layer.
  * The last layer's exchange: aggregating the rows of a product `H · W` over a set of edges and then scaling by
    `1 / y` is the product of the aggregated, divided rows with `W` — for REAL entries, where a factor may be
    moved across a finite sum.
-/
import Idealize.ShloMosaic.PureOps.Ideal
import Idealize.ShloMosaic.PureOps.Ideal.Laws
import Idealize.ShloMosaic.Lib.ValueIdx
import proofs.«126719_j90941637525590_2_alg».proof.Proof.LibVariance
import proofs.«126719_j90941637525590_2_alg».proof.Proof.LibMatProd
import proofs.«126719_j90941637525590_2_alg».proof.Proof.Spec

noncomputable section

namespace Cert.Sage

open Idealize.ShloMosaic Idealize.ShloMosaic.ValueIdx Cert.Linear Cert.BnAlgebra

/-- The word of `1.0`. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul, -EReal.coe_one]; norm_num
  exact h.trans EReal.coe_one

/-- The word of `50000.0` denotes the real 50000. -/
theorem ofBits_nodes : Ideal.ofBits .f32 0x47435000#32 = ((50000 : ℝ) : EReal) := by
  simp [Ideal.ofBits, Ideal.ieee, -EReal.coe_mul]; norm_num

/-- Scaling by the reciprocal of a non-zero number is dividing by it. -/
theorem mul_div_one (a y : EReal) (hy : y ≠ 0) : a * Ideal.div 1 y = Ideal.div a y := by
  unfold Ideal.div; rw [if_neg hy, if_neg hy, one_mul]

/-- A degree floored at one is not zero. -/
theorem max_one_ne_zero (d : EReal) : max d 1 ≠ 0 :=
  (lt_of_lt_of_le zero_lt_one (le_max_right d 1)).ne'

theorem isR_one : IsR (1 : EReal) := ⟨1, EReal.coe_one.symm⟩

/-- The reciprocal of a real degree floored at one is a real number. -/
theorem isR_inv_max_one {d : EReal} (hd : IsR d) : IsR (Ideal.div 1 (max d 1)) := by
  obtain ⟨r, hr⟩ := hd.max isR_one
  have hr0 : r ≠ 0 := by
    intro h
    have := max_one_ne_zero d
    rw [hr, h] at this
    exact this EReal.coe_zero
  rw [hr, Ideal.div_coe hr0]
  exact isR_one.mul (IsR.coe _)

/-- A real row divided by a real degree floored at one is real. -/
theorem isR_div_max_one {a d : EReal} (ha : IsR a) (hd : IsR d) : IsR (Ideal.div a (max d 1)) := by
  rw [← mul_div_one a _ (max_one_ne_zero d)]
  exact ha.mul (isR_inv_max_one hd)

/-- A product of matrices with real entries has real entries. -/
theorem isR_matProd {R K N : Nat} {X : (Mat R K).Idx → EReal} {W : (Mat K N).Idx → EReal}
    (hX : ∀ j, IsR (X j)) (hW : ∀ j, IsR (W j)) (i : (Mat R N).Idx) : IsR (matProd X W i) :=
  IsR.sum _ _ fun k _ => (hX _).mul (hW _)

/-- The dense update of real arrays is real. -/
theorem isR_lin {R K N : Nat} {A : (Mat R K).Idx → EReal} {D : (Mat R 1).Idx → EReal} {H : (Mat R K).Idx → EReal}
    {WL : (Mat K N).Idx → EReal} {B : (Mat 1 N).Idx → EReal} {WR : (Mat K N).Idx → EReal}
    (hA : ∀ j, IsR (A j)) (hD : ∀ j, IsR (D j)) (hH : ∀ j, IsR (H j)) (hWL : ∀ j, IsR (WL j)) (hB : ∀ j, IsR (B j))
    (hWR : ∀ j, IsR (WR j)) (i : (Mat R N).Idx) : IsR (lin A D H WL B WR i) :=
  ((isR_matProd (fun j => (hA j).mul (hD _)) hWL i).add (hB _)).add (isR_matProd hH hWR i)

/-- The epsilon is a positive real. -/
theorem eps_pos : (0 : EReal) < eps := by
  unfold eps; rw [ofBits_eps]; exact_mod_cast (by norm_num : (0 : ℝ) < 10995116 / 1099511627776)

theorem isR_eps : IsR eps := by unfold eps; rw [ofBits_eps]; exact IsR.coe _

/-- The inverse standard deviation of a real, floored variance is real. -/
theorem isR_rsqrt_var {v : EReal} (hv : IsR v) : IsR (Ideal.rsqrt (max v 0 + eps)) := by
  have h0 : IsR (max v 0) := hv.max IsR.zero
  refine IsR.rsqrt_pos (h0.add isR_eps) ?_
  obtain ⟨a, ha⟩ := h0
  have ha0 : (0 : ℝ) ≤ a := by
    have h : (0 : EReal) ≤ (a : EReal) := ha ▸ le_max_right v 0
    exact_mod_cast h
  rw [ha]; unfold eps; rw [ofBits_eps, ← EReal.coe_add]
  exact_mod_cast add_pos_of_nonneg_of_pos ha0 (by norm_num : (0 : ℝ) < 10995116 / 1099511627776)

/-- The normalised layer of real arrays is real. -/
theorem isR_bnRelu {R K : Nat} {L : (Mat R K).Idx → EReal} {M V G Be : (Mat 1 K).Idx → EReal}
    (hL : ∀ j, IsR (L j)) (hM : ∀ j, IsR (M j)) (hV : ∀ j, IsR (V j)) (hG : ∀ j, IsR (G j)) (hBe : ∀ j, IsR (Be j))
    (i : (Mat R K).Idx) : IsR (bnRelu L M V G Be i) :=
  (((((hL i).sub (hM _)).mul (isR_rsqrt_var (hV _))).mul (hG _)).add (hBe _)).max IsR.zero

/-- THE EXCHANGE of the last layer, one entry: over a finite set `S` of edges, with `a e k` the entry `k` of the row
    edge `e` brings and `w k` a column of the weights, all REAL, and `y` a non-zero real: the aggregated product scaled by
    `1 / y` is the sum over `k` of the aggregated, divided entries times the weights. -/
theorem exchange {ι : Type} (S : Finset ι) {K : Nat} (a : ι → Fin K → EReal) (w : Fin K → EReal) (y : EReal)
    (ha : ∀ e k, IsR (a e k)) (hw : ∀ k, IsR (w k)) (hy : IsR y) (hy0 : y ≠ 0) :
    (0 + ∑ e ∈ S, ∑ k : Fin K, a e k * w k) * Ideal.div 1 y
      = ∑ k : Fin K, Ideal.div (0 + ∑ e ∈ S, a e k) y * w k := by
  choose a' ha' using ha
  choose w' hw' using hw
  obtain ⟨r, rfl⟩ := hy
  have hr : r ≠ 0 := fun h => hy0 (by rw [h]; exact EReal.coe_zero)
  simp only [zero_add, ha', hw', ← EReal.coe_mul, coe_sum, Ideal.div_coe hr, ← EReal.coe_one]
  congr 1
  rw [Finset.sum_comm, Finset.sum_mul]
  refine Finset.sum_congr rfl fun k _ => ?_
  rw [← Finset.sum_mul]
  ring

end Cert.Sage

end
-- ==== Proof.LibSageLin.lean ====
/-
  GENERAL LEMMA: a mean-aggregating layer's dense update, written by the host, is `Cert.Sage.lin`.
  The host divides each row of the aggregated neighbours by the row's degree floored at one (the degree vector made a
  column and then repeated over the columns by two `broadcast_in_dim`s), multiplies by the left weights, adds a bias
  vector repeated over the rows, and adds the node's features times the right weights. A kernel receives instead the
  reciprocals `1 / max(deg, 1)` as a column and the bias as one row, and scales where the host divides. Entry by
  entry the two are one number on the extended reals, with NO finiteness: dividing by a non-zero number is multiplying
  by its reciprocal, and a degree floored at one is not zero. For any sizes and any dimension record that contracts
  the left operand's columns with the right operand's rows.
-/
import Idealize.ShloMosaic.Lib.ValueLayout
import Idealize.ShloMosaic.Lib.Pipeline.Value
import proofs.«126719_j90941637525590_2_alg».proof.Proof.LibKeepdims
import proofs.«126719_j90941637525590_2_alg».proof.Proof.Algebra

noncomputable section

namespace Cert.Sage

open Idealize.ShloMosaic Idealize.ShloMosaic.ValueIdx Cert.Linear Cert.LibKeepdims

/-- A length-`a` vector made a column by `broadcast_in_dim` along axis 0 and then `b` columns: entry `(p, k)` is entry `p`. -/
theorem colBcast_apply {a b : Nat} (v : (⟨1, ![a]⟩ : Shape).Idx → EReal)
    (h1 : (⟨1, ![a]⟩ : Shape).BroadcastsInDim (Mat a 1) ![0]) (h2 : (Mat a 1).BroadcastsInDim (Mat a b) ![0, 1])
    (p : Fin a) (k : Fin b) :
    broadcastInDim (Mat a b) ![0, 1] h2 (broadcastInDim (Mat a 1) ![0] h1 v) (ix2 p k) = v (ix1 p) := by
  have e2 : broadcastInDim (Mat a b) ![0, 1] h2 (broadcastInDim (Mat a 1) ![0] h1 v) (ix2 p k)
      = broadcastInDim (Mat a 1) ![0] h1 v (ix2 p (0 : Fin 1)) :=
    broadcastInDim_apply ![0, 1] h2 _ (ix2 p k) (ix2 p (0 : Fin 1)) fun ax => by
      match ax with
      | ⟨0, _⟩ =>
        show p.val = if a = 1 then 0 else p.val
        split
        · have := p.isLt; omega
        · rfl
      | ⟨1, _⟩ => rfl
  have e1 : broadcastInDim (Mat a 1) ![0] h1 v (ix2 p (0 : Fin 1)) = v (ix1 p) :=
    broadcastInDim_apply ![0] h1 v (ix2 p (0 : Fin 1)) (ix1 p) fun ax => by
      match ax with
      | ⟨0, _⟩ =>
        show p.val = if a = 1 then 0 else p.val
        split
        · have := p.isLt; omega
        · rfl
  rw [e2, e1]

/-- A length-`b` vector made a row and then `a` rows by two `broadcast_in_dim`s: entry `(p, q)` is entry `q`. -/
theorem rowBcast_apply {a b : Nat} (v : (⟨1, ![b]⟩ : Shape).Idx → EReal)
    (h1 : (⟨1, ![b]⟩ : Shape).BroadcastsInDim (Mat 1 b) ![1]) (h2 : (Mat 1 b).BroadcastsInDim (Mat a b) ![0, 1])
    (p : Fin a) (q : Fin b) :
    broadcastInDim (Mat a b) ![0, 1] h2 (broadcastInDim (Mat 1 b) ![1] h1 v) (ix2 p q) = v (ix1 q) := by
  have e2 : broadcastInDim (Mat a b) ![0, 1] h2 (broadcastInDim (Mat 1 b) ![1] h1 v) (ix2 p q)
      = broadcastInDim (Mat 1 b) ![1] h1 v (ix2 (0 : Fin 1) q) :=
    broadcastInDim_apply ![0, 1] h2 _ (ix2 p q) (ix2 (0 : Fin 1) q) fun ax => by
      match ax with
      | ⟨0, _⟩ => rfl
      | ⟨1, _⟩ =>
        show q.val = if b = 1 then 0 else q.val
        split
        · have := q.isLt; omega
        · rfl
  have e1 : broadcastInDim (Mat 1 b) ![1] h1 v (ix2 (0 : Fin 1) q) = v (ix1 q) :=
    broadcastInDim_apply ![1] h1 v (ix2 (0 : Fin 1) q) (ix1 q) fun ax => by
      match ax with
      | ⟨0, _⟩ =>
        show q.val = if b = 1 then 0 else q.val
        split
        · have := q.isLt; omega
        · rfl
  rw [e2, e1]

/-- A scalar constant spread over a vector: every entry is the constant's value. -/
theorem splat1_apply {a : Nat} (w : BitVec 32) (h : (⟨0, ![]⟩ : Shape).BroadcastsInDim (⟨1, ![a]⟩ : Shape) ![]) (p : Fin a) :
    broadcastInDim (⟨1, ![a]⟩ : Shape) ![] h (constant (F := Ideal) (⟨0, ![]⟩ : Shape) .f32 w) (ix1 p) = Ideal.ofBits .f32 w :=
  broadcastInDim_apply ![] h _ (ix1 p) ix0 fun ax => ax.elim0

/-- THE HOST'S DENSE UPDATE IS `lin`: with `md` the degrees floored at one (never zero), the host's
    `((agg / md) · WL + bias) + H · WR` is `lin` at the column of reciprocals `1 / md` and the bias as one row. -/
theorem hostLin_eq {R K N : Nat} {d : DotDims (Mat R K) (Mat K N) (Mat R N)} (hd : Contracts d)
    (agg H : FVec Ideal (Mat R K) .f32) (md : FVec Ideal (⟨1, ![R]⟩ : Shape) .f32) (hmd : ∀ p : Fin R, md (ix1 p) ≠ 0)
    (WL WR : FVec Ideal (Mat K N) .f32) (bl : FVec Ideal (⟨1, ![N]⟩ : Shape) .f32)
    (hb1 : (⟨1, ![R]⟩ : Shape).BroadcastsInDim (Mat R 1) ![0]) (hb2 : (Mat R 1).BroadcastsInDim (Mat R K) ![0, 1])
    (hb3 : (⟨1, ![N]⟩ : Shape).BroadcastsInDim (Mat 1 N) ![1]) (hb4 : (Mat 1 N).BroadcastsInDim (Mat R N) ![0, 1])
    (hb5 : (⟨0, ![]⟩ : Shape).BroadcastsInDim (⟨1, ![R]⟩ : Shape) ![])
    (hc1 : (⟨1, ![R]⟩ : Shape).ShapeCasts (Mat R 1)) (hc2 : (⟨1, ![N]⟩ : Shape).ShapeCasts (Mat 1 N)) :
    addf (addf (Host.dotGeneral d none (Host.divf agg (broadcastInDim (Mat R K) ![0, 1] hb2 (broadcastInDim (Mat R 1) ![0] hb1 md))) WL)
        (broadcastInDim (Mat R N) ![0, 1] hb4 (broadcastInDim (Mat 1 N) ![1] hb3 bl)))
      (Host.dotGeneral d none H WR)
    = lin agg (shapeCast (Mat R 1) (Host.divf (broadcastInDim (⟨1, ![R]⟩ : Shape) ![] hb5
          (constant (F := Ideal) (⟨0, ![]⟩ : Shape) .f32 0x3F800000#32)) md) hc1) H WL (shapeCast (Mat 1 N) bl hc2) WR := by
  funext i
  obtain ⟨p, q, rfl⟩ : ∃ (p : Fin R) (q : Fin N), i = ix2 p q := ⟨i 0, i 1, eq_ix2 i⟩
  simp only [Host.dotGeneral]
  rw [dotGeneral_eq hd, dotGeneral_eq hd]
  unfold lin
  show (matProd (Host.divf agg (broadcastInDim (Mat R K) ![0, 1] hb2 (broadcastInDim (Mat R 1) ![0] hb1 md))) WL (ix2 p q)
        + broadcastInDim (Mat R N) ![0, 1] hb4 (broadcastInDim (Mat 1 N) ![1] hb3 bl) (ix2 p q)) + matProd H WR (ix2 p q) = _
  rw [rowBcast_apply bl hb3 hb4 p q, ← shapeCast_a_1a_apply bl hc2 0 q]
  refine congrArg₂ (· + ·) (congrArg₂ (· + ·) ?_ rfl) rfl
  unfold matProd
  refine Finset.sum_congr rfl fun k _ => ?_
  congr 1
  show Ideal.div (agg (ix2 p k)) (broadcastInDim (Mat R K) ![0, 1] hb2 (broadcastInDim (Mat R 1) ![0] hb1 md) (ix2 p k))
    = agg (ix2 p k) * shapeCast (Mat R 1) (Host.divf (broadcastInDim (⟨1, ![R]⟩ : Shape) ![] hb5
        (constant (F := Ideal) (⟨0, ![]⟩ : Shape) .f32 0x3F800000#32)) md) hc1 (ix2 p (0 : Fin 1))
  rw [colBcast_apply md hb1 hb2 p k, shapeCast_a_a1_apply _ hc1 p 0]
  show _ = agg (ix2 p k) * Ideal.div (broadcastInDim (⟨1, ![R]⟩ : Shape) ![] hb5
      (constant (F := Ideal) (⟨0, ![]⟩ : Shape) .f32 0x3F800000#32) (ix1 p)) (md (ix1 p))
  rw [splat1_apply _ hb5 p, ofBits_one, mul_div_one _ _ (hmd p)]

end Cert.Sage

end
-- ==== Proof.LibSageBn.lean ====
/-
  GENERAL LEMMA: batch normalisation over the rows, written by the host, is `Cert.Sage.bnRelu` at the statistics a
  kernel accumulates.
  The host computes every column's mean as (sum of the column) / n and its variance as the mean of the squared
  deviations from that mean, and normalises `(x - mean) · rsqrt(var + ε) · g + b`, keeping the positive part. A kernel
  is handed instead the column sums `S` and the column sums of squares `Q`; from them `mean = S / n` and
  `var = max(Q / n - mean², 0)`, floored once more inside the normalising kernel. For a layer of REAL entries the two
  variances are one number (the mean of squared deviations is the mean of squares minus the squared mean, and is
  never negative), so the two spellings agree entry by entry. For any sizes; `n` is the number of rows as a real.
-/
import Idealize.ShloMosaic.Lib.ValueLayout
import Idealize.ShloMosaic.Lib.Pipeline.Value
import proofs.«126719_j90941637525590_2_alg».proof.Proof.LibSageLin

noncomputable section

namespace Cert.Sage

open Idealize.ShloMosaic Idealize.ShloMosaic.ValueIdx Cert.Linear Cert.LibKeepdims Cert.BnAlgebra

/-- The host's float sum of an `a × b` array along its first axis reads, at column `c`, the initial value plus the sum
    over the rows `r` of the entries `(r, c)`. -/
theorem hostColSum_apply {a b : Nat} (x : FVec Ideal (Mat a b) .f32) (init : FVec Ideal (⟨0, ![]⟩ : Shape) .f32)
    (h' : (Mat a b).ReducesTo [0] (⟨1, ![b]⟩ : Shape)) (h : (Mat a b).Reduces [0] (⟨1, ![b]⟩ : Shape))
    (hu : 0 < (⟨0, ![]⟩ : Shape).numel) (c : Fin b) :
    Host.reduceAdd x init h' hu (ix1 c) = init (Shape.Idx.first hu) + ∑ r : Fin a, x (ix2 r c) := by
  simp only [Host.reduceAdd, Ideal.hostReduceAdd_def]
  rw [Ideal.hostReduceAdd_single h' h]
  refine congrArg (_ + ·) (Finset.sum_congr rfl fun r _ => congrArg x (funext fun ax => Fin.ext ?_))
  rw [h.lift_val]
  unfold Shape.Reduces.liftVal
  match ax with
  | ⟨0, _⟩ => rfl
  | ⟨1, _⟩ => rfl

/-- A scalar constant spread over a matrix: every entry is the constant's value. -/
theorem splat2_apply {a b : Nat} (w : BitVec 32) (h : (⟨0, ![]⟩ : Shape).BroadcastsInDim (Mat a b) ![]) (p : Fin a) (q : Fin b) :
    broadcastInDim (Mat a b) ![] h (constant (F := Ideal) (⟨0, ![]⟩ : Shape) .f32 w) (ix2 p q) = Ideal.ofBits .f32 w :=
  broadcastInDim_apply ![] h _ (ix2 p q) ix0 fun ax => ax.elim0

/-- The normalisation at explicit statistics, one entry: with `μ` the column's mean and the kernel's floored variance
    `max(max(Q/n - μ², 0), 0)`, equal to the host's mean squared deviation for a REAL column. -/
theorem bn_entry {R : Nat} (X : Fin R → EReal) (hX : ∀ r, IsR (X r)) (n : ℝ) (hn : 0 < n) (hcard : (R : ℝ) = n)
    (x gq bq : EReal) :
    max ((((x - Ideal.div (∑ r, X r) (n : EReal))
          * Ideal.rsqrt (Ideal.div (∑ r, (X r - Ideal.div (∑ r, X r) (n : EReal)) * (X r - Ideal.div (∑ r, X r) (n : EReal))) (n : EReal) + eps))
          * gq) + bq) 0
      = max ((((x - Ideal.div (∑ r, X r) (n : EReal))
          * Ideal.rsqrt (max (max (Ideal.div (∑ r, X r * X r) (n : EReal)
              - Ideal.div (∑ r, X r) (n : EReal) * Ideal.div (∑ r, X r) (n : EReal)) 0) 0 + eps))
          * gq) + bq) 0 := by
  have hc : (Fintype.card (Fin R) : ℝ) = n := by rw [Fintype.card_fin]; exact hcard
  rw [var_eq X hX n hn hc _ rfl, max_eq_left (le_max_right _ 0)]

/-- THE HOST'S NORMALISATION IS `bnRelu` at the kernel's statistics, for a layer of real entries. `nw` is the float word
    of the number of rows, `S` and `Q` the column sums and column sums of squares as one row each. -/
theorem hostBn_eq {R K : Nat} (L : FVec Ideal (Mat R K) .f32) (hL : ∀ j, IsR (L j)) (g be : FVec Ideal (⟨1, ![K]⟩ : Shape) .f32)
    (S Q : FVec Ideal (Mat 1 K) .f32) (hS : S = colSum L) (hQ : Q = colSumSq L)
    (nw : BitVec 32) (n : ℝ) (hnw : Ideal.ofBits .f32 nw = (n : EReal)) (hn : 0 < n) (hcard : (R : ℝ) = n)
    (h' : (Mat R K).ReducesTo [0] (⟨1, ![K]⟩ : Shape)) (h : (Mat R K).Reduces [0] (⟨1, ![K]⟩ : Shape))
    (hu : 0 < (⟨0, ![]⟩ : Shape).numel)
    (hs : (⟨0, ![]⟩ : Shape).BroadcastsInDim (⟨1, ![K]⟩ : Shape) ![]) (hs2 : (⟨0, ![]⟩ : Shape).BroadcastsInDim (Mat R K) ![])
    (hb3 : (⟨1, ![K]⟩ : Shape).BroadcastsInDim (Mat 1 K) ![1]) (hb4 : (Mat 1 K).BroadcastsInDim (Mat R K) ![0, 1])
    (hc : (⟨1, ![K]⟩ : Shape).ShapeCasts (Mat 1 K)) (hc' : (Mat 1 K).ShapeCasts (⟨1, ![K]⟩ : Shape)) :
    let zero : FVec Ideal (⟨0, ![]⟩ : Shape) .f32 := constant (F := Ideal) (⟨0, ![]⟩ : Shape) .f32 0x00000000#32
    let nodes : FVec Ideal (⟨1, ![K]⟩ : Shape) .f32 := broadcastInDim (⟨1, ![K]⟩ : Shape) ![] hs (constant (F := Ideal) (⟨0, ![]⟩ : Shape) .f32 nw)
    let rowOf : FVec Ideal (⟨1, ![K]⟩ : Shape) .f32 → FVec Ideal (Mat R K) .f32 :=
      fun v => broadcastInDim (Mat R K) ![0, 1] hb4 (broadcastInDim (Mat 1 K) ![1] hb3 v)
    let meanH : FVec Ideal (⟨1, ![K]⟩ : Shape) .f32 := Host.divf (Host.reduceAdd L zero h' hu) nodes
    let varH : FVec Ideal (⟨1, ![K]⟩ : Shape) .f32 :=
      Host.divf (Host.reduceAdd (mulf (subf L (rowOf meanH)) (subf L (rowOf meanH))) zero h' hu) nodes
    let meanK : FVec Ideal (⟨1, ![K]⟩ : Shape) .f32 := Host.divf (shapeCast (⟨1, ![K]⟩ : Shape) S hc') nodes
    let varK : FVec Ideal (⟨1, ![K]⟩ : Shape) .f32 :=
      maximumf (subf (Host.divf (shapeCast (⟨1, ![K]⟩ : Shape) Q hc') nodes) (mulf meanK meanK)) (broadcastInDim (⟨1, ![K]⟩ : Shape) ![] hs zero)
    maximumf (addf (mulf (mulf (subf L (rowOf meanH))
        (rowOf (Host.rsqrt (addf varH (broadcastInDim (⟨1, ![K]⟩ : Shape) ![] hs (constant (F := Ideal) (⟨0, ![]⟩ : Shape) .f32 0x3727C5AC#32))))))
        (rowOf g)) (rowOf be)) (broadcastInDim (Mat R K) ![] hs2 zero)
      = bnRelu L (shapeCast (Mat 1 K) meanK hc) (shapeCast (Mat 1 K) varK hc) (shapeCast (Mat 1 K) g hc) (shapeCast (Mat 1 K) be hc) := by
  intro zero nodes rowOf meanH varH meanK varK
  funext i
  obtain ⟨p, q, rfl⟩ : ∃ (p : Fin R) (q : Fin K), i = ix2 p q := ⟨i 0, i 1, eq_ix2 i⟩
  have hn0 : n ≠ 0 := hn.ne'
  have hzero : zero (Shape.Idx.first hu) = (0 : EReal) := Ideal.ofBits_zero_f32
  have hnodes : ∀ c : Fin K, nodes (ix1 c) = (n : EReal) := fun c => (splat1_apply nw hs c).trans hnw
  -- the host's mean and the kernel's mean are the column's mean
  have hmeanH : ∀ c : Fin K, meanH (ix1 c) = Ideal.div (∑ r : Fin R, L (ix2 r c)) (n : EReal) := fun c => by
    show Ideal.div (Host.reduceAdd L zero h' hu (ix1 c)) (nodes (ix1 c)) = _
    rw [hostColSum_apply L zero h' h hu c, hzero, zero_add, hnodes]
  have hmeanK : ∀ c : Fin K, meanK (ix1 c) = Ideal.div (∑ r : Fin R, L (ix2 r c)) (n : EReal) := fun c => by
    show Ideal.div (shapeCast (⟨1, ![K]⟩ : Shape) S hc' (ix1 c)) (nodes (ix1 c)) = _
    rw [shapeCast_1a_a_apply S hc' c, hnodes, hS]; rfl
  have hvarH : ∀ c : Fin K, varH (ix1 c)
      = Ideal.div (∑ r : Fin R, (L (ix2 r c) - Ideal.div (∑ r : Fin R, L (ix2 r c)) (n : EReal))
          * (L (ix2 r c) - Ideal.div (∑ r : Fin R, L (ix2 r c)) (n : EReal))) (n : EReal) := fun c => by
    show Ideal.div (Host.reduceAdd (mulf (subf L (rowOf meanH)) (subf L (rowOf meanH))) zero h' hu (ix1 c)) (nodes (ix1 c)) = _
    rw [hostColSum_apply _ zero h' h hu c, hzero, zero_add, hnodes]
    refine congrArg (Ideal.div · _) (Finset.sum_congr rfl fun r _ => ?_)
    show (L (ix2 r c) - rowOf meanH (ix2 r c)) * (L (ix2 r c) - rowOf meanH (ix2 r c)) = _
    rw [show rowOf meanH (ix2 r c) = meanH (ix1 c) from rowBcast_apply meanH hb3 hb4 r c, hmeanH]
  have hvarK : ∀ c : Fin K, varK (ix1 c)
      = max (Ideal.div (∑ r : Fin R, L (ix2 r c) * L (ix2 r c)) (n : EReal)
          - Ideal.div (∑ r : Fin R, L (ix2 r c)) (n : EReal) * Ideal.div (∑ r : Fin R, L (ix2 r c)) (n : EReal)) 0 := fun c => by
    show max (Ideal.div (shapeCast (⟨1, ![K]⟩ : Shape) Q hc' (ix1 c)) (nodes (ix1 c)) - meanK (ix1 c) * meanK (ix1 c))
        (broadcastInDim (⟨1, ![K]⟩ : Shape) ![] hs zero (ix1 c)) = _
    rw [shapeCast_1a_a_apply Q hc' c, hnodes, hmeanK, hQ, splat1_apply 0x00000000#32 hs c, Ideal.ofBits_zero_f32]; rfl
  -- both sides at (p, q)
  show max ((((L (ix2 p q) - rowOf meanH (ix2 p q))
        * rowOf (Host.rsqrt (addf varH (broadcastInDim (⟨1, ![K]⟩ : Shape) ![] hs
            (constant (F := Ideal) (⟨0, ![]⟩ : Shape) .f32 0x3727C5AC#32)))) (ix2 p q))
        * rowOf g (ix2 p q)) + rowOf be (ix2 p q)) (broadcastInDim (Mat R K) ![] hs2 zero (ix2 p q))
    = max ((((L (ix2 p q) - shapeCast (Mat 1 K) meanK hc (ix2 0 q))
        * Ideal.rsqrt (max (shapeCast (Mat 1 K) varK hc (ix2 0 q)) 0 + eps))
        * shapeCast (Mat 1 K) g hc (ix2 0 q)) + shapeCast (Mat 1 K) be hc (ix2 0 q)) 0
  rw [show rowOf meanH (ix2 p q) = meanH (ix1 q) from rowBcast_apply meanH hb3 hb4 p q,
    show rowOf g (ix2 p q) = g (ix1 q) from rowBcast_apply g hb3 hb4 p q,
    show rowOf be (ix2 p q) = be (ix1 q) from rowBcast_apply be hb3 hb4 p q,
    show rowOf (Host.rsqrt (addf varH (broadcastInDim (⟨1, ![K]⟩ : Shape) ![] hs
        (constant (F := Ideal) (⟨0, ![]⟩ : Shape) .f32 0x3727C5AC#32)))) (ix2 p q)
      = Ideal.rsqrt (varH (ix1 q) + eps) from
      (rowBcast_apply _ hb3 hb4 p q).trans (congrArg (fun z => Ideal.rsqrt (varH (ix1 q) + z)) (splat1_apply 0x3727C5AC#32 hs q)),
    splat2_apply 0x00000000#32 hs2 p q, Ideal.ofBits_zero_f32,
    shapeCast_a_1a_apply meanK hc 0 q, shapeCast_a_1a_apply varK hc 0 q, shapeCast_a_1a_apply g hc 0 q, shapeCast_a_1a_apply be hc 0 q,
    hmeanH, hmeanK, hvarH, hvarK]
  exact bn_entry (fun r => L (ix2 r q)) (fun r => hL _) n hn hcard _ _ _

end Cert.Sage

end
-- ==== Proof.LibSageSoft.lean ====
/-
  GENERAL LEMMA: the host's softmax of every row is `Cert.Sage.rowSoft`.
  The host takes each row's maximum (a fold from minus infinity, and once more the maximum with minus infinity, which
  changes nothing), spreads it back over the row, subtracts, exponentiates, sums each row, spreads the sums back and
  divides. Entry `(p, q)` is `exp(x_q - max x) / Σ_k exp(x_k - max x)` of row `p`. No finiteness is needed: both sides
  are the same operations on the same numbers.
-/
import proofs.«126719_j90941637525590_2_alg».proof.Proof.LibSageBn
import proofs.«126719_j90941637525590_2_alg».proof.Proof.LibRowSoftmax

noncomputable section

namespace Cert.Sage

open Idealize.ShloMosaic Idealize.ShloMosaic.ValueIdx Cert.Linear Cert.LibKeepdims Cert.LibRowMax Cert.LibRowSoftmax

/-- The host's float sum of an `a × b` array along its second axis reads, at row `r`, the initial value plus the sum
    over the columns `c` of the entries `(r, c)`. -/
theorem hostRowSum_apply {a b : Nat} (x : FVec Ideal (Mat a b) .f32) (init : FVec Ideal (⟨0, ![]⟩ : Shape) .f32)
    (h' : (Mat a b).ReducesTo [1] (⟨1, ![a]⟩ : Shape)) (h : (Mat a b).Reduces [1] (⟨1, ![a]⟩ : Shape))
    (hu : 0 < (⟨0, ![]⟩ : Shape).numel) (r : Fin a) :
    Host.reduceAdd x init h' hu (ix1 r) = init (Shape.Idx.first hu) + ∑ c : Fin b, x (ix2 r c) := by
  simp only [Host.reduceAdd, Ideal.hostReduceAdd_def]
  rw [Ideal.hostReduceAdd_single h' h]
  exact congrArg (_ + ·) (Finset.sum_congr rfl fun c _ => congrArg x (lift_rows h r c))

/-- THE HOST'S ROW SOFTMAX IS `rowSoft`. -/
theorem hostSoft_eq {R N : Nat} (Lg : FVec Ideal (Mat R N) .f32)
    (h' : (Mat R N).ReducesTo [1] (⟨1, ![R]⟩ : Shape)) (h : (Mat R N).Reduces [1] (⟨1, ![R]⟩ : Shape))
    (hu : 0 < (⟨0, ![]⟩ : Shape).numel) (hs : (⟨0, ![]⟩ : Shape).BroadcastsInDim (⟨1, ![R]⟩ : Shape) ![])
    (hb1 : (⟨1, ![R]⟩ : Shape).BroadcastsInDim (Mat R 1) ![0]) (hb2 : (Mat R 1).BroadcastsInDim (Mat R N) ![0, 1]) :
    let ninf : FVec Ideal (⟨0, ![]⟩ : Shape) .f32 := constant (F := Ideal) (⟨0, ![]⟩ : Shape) .f32 0xFF800000#32
    let zero : FVec Ideal (⟨0, ![]⟩ : Shape) .f32 := constant (F := Ideal) (⟨0, ![]⟩ : Shape) .f32 0x00000000#32
    let colOf : FVec Ideal (⟨1, ![R]⟩ : Shape) .f32 → FVec Ideal (Mat R N) .f32 :=
      fun v => broadcastInDim (Mat R N) ![0, 1] hb2 (broadcastInDim (Mat R 1) ![0] hb1 v)
    let E : FVec Ideal (Mat R N) .f32 :=
      Host.exp (subf Lg (colOf (maximumf (broadcastInDim (⟨1, ![R]⟩ : Shape) ![] hs ninf) (Host.reduce FloatOps.maximumf Lg ninf h' hu))))
    Host.divf E (colOf (Host.reduceAdd E zero h' hu)) = rowSoft Lg := by
  intro ninf zero colOf E
  funext i
  obtain ⟨p, q, rfl⟩ : ∃ (p : Fin R) (q : Fin N), i = ix2 p q := ⟨i 0, i 1, eq_ix2 i⟩
  have hzero : zero (Shape.Idx.first hu) = (0 : EReal) := Ideal.ofBits_zero_f32
  have hE : ∀ c : Fin N, E (ix2 p c) = Ideal.exp (Lg (ix2 p c) - rowMax (fun c' => Lg (ix2 p c'))) := fun c => by
    show Ideal.exp (Lg (ix2 p c) - colOf (maximumf (broadcastInDim (⟨1, ![R]⟩ : Shape) ![] hs ninf)
      (Host.reduce FloatOps.maximumf Lg ninf h' hu)) (ix2 p c)) = _
    rw [show colOf (maximumf (broadcastInDim (⟨1, ![R]⟩ : Shape) ![] hs ninf) (Host.reduce FloatOps.maximumf Lg ninf h' hu)) (ix2 p c)
        = maximumf (broadcastInDim (⟨1, ![R]⟩ : Shape) ![] hs ninf) (Host.reduce FloatOps.maximumf Lg ninf h' hu) (ix1 p)
      from colBcast_apply _ hb1 hb2 p c]
    show Ideal.exp (Lg (ix2 p c) - max (broadcastInDim (⟨1, ![R]⟩ : Shape) ![] hs ninf (ix1 p))
      (Host.reduce FloatOps.maximumf Lg ninf h' hu (ix1 p))) = _
    rw [splat1_apply 0xFF800000#32 hs p, hostReduce_maximumf_rows Lg ninf h' h hu p]
    unfold rowMax
    refine congrArg (fun z => Ideal.exp (Lg (ix2 p c) - z)) ?_
    exact max_eq_right ((Finset.le_fold_max _).mpr (Or.inl le_rfl))
  show Ideal.div (E (ix2 p q)) (colOf (Host.reduceAdd E zero h' hu) (ix2 p q)) = soft (fun c => Lg (ix2 p c)) q
  rw [show colOf (Host.reduceAdd E zero h' hu) (ix2 p q) = Host.reduceAdd E zero h' hu (ix1 p) from colBcast_apply _ hb1 hb2 p q,
    hostRowSum_apply E zero h' h hu p, hzero, zero_add]
  unfold soft
  rw [hE q]
  exact congrArg (Ideal.div _) (Finset.sum_congr rfl fun k _ => hE k)

end Cert.Sage

end
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.LibSageAgg.lean ====
/-
  GENERAL LEMMAS: rows gathered along the edges and summed per destination node, and what commutes with that.
  `aggRows H src dst` is `segment_sum(H[src], dst)` as the host spells it: a row gather by the column of source indices,
  then an accumulating row scatter by the column of destination indices into a zero array. Entry `(v, c)` is the zero
  word's value plus the sum, over the edges `e` whose destination is `v`, of `H` at the (clamped) source row of `e`,
  column `c`. So it keeps real entries real, and — for REAL entries, where a factor may be moved across a finite sum —
  aggregating the rows of a product `H · W` and scaling row `v` by a real `d v` is the product of the aggregated,
  scaled rows with `W`: aggregation is a linear combination of rows with coefficients that do not depend on the column.
-/
import proofs.«126719_j90941637525590_2_alg».proof.Proof.LibRowOps
import proofs.«126719_j90941637525590_2_alg».proof.Proof.Algebra

noncomputable section

namespace Cert.Sage

open Idealize.ShloMosaic Idealize.ShloMosaic.ValueIdx Idealize.ShloMosaic.RowOps Cert.Linear Cert.BnAlgebra

variable {N E C w : Nat}

/-- `segment_sum(H[src], dst)` into a constant array of the word `zw`. -/
def aggRows (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim (Mat N C) ![]) (zw : BitVec 32)
    (H : FVec Ideal (Mat N C) .f32) (src dst : IVec ⟨2, ![E, 1]⟩ w) : FVec Ideal (Mat N C) .f32 :=
  Host.scatterAdd (rowScatterDims N E C wfS) (broadcastInDim (Mat N C) ![] hz (constant (F := Ideal) (⟨0, ![]⟩ : Shape) .f32 zw)) dst
    (Host.gather (rowGatherDims N E C wfG) H src)

/-- The aggregated rows read at `(v, c)`. -/
theorem aggRows_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim (Mat N C) ![]) (zw : BitVec 32)
    (H : FVec Ideal (Mat N C) .f32) (src dst : IVec ⟨2, ![E, 1]⟩ w) (v : Fin N) (c : Fin C) :
    aggRows wfG wfS hz zw H src dst (ix2 v c)
      = Ideal.ofBits .f32 zw + ∑ e ∈ Finset.univ.filter (fun e : Fin E => (dst (ix2 e (0 : Fin 1))).toInt = (v.val : ℤ)),
          H (ix2 (clampRow N hN (src (ix2 e (0 : Fin 1)))) c) := by
  unfold aggRows
  show Ideal.hostScatterAdd (rowScatterDims N E C wfS) _ dst (Host.gather (rowGatherDims N E C wfG) H src) (ix2 v c) = _
  rw [rowScatterAdd_apply wfS dst _ _ v c]
  refine congrArg₂ (· + ·) (broadcastInDim_apply ![] hz _ (ix2 v c) ix0 fun ax => ax.elim0) ?_
  exact Finset.sum_congr rfl fun e _ => rowGather_apply hN wfG H src e c

/-- Aggregating real rows into zeros gives real rows. -/
theorem isR_aggRows (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim (Mat N C) ![])
    (H : FVec Ideal (Mat N C) .f32) (hH : ∀ j, IsR (H j)) (src dst : IVec ⟨2, ![E, 1]⟩ w) (j : (Mat N C).Idx) :
    IsR (aggRows wfG wfS hz 0x00000000#32 H src dst j) := by
  obtain ⟨v, c, rfl⟩ : ∃ (v : Fin N) (c : Fin C), j = ix2 v c := ⟨j 0, j 1, eq_ix2 j⟩
  rw [aggRows_apply hN, Ideal.ofBits_zero_f32]
  exact IsR.zero.add (IsR.sum _ _ fun e _ => hH _)

/-- An accumulating scatter of real updates into real entries has real entries, whatever its dimension numbers. -/
theorem isR_hostScatterAdd {s si su : Shape} (d : ScatterDims s si su) {w' : Nat} (x : s.Idx → EReal) (idx : IVec si w')
    (upd : su.Idx → EReal) (hx : ∀ i, IsR (x i)) (hu : ∀ j, IsR (upd j)) (i : s.Idx) : IsR (Ideal.hostScatterAdd d x idx upd i) :=
  (hx i).add (IsR.sum _ _ fun j _ => hu j)

/-- A factor moved across the aggregation, in the reals: `(Σ_e Σ_k a e k · w k) · d = Σ_k ((Σ_e a e k) · d) · w k`. -/
theorem exchange' {ι : Type} (S : Finset ι) {K : Nat} (a : ι → Fin K → EReal) (wt : Fin K → EReal) (d : EReal)
    (ha : ∀ e k, IsR (a e k)) (hw : ∀ k, IsR (wt k)) (hd : IsR d) :
    (0 + ∑ e ∈ S, ∑ k : Fin K, a e k * wt k) * d = ∑ k : Fin K, ((0 + ∑ e ∈ S, a e k) * d) * wt k := by
  choose a' ha' using ha
  choose w' hw' using hw
  obtain ⟨r, rfl⟩ := hd
  simp only [zero_add, ha', hw', ← EReal.coe_mul, coe_sum]
  congr 1
  rw [Finset.sum_comm, Finset.sum_mul]
  refine Finset.sum_congr rfl fun k _ => ?_
  rw [← Finset.sum_mul]
  ring

/-- THE EXCHANGE: for real `H`, `W` and a real factor per node, the aggregated rows of `H · W`, row `v` scaled by `D v`,
    are the product with `W` of the aggregated rows of `H`, row `v` scaled by `D v`. -/
theorem agg_exchange {K M : Nat} (hN : 0 < N)
    (wfG1 : GatherDims.WF ⟨2, ![N, K]⟩ ⟨2, ![E, 1]⟩ ⟨2, ![E, K]⟩ [1] [0] [] [0] [] 1 ![1, K])
    (wfS1 : ScatterDims.WF ⟨2, ![N, K]⟩ ⟨2, ![E, 1]⟩ ⟨2, ![E, K]⟩ [1] [0] [0] 1)
    (hz1 : (⟨0, ![]⟩ : Shape).BroadcastsInDim (Mat N K) ![])
    (wfG2 : GatherDims.WF ⟨2, ![N, M]⟩ ⟨2, ![E, 1]⟩ ⟨2, ![E, M]⟩ [1] [0] [] [0] [] 1 ![1, M])
    (wfS2 : ScatterDims.WF ⟨2, ![N, M]⟩ ⟨2, ![E, 1]⟩ ⟨2, ![E, M]⟩ [1] [0] [0] 1)
    (hz2 : (⟨0, ![]⟩ : Shape).BroadcastsInDim (Mat N M) ![])
    (H : FVec Ideal (Mat N K) .f32) (hH : ∀ j, IsR (H j)) (W : FVec Ideal (Mat K M) .f32) (hW : ∀ j, IsR (W j))
    (D : (Mat N 1).Idx → EReal) (hD : ∀ j, IsR (D j)) (src dst : IVec ⟨2, ![E, 1]⟩ w) (i : (Mat N M).Idx) :
    aggRows wfG2 wfS2 hz2 0x00000000#32 (matProd H W) src dst i * D (ix2 (n0 := N) (n1 := 1) (i 0) 0)
      = matProd (fun j => aggRows wfG1 wfS1 hz1 0x00000000#32 H src dst j * D (ix2 (n0 := N) (n1 := 1) (j 0) 0)) W i := by
  obtain ⟨v, q, rfl⟩ : ∃ (v : Fin N) (q : Fin M), i = ix2 v q := ⟨i 0, i 1, eq_ix2 i⟩
  rw [aggRows_apply hN, Ideal.ofBits_zero_f32]
  unfold matProd
  have hR : ∀ k : Fin K, aggRows wfG1 wfS1 hz1 0x00000000#32 H src dst (ix2 v k) * D (ix2 (n0 := N) (n1 := 1) v 0)
      = (0 + ∑ e ∈ Finset.univ.filter (fun e : Fin E => (dst (ix2 e (0 : Fin 1))).toInt = (v.val : ℤ)),
          H (ix2 (clampRow N hN (src (ix2 e (0 : Fin 1)))) k)) * D (ix2 (n0 := N) (n1 := 1) v 0) := fun k => by
    rw [aggRows_apply hN, Ideal.ofBits_zero_f32]
  show (0 + ∑ e ∈ _, ∑ k : Fin K, H (ix2 (clampRow N hN (src (ix2 e (0 : Fin 1)))) k) * W (ix2 k q)) * D (ix2 (n0 := N) (n1 := 1) v 0)
    = ∑ k : Fin K, (aggRows wfG1 wfS1 hz1 0x00000000#32 H src dst (ix2 v k) * D (ix2 (n0 := N) (n1 := 1) v 0)) * W (ix2 k q)
  simp only [hR]
  exact exchange' _ (fun e k => H (ix2 (clampRow N hN (src (ix2 e (0 : Fin 1)))) k)) (fun k => W (ix2 k q)) _
    (fun e k => hH _) (fun k => hW _) (hD _)

end Cert.Sage

end
-- ==== Proof.Bridge.lean ====
/-
  The idealized kernel's network and the reference's are one function of real-valued arguments.
  Layer by layer: the kernel's dense update is the reference's (a row scaled by `1 / max(deg, 1)` is that row divided
  by `max(deg, 1)`); for a dense update with real entries the kernel's normalisation — mean and floored variance from
  the column sums and sums of squares — is the reference's (the mean squared deviation is the mean of squares minus the
  squared mean, never negative); and for real features and weights the last layer's product taken before the
  aggregation is the product taken after it (aggregation is a linear combination of rows). Every intermediate layer
  of real arguments has real entries: sums, products, quotients by the non-zero degree and by the number of nodes,
  and the inverse square root of a positive number stay real.
-/
import proofs.«126719_j90941637525590_2_alg».proof.Proof.KNet
import proofs.«126719_j90941637525590_2_alg».proof.Proof.RefChain
import proofs.«126719_j90941637525590_2_alg».proof.Proof.LibSageSoft
import proofs.«126719_j90941637525590_2_alg».proof.Proof.LibSageAgg
import proofs.«126719_j90941637525590_2_alg».proof.Proof.LibPlainDot

set_option maxRecDepth 8192

noncomputable section

namespace Cert.Bridge

open Idealize.ShloMosaic Idealize.ShloMosaic.ValueIdx Idealize.ShloMosaic.RowOps Cert.Sage Cert.Linear Cert.BnAlgebra Cert.LibKeepdims
open Cert.KernelIdeal.KHost Cert.KernelIdeal.KNet

/-! ## The two dimension records contract columns with rows -/

theorem contr128 : Contracts Cert.ReferenceIdeal.dot_S50000x128_S128x128_S50000x128_1_0_0_1_n_n := contracts_plain 50000 128 128
theorem contr64 : Contracts Cert.ReferenceIdeal.dot_S50000x128_S128x64_S50000x64_1_0_0_1_n_n := contracts_plain 50000 128 64

/-! ## Real entries -/

/-- A scalar constant spread over any shape: every entry is the constant's value. -/
theorem splat_apply {s : Shape} (wd : BitVec 32) (h : (⟨0, ![]⟩ : Shape).BroadcastsInDim s ![]) (i : s.Idx) :
    broadcastInDim s ![] h (constant (F := Ideal) (⟨0, ![]⟩ : Shape) .f32 wd) i = Ideal.ofBits .f32 wd :=
  broadcastInDim_apply ![] h _ i ix0 fun ax => ax.elim0

/-- An accumulating scatter of the one splat into the zero splat has real entries, whatever the shapes and indices. -/
theorem isR_scatterOnes {s si su : Shape} (d : ScatterDims s si su) {w' : Nat} (idx : IVec si w')
    (hz : (⟨0, ![]⟩ : Shape).BroadcastsInDim s ![]) (ho : (⟨0, ![]⟩ : Shape).BroadcastsInDim su ![]) (i : s.Idx) :
    IsR (Host.scatterAdd d (broadcastInDim s ![] hz (constant (F := Ideal) (⟨0, ![]⟩ : Shape) .f32 0x00000000#32)) idx
      (broadcastInDim su ![] ho (constant (F := Ideal) (⟨0, ![]⟩ : Shape) .f32 0x3F800000#32)) i) := by
  show IsR (Ideal.hostScatterAdd d _ idx _ i)
  refine isR_hostScatterAdd d _ idx _ (fun i => ?_) (fun j => ?_) i
  · rw [splat_apply 0x00000000#32 hz i, Ideal.ofBits_zero_f32]; exact IsR.zero
  · rw [splat_apply 0x3F800000#32 ho j, ofBits_one]; exact isR_one

/-- The maximum with the one splat, at an entry. -/
theorem max_splat_one_apply {s : Shape} (x : FVec Ideal s .f32) (ho : (⟨0, ![]⟩ : Shape).BroadcastsInDim s ![]) (i : s.Idx) :
    maximumf x (broadcastInDim s ![] ho (constant (F := Ideal) (⟨0, ![]⟩ : Shape) .f32 0x3F800000#32)) i = max (x i) 1 := by
  show max (x i) (broadcastInDim s ![] ho (constant (F := Ideal) (⟨0, ![]⟩ : Shape) .f32 0x3F800000#32) i) = _
  rw [splat_apply 0x3F800000#32 ho i, ofBits_one]

/-- The reciprocal of a real vector floored at one, kept as a column, has real entries. -/
theorem isR_invCol {a : Nat} (dg : FVec Ideal (⟨1, ![a]⟩ : Shape) .f32) (hdg : ∀ i, IsR (dg i))
    (ho : (⟨0, ![]⟩ : Shape).BroadcastsInDim (⟨1, ![a]⟩ : Shape) ![]) (hc : (⟨1, ![a]⟩ : Shape).ShapeCasts ⟨2, ![a, 1]⟩)
    (j : (⟨2, ![a, 1]⟩ : Shape).Idx) :
    IsR (shapeCast ⟨2, ![a, 1]⟩ (Host.divf (broadcastInDim (⟨1, ![a]⟩ : Shape) ![] ho (constant (F := Ideal) (⟨0, ![]⟩ : Shape) .f32 0x3F800000#32))
      (maximumf dg (broadcastInDim (⟨1, ![a]⟩ : Shape) ![] ho (constant (F := Ideal) (⟨0, ![]⟩ : Shape) .f32 0x3F800000#32)))) hc j) := by
  obtain ⟨p, u, rfl⟩ : ∃ (p : Fin a) (u : Fin 1), j = ix2 p u := ⟨j 0, j 1, eq_ix2 j⟩
  rw [shapeCast_a_a1_apply _ hc p u]
  show IsR (Ideal.div (broadcastInDim (⟨1, ![a]⟩ : Shape) ![] ho (constant (F := Ideal) (⟨0, ![]⟩ : Shape) .f32 0x3F800000#32) (ix1 p))
    (maximumf dg (broadcastInDim (⟨1, ![a]⟩ : Shape) ![] ho (constant (F := Ideal) (⟨0, ![]⟩ : Shape) .f32 0x3F800000#32)) (ix1 p)))
  rw [max_splat_one_apply dg ho (ix1 p), splat_apply 0x3F800000#32 ho (ix1 p), ofBits_one]
  exact isR_inv_max_one (hdg _)

/-- Every node's in-degree is a real number: a sum of ones. -/
theorem isR_deg (dst : (⟨Cert.KernelIdeal.S800000, .i32⟩ : BufTy).Contents (Elt Ideal)) (i : Cert.KernelIdeal.S50000.Idx) : IsR (degOf dst i) :=
  isR_scatterOnes Cert.KernelIdeal.scatter_S50000_S800000x1_S800000_n_0_0_1 (idxCol dst) Cert.KernelIdeal.Facts₀.bcast_S_S50000 Cert.KernelIdeal.Facts₀.bcast_S_S800000 i

theorem maxDeg_apply (dst : (⟨Cert.KernelIdeal.S800000, .i32⟩ : BufTy).Contents (Elt Ideal)) (p : Fin 50000) : maxDeg dst (ix1 p) = max (degOf dst (ix1 p)) 1 :=
  max_splat_one_apply (degOf dst) Cert.KernelIdeal.Facts₀.bcast_S_S50000 (ix1 p)

theorem maxDeg_ne (dst : (⟨Cert.KernelIdeal.S800000, .i32⟩ : BufTy).Contents (Elt Ideal)) (p : Fin 50000) : maxDeg dst (ix1 p) ≠ 0 := by
  rw [maxDeg_apply]; exact max_one_ne_zero _

theorem isR_dcol (dst : (⟨Cert.KernelIdeal.S800000, .i32⟩ : BufTy).Contents (Elt Ideal)) (j : Cert.KernelIdeal.S50000x1.Idx) : IsR (colOf (invDeg dst) j) :=
  isR_invCol (degOf dst) (isR_deg dst) Cert.KernelIdeal.Facts₀.bcast_S_S50000 Cert.KernelIdeal.Facts₀.shapeCasts_S50000_S50000x1 j

theorem isR_agg (h : (⟨Cert.KernelIdeal.S50000x128, .f32⟩ : BufTy).Contents (Elt Ideal)) (hh : ∀ j, IsR (h j)) (src dst : (⟨Cert.KernelIdeal.S800000, .i32⟩ : BufTy).Contents (Elt Ideal)) (j : Cert.KernelIdeal.S50000x128.Idx) :
    IsR (aggOf h src dst j) :=
  isR_aggRows (N := 50000) (E := 800000) (C := 128) (by norm_num) Cert.KernelIdeal.Facts₀.gather_S50000x128_S800000x1_S800000x128_1_0_n_n_0_1_1128_wf
    Cert.KernelIdeal.Facts₀.scatter_S50000x128_S800000x1_S800000x128_1_0_0_1_wf Cert.KernelIdeal.Facts₀.bcast_S_S50000x128 h hh (srcCol src) (idxCol dst) j

theorem isR_tr (W : (⟨Cert.KernelIdeal.S128x128, .f32⟩ : BufTy).Contents (Elt Ideal)) (hW : ∀ j, IsR (W j)) (j : Cert.KernelIdeal.S128x128.Idx) : IsR (tr W j) := by
  obtain ⟨p, q, rfl⟩ : ∃ (p q : Fin 128), j = ix2 p q := ⟨j 0, j 1, eq_ix2 j⟩
  unfold tr; rw [transpose_ix2_apply W _ p q]; exact hW _

theorem isR_tr64 (W : (⟨Cert.KernelIdeal.S64x128, .f32⟩ : BufTy).Contents (Elt Ideal)) (hW : ∀ j, IsR (W j)) (j : Cert.KernelIdeal.S128x64.Idx) : IsR (tr64 W j) := by
  obtain ⟨p, q, rfl⟩ : ∃ (p : Fin 128) (q : Fin 64), j = ix2 p q := ⟨j 0, j 1, eq_ix2 j⟩
  unfold tr64; rw [transpose_ix2_apply W _ p q]; exact hW _

theorem isR_row1 (v : (⟨Cert.KernelIdeal.S128, .f32⟩ : BufTy).Contents (Elt Ideal)) (hv : ∀ j, IsR (v j)) (j : Cert.KernelIdeal.S1x128.Idx) : IsR (row1 v j) := by
  obtain ⟨u, q, rfl⟩ : ∃ (u : Fin 1) (q : Fin 128), j = ix2 u q := ⟨j 0, j 1, eq_ix2 j⟩
  unfold row1; rw [shapeCast_a_1a_apply v _ u q]; exact hv _

theorem isR_row1_64 (v : (⟨Cert.KernelIdeal.S64, .f32⟩ : BufTy).Contents (Elt Ideal)) (hv : ∀ j, IsR (v j)) (j : Cert.KernelIdeal.S1x64.Idx) : IsR (row1_64 v j) := by
  obtain ⟨u, q, rfl⟩ : ∃ (u : Fin 1) (q : Fin 64), j = ix2 u q := ⟨j 0, j 1, eq_ix2 j⟩
  unfold row1_64; rw [shapeCast_a_1a_apply v _ u q]; exact hv _

theorem nodes_apply (q : Fin 128) : nodes (F := Ideal) (ix1 q) = ((50000 : ℝ) : EReal) := by
  unfold nodes; rw [splat_apply, ofBits_nodes]

theorem isR_meanK (S : (⟨Cert.KernelIdeal.S1x128, .f32⟩ : BufTy).Contents (Elt Ideal)) (hS : ∀ j, IsR (S j)) (j : Cert.KernelIdeal.S128.Idx) : IsR (meanK S j) := by
  obtain ⟨q, rfl⟩ : ∃ q : Fin 128, j = ix1 q := ⟨j 0, eq_ix1 j⟩
  unfold meanK
  show IsR (Ideal.div (shapeCast Cert.KernelIdeal.S128 S Cert.KernelIdeal.Facts₀.shapeCasts_S1x128_S128 (ix1 q)) (nodes (F := Ideal) (ix1 q)))
  rw [nodes_apply, shapeCast_1a_a_apply S _ q]
  exact (hS _).div_coe (by norm_num)

theorem isR_varK (S Q : (⟨Cert.KernelIdeal.S1x128, .f32⟩ : BufTy).Contents (Elt Ideal)) (hS : ∀ j, IsR (S j)) (hQ : ∀ j, IsR (Q j)) (j : Cert.KernelIdeal.S128.Idx) : IsR (varK S Q j) := by
  obtain ⟨q, rfl⟩ : ∃ q : Fin 128, j = ix1 q := ⟨j 0, eq_ix1 j⟩
  unfold varK
  show IsR (max (Ideal.div (shapeCast Cert.KernelIdeal.S128 Q Cert.KernelIdeal.Facts₀.shapeCasts_S1x128_S128 (ix1 q)) (nodes (F := Ideal) (ix1 q)) - meanK S (ix1 q) * meanK S (ix1 q))
    (broadcastInDim Cert.KernelIdeal.S128 ![] Cert.KernelIdeal.Facts₀.bcast_S_S128 (constant (F := Ideal) Cert.KernelIdeal.S_ .f32 0x00000000#32) (ix1 q)))
  rw [nodes_apply, shapeCast_1a_a_apply Q _ q, splat_apply, Ideal.ofBits_zero_f32]
  exact (((hQ _).div_coe (by norm_num)).sub ((isR_meanK S hS _).mul (isR_meanK S hS _))).max IsR.zero

theorem isR_colSum (L : (Mat 50000 128).Idx → EReal) (hL : ∀ j, IsR (L j)) (j : (Mat 1 128).Idx) : IsR (colSum L j) :=
  IsR.sum _ _ fun n _ => hL _
theorem isR_colSumSq (L : (Mat 50000 128).Idx → EReal) (hL : ∀ j, IsR (L j)) (j : (Mat 1 128).Idx) : IsR (colSumSq L j) :=
  IsR.sum _ _ fun n _ => (hL _).mul (hL _)

theorem isR_linK (h : (⟨Cert.KernelIdeal.S50000x128, .f32⟩ : BufTy).Contents (Elt Ideal)) (hh : ∀ j, IsR (h j)) (x1 : (⟨Cert.KernelIdeal.S2x800000, .i32⟩ : BufTy).Contents (Elt Ideal))
    (Wl : (⟨Cert.KernelIdeal.S128x128, .f32⟩ : BufTy).Contents (Elt Ideal)) (hWl : ∀ j, IsR (Wl j)) (bl : (⟨Cert.KernelIdeal.S128, .f32⟩ : BufTy).Contents (Elt Ideal)) (hbl : ∀ j, IsR (bl j))
    (Wr : (⟨Cert.KernelIdeal.S128x128, .f32⟩ : BufTy).Contents (Elt Ideal)) (hWr : ∀ j, IsR (Wr j)) (i : Cert.KernelIdeal.S50000x128.Idx) : IsR (linK h x1 Wl bl Wr i) := by
  unfold linK
  exact isR_lin (isR_agg h hh _ _) (isR_dcol _) hh (isR_tr Wl hWl) (isR_row1 bl hbl) (isR_tr Wr hWr) i

theorem isR_hidK (L : (Mat 50000 128).Idx → EReal) (hL : ∀ j, IsR (L j)) (g be : (⟨Cert.KernelIdeal.S128, .f32⟩ : BufTy).Contents (Elt Ideal))
    (hg : ∀ j, IsR (g j)) (hbe : ∀ j, IsR (be j)) (i : (Mat 50000 128).Idx) : IsR (hidK L g be i) := by
  unfold hidK
  exact isR_bnRelu hL (isR_row1 _ (isR_meanK _ (isR_colSum L hL))) (isR_row1 _ (isR_varK _ _ (isR_colSum L hL) (isR_colSumSq L hL)))
    (isR_row1 g hg) (isR_row1 be hbe) i

/-! ## The layers -/

theorem linK_eq (h : (⟨Cert.KernelIdeal.S50000x128, .f32⟩ : BufTy).Contents (Elt Ideal)) (x1 : (⟨Cert.KernelIdeal.S2x800000, .i32⟩ : BufTy).Contents (Elt Ideal)) (Wl : (⟨Cert.KernelIdeal.S128x128, .f32⟩ : BufTy).Contents (Elt Ideal))
    (bl : (⟨Cert.KernelIdeal.S128, .f32⟩ : BufTy).Contents (Elt Ideal)) (Wr : (⟨Cert.KernelIdeal.S128x128, .f32⟩ : BufTy).Contents (Elt Ideal)) :
    linK h x1 Wl bl Wr = Cert.ReferenceIdeal.RefRun.linOf h (Cert.ReferenceIdeal.RefRun.srcOf x1) (Cert.ReferenceIdeal.RefRun.dstOf x1) Wl bl Wr := by
  unfold linK Cert.ReferenceIdeal.RefRun.linOf Cert.ReferenceIdeal.RefRun.meanAgg Cert.ReferenceIdeal.RefRun.row
  exact (hostLin_eq contr128 (aggOf h (srcOf x1) (dstOf x1)) h (maxDeg (dstOf x1)) (maxDeg_ne _) _ _ bl
    Cert.ReferenceIdeal.Facts₀.bcast_S50000_S50000x1_0 Cert.ReferenceIdeal.Facts₀.bcast_S50000x1_S50000x128_0_1 Cert.ReferenceIdeal.Facts₀.bcast_S128_S1x128_1 Cert.ReferenceIdeal.Facts₀.bcast_S1x128_S50000x128_0_1
    Cert.KernelIdeal.Facts₀.bcast_S_S50000 Cert.KernelIdeal.Facts₀.shapeCasts_S50000_S50000x1 Cert.KernelIdeal.Facts₀.shapeCasts_S128_S1x128).symm

theorem hidK_eq (L : (Mat 50000 128).Idx → EReal) (hL : ∀ j, IsR (L j)) (g be : (⟨Cert.KernelIdeal.S128, .f32⟩ : BufTy).Contents (Elt Ideal)) :
    hidK L g be = Cert.ReferenceIdeal.RefRun.bnOf L g be := by
  unfold hidK Cert.ReferenceIdeal.RefRun.bnOf
  refine Eq.symm ?_
  exact hostBn_eq L hL g be (colSum L) (colSumSq L) rfl rfl 0x47435000#32 50000 ofBits_nodes (by norm_num) (by norm_num)
    Cert.ReferenceIdeal.Facts₀.reducesTo_S50000x128_S128_d0 (by decide) Cert.ReferenceIdeal.Facts₀.h_S_ Cert.ReferenceIdeal.Facts₀.bcast_S_S128 Cert.ReferenceIdeal.Facts₀.bcast_S_S50000x128 Cert.ReferenceIdeal.Facts₀.bcast_S128_S1x128_1
    Cert.ReferenceIdeal.Facts₀.bcast_S1x128_S50000x128_0_1 Cert.KernelIdeal.Facts₀.shapeCasts_S128_S1x128 Cert.KernelIdeal.Facts₀.shapeCasts_S1x128_S128

theorem outK_eq (h : (⟨Cert.KernelIdeal.S50000x128, .f32⟩ : BufTy).Contents (Elt Ideal)) (hh : ∀ j, IsR (h j)) (x1 : (⟨Cert.KernelIdeal.S2x800000, .i32⟩ : BufTy).Contents (Elt Ideal))
    (Wl Wr : (⟨Cert.KernelIdeal.S64x128, .f32⟩ : BufTy).Contents (Elt Ideal)) (hWl : ∀ j, IsR (Wl j)) (bl : (⟨Cert.KernelIdeal.S64, .f32⟩ : BufTy).Contents (Elt Ideal)) :
    outK h x1 Wl Wr bl = Cert.ReferenceIdeal.RefRun.softOf (Cert.ReferenceIdeal.RefRun.lin2Of h (Cert.ReferenceIdeal.RefRun.srcOf x1) (Cert.ReferenceIdeal.RefRun.dstOf x1) Wl bl Wr) := by
  have e1 : ∀ Lg : (⟨Cert.KernelIdeal.S50000x64, .f32⟩ : BufTy).Contents (Elt Ideal), Cert.ReferenceIdeal.RefRun.softOf Lg = rowSoft (R := 50000) (N := 64) Lg := fun Lg => by
    unfold Cert.ReferenceIdeal.RefRun.softOf Cert.ReferenceIdeal.RefRun.expOf Cert.ReferenceIdeal.RefRun.col64
    exact hostSoft_eq Lg Cert.ReferenceIdeal.Facts₀.reducesTo_S50000x64_S50000_d1 (by decide) Cert.ReferenceIdeal.Facts₀.h_S_ Cert.ReferenceIdeal.Facts₀.bcast_S_S50000 Cert.ReferenceIdeal.Facts₀.bcast_S50000_S50000x1_0
      Cert.ReferenceIdeal.Facts₀.bcast_S50000x1_S50000x64_0_1
  have e2 : Cert.ReferenceIdeal.RefRun.lin2Of h (Cert.ReferenceIdeal.RefRun.srcOf x1) (Cert.ReferenceIdeal.RefRun.dstOf x1) Wl bl Wr
      = lin (R := 50000) (K := 128) (N := 64) (aggOf h (srcOf x1) (dstOf x1)) (colOf (invDeg (dstOf x1))) h (tr64 Wl) (row1_64 bl) (tr64 Wr) := by
    unfold Cert.ReferenceIdeal.RefRun.lin2Of Cert.ReferenceIdeal.RefRun.meanAgg
    exact hostLin_eq contr64 (aggOf h (srcOf x1) (dstOf x1)) h (maxDeg (dstOf x1)) (maxDeg_ne _) _ _ bl
      Cert.ReferenceIdeal.Facts₀.bcast_S50000_S50000x1_0 Cert.ReferenceIdeal.Facts₀.bcast_S50000x1_S50000x128_0_1 Cert.ReferenceIdeal.Facts₀.bcast_S64_S1x64_1 Cert.ReferenceIdeal.Facts₀.bcast_S1x64_S50000x64_0_1
      Cert.KernelIdeal.Facts₀.bcast_S_S50000 Cert.KernelIdeal.Facts₀.shapeCasts_S50000_S50000x1 Cert.KernelIdeal.Facts₀.shapeCasts_S64_S1x64
  rw [e1, e2]
  unfold outK
  refine congrArg (rowSoft (R := 50000) (N := 64)) (funext fun i => ?_)
  unfold logits lin
  refine congrArg₂ (· + ·) (congrArg₂ (· + ·) ?_ rfl) rfl
  exact agg_exchange (N := 50000) (E := 800000) (K := 128) (M := 64) (by norm_num)
    Cert.KernelIdeal.Facts₀.gather_S50000x128_S800000x1_S800000x128_1_0_n_n_0_1_1128_wf Cert.KernelIdeal.Facts₀.scatter_S50000x128_S800000x1_S800000x128_1_0_0_1_wf Cert.KernelIdeal.Facts₀.bcast_S_S50000x128
    Cert.KernelIdeal.Facts₀.gather_S50000x64_S800000x1_S800000x64_1_0_n_n_0_1_164_wf Cert.KernelIdeal.Facts₀.scatter_S50000x64_S800000x1_S800000x64_1_0_0_1_wf Cert.KernelIdeal.Facts₀.bcast_S_S50000x64
    h hh (tr64 Wl) (isR_tr64 Wl hWl) (colOf (invDeg (dstOf x1))) (isR_dcol _) (srcCol (srcOf x1)) (idxCol (dstOf x1)) i

/-! ## The network -/

theorem kerNet_eq (x0 : (⟨Cert.KernelIdeal.S50000x128, .f32⟩ : BufTy).Contents (Elt Ideal)) (x1 : (⟨Cert.KernelIdeal.S2x800000, .i32⟩ : BufTy).Contents (Elt Ideal))
    (x2 : (⟨Cert.KernelIdeal.S128x128, .f32⟩ : BufTy).Contents (Elt Ideal)) (x3 : (⟨Cert.KernelIdeal.S128, .f32⟩ : BufTy).Contents (Elt Ideal)) (x4 : (⟨Cert.KernelIdeal.S128x128, .f32⟩ : BufTy).Contents (Elt Ideal))
    (x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal))
    (x8 : (⟨Cert.KernelIdeal.S64x128, .f32⟩ : BufTy).Contents (Elt Ideal)) (x9 : (⟨Cert.KernelIdeal.S64, .f32⟩ : BufTy).Contents (Elt Ideal)) (x10 : (⟨Cert.KernelIdeal.S64x128, .f32⟩ : BufTy).Contents (Elt Ideal))
    (x11 x12 x13 x14 : (⟨Cert.KernelIdeal.S128, .f32⟩ : BufTy).Contents (Elt Ideal))
    (h0 : ∀ j, IsR (x0 j)) (h2 : ∀ j, IsR (x2 j)) (h3 : ∀ j, IsR (x3 j)) (h4 : ∀ j, IsR (x4 j)) (h5 : ∀ j, IsR (x5 j))
    (h6 : ∀ j, IsR (x6 j)) (h7 : ∀ j, IsR (x7 j)) (h8 : ∀ j, IsR (x8 j)) (h11 : ∀ j, IsR (x11 j)) (h12 : ∀ j, IsR (x12 j))
    (h13 : ∀ j, IsR (x13 j)) (h14 : ∀ j, IsR (x14 j)) :
    kerNet x0 x1 x2 x3 x4 x5 x6 x7 x8 x9 x10 x11 x12 x13 x14
      = Cert.ReferenceIdeal.RefRun.refNet x0 x1 x2 x3 x4 x5 x6 x7 x8 x9 x10 x11 x12 x13 x14 := by
  have r0 : ∀ j, IsR (linK x0 x1 x2 x3 x4 j) := isR_linK x0 h0 x1 x2 h2 x3 h3 x4 h4
  have e1 : hidK (linK x0 x1 x2 x3 x4) x11 x12 = Cert.ReferenceIdeal.RefRun.hid1 x0 x1 x2 x3 x4 x11 x12 := by
    unfold Cert.ReferenceIdeal.RefRun.hid1; rw [hidK_eq _ r0, linK_eq]
  have r1 : ∀ j, IsR (hidK (linK x0 x1 x2 x3 x4) x11 x12 j) := isR_hidK _ r0 x11 x12 h11 h12
  have r2 : ∀ j, IsR (linK (hidK (linK x0 x1 x2 x3 x4) x11 x12) x1 x5 x6 x7 j) := isR_linK _ r1 x1 x5 h5 x6 h6 x7 h7
  have r3 : ∀ j, IsR (hidK (linK (hidK (linK x0 x1 x2 x3 x4) x11 x12) x1 x5 x6 x7) x13 x14 j) := isR_hidK _ r2 x13 x14 h13 h14
  unfold kerNet Cert.ReferenceIdeal.RefRun.refNet
  rw [outK_eq _ r3 x1 x8 x10 h8 x9, hidK_eq _ r2, linK_eq, e1]

end Cert.Bridge

end
-- ==== Proof.PreReal.lean ====
/-
  The precondition, decoded: every entry of every float argument is a real number.

  The stated precondition is a conjunction, over the fourteen float arguments, of "for every entry, its absolute
  value is below plus infinity", each spelt as a comparison against the splat of the float word of plus infinity,
  folded by `and` from `true` over every axis. On the extended reals the absolute value of an entry is the larger of
  the entry and its negation; it is below the top element exactly when the entry is neither infinity, that is, when
  it is (the image of) a real number. One general lemma reads one such conjunct for an array of any shape; the
  theorem splits the chain of conjunctions and applies it to each argument.
-/
import proofs.«126719_j90941637525590_2_alg».proof.Pre_finite_inputs
import proofs.«126719_j90941637525590_2_alg».proof.Proof.LibVariance
import Idealize.ShloMosaic.Lib.ReduceAll
import Idealize.ShloMosaic.Lib.Pipeline.Value
import Idealize.ShloMosaic.Lib.ValueIdx
import Idealize.ShloMosaic.PureOps.Ideal.Laws

noncomputable section

namespace Cert.PreReal

open Idealize.ShloMosaic Idealize.ShloMosaic.ValueIdx
open Cert.Pre_finite_inputs Cert.BnAlgebra

/-- The result of a reduction over every axis has one index. -/
instance subsingleton_S_ : Subsingleton S_.Idx := ⟨fun a b => funext fun d => d.elim0⟩

/-- The float word of plus infinity reads as the top of the extended reals. -/
theorem ofBits_inf : Ideal.ofBits .f32 0x7F800000#32 = (⊤ : EReal) := by simp [Ideal.ofBits, Ideal.ieee]

/-- An extended real whose absolute value is below plus infinity is a real number. -/
theorem isR_of_abs_lt_top (x : EReal) (h : max x (-x) < ⊤) : IsR x := by
  induction x using EReal.rec with
  | bot => exact absurd h (by simp)
  | top => exact absurd h (by simp)
  | coe a => exact IsR.coe a

/-- ALL FINITE: if the conjunction over every entry of "the absolute value is below plus infinity" is true, every
    entry is a real number. -/
theorem isR_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (j : s.Idx) : IsR (x j) := by
  have h1 := Host.reduce_andi_all _ _ hr hu ix0 e j
  have hc : broadcastInDim s ![] hb (constant (F := Ideal) S_ .f32 0x7F800000#32) j = (⊤ : EReal) :=
    (broadcastInDim_apply ![] hb _ j ix0 fun a => a.elim0).trans ofBits_inf
  have h2 : Ideal.cmp .olt (max (x j) (-(x j))) (broadcastInDim s ![] hb (constant (F := Ideal) S_ .f32 0x7F800000#32) j) = 1#1 := h1
  rw [hc] at h2
  refine isR_of_abs_lt_top (x j) ?_
  by_contra hn
  have : Ideal.cmp .olt (max (x j) (-(x j))) ⊤ = 0#1 := by
    show BitVec.ofBool (decide (max (x j) (-(x j)) < ⊤)) = 0#1
    rw [decide_eq_false hn]; rfl
  rw [this] at h2
  exact absurd h2 (by decide)

/-- A conjunction of two one-index truth values is true only if both are. -/
theorem andi_true {a b : IVec S_ 1} (h : andi a b ix0 = 1#1) : a ix0 = 1#1 ∧ b ix0 = 1#1 := IntOp.andi_eq_one.1 h

/-- THE PRECONDITION DECODED: the predicate is the conjunction, over the fourteen float arguments, of "every entry's
    absolute value is below plus infinity"; where it holds, every entry of every float argument is a real number. (The
    second argument is the integer edge array: nothing is asked of it.) -/
theorem real_inputs [Cert.Pre_finite_inputs.Facts] (x0 : FVec Ideal S50000x128 .f32) (x1 : IVec S2x800000 32)
    (x2 : FVec Ideal S128x128 .f32) (x3 : FVec Ideal S128 .f32) (x4 : FVec Ideal S128x128 .f32) (x5 : FVec Ideal S128x128 .f32)
    (x6 : FVec Ideal S128 .f32) (x7 : FVec Ideal S128x128 .f32) (x8 : FVec Ideal S64x128 .f32) (x9 : FVec Ideal S64 .f32)
    (x10 : FVec Ideal S64x128 .f32) (x11 : FVec Ideal S128 .f32) (x12 : FVec Ideal S128 .f32) (x13 : FVec Ideal S128 .f32)
    (x14 : FVec Ideal S128 .f32)
    (h : Cert.Pre_finite_inputs.fn (F := Ideal) x0 x1 x2 x3 x4 x5 x6 x7 x8 x9 x10 x11 x12 x13 x14 = fun _ => 1#1) :
    (∀ j, IsR (x0 j)) ∧ (∀ j, IsR (x2 j)) ∧ (∀ j, IsR (x3 j)) ∧ (∀ j, IsR (x4 j)) ∧ (∀ j, IsR (x5 j)) ∧ (∀ j, IsR (x6 j))
      ∧ (∀ j, IsR (x7 j)) ∧ (∀ j, IsR (x8 j)) ∧ (∀ j, IsR (x9 j)) ∧ (∀ j, IsR (x10 j)) ∧ (∀ j, IsR (x11 j)) ∧ (∀ j, IsR (x12 j))
      ∧ (∀ j, IsR (x13 j)) ∧ (∀ j, IsR (x14 j)) := by
  have h0 := congrFun h ix0
  dsimp only [fn, fn_part1, fn_part2, fn_part3, fn_part4] at h0
  obtain ⟨h0, e14⟩ := andi_true h0
  obtain ⟨h0, e13⟩ := andi_true h0
  obtain ⟨h0, e12⟩ := andi_true h0
  obtain ⟨h0, e11⟩ := andi_true h0
  obtain ⟨h0, e10⟩ := andi_true h0
  obtain ⟨h0, e9⟩ := andi_true h0
  obtain ⟨h0, e8⟩ := andi_true h0
  obtain ⟨h0, e7⟩ := andi_true h0
  obtain ⟨h0, e6⟩ := andi_true h0
  obtain ⟨h0, e5⟩ := andi_true h0
  obtain ⟨h0, e4⟩ := andi_true h0
  obtain ⟨h0, e3⟩ := andi_true h0
  obtain ⟨e0, e2⟩ := andi_true h0
  exact ⟨isR_of_all x0 _ _ _ e0, isR_of_all x2 _ _ _ e2, isR_of_all x3 _ _ _ e3, isR_of_all x4 _ _ _ e4,
    isR_of_all x5 _ _ _ e5, isR_of_all x6 _ _ _ e6, isR_of_all x7 _ _ _ e7, isR_of_all x8 _ _ _ e8,
    isR_of_all x9 _ _ _ e9, isR_of_all x10 _ _ _ e10, isR_of_all x11 _ _ _ e11, isR_of_all x12 _ _ _ e12,
    isR_of_all x13 _ _ _ e13, isR_of_all x14 _ _ _ e14⟩

end Cert.PreReal

end
-- ==== Proof.lean ====
/-
  The certificate: a three-layer mean-aggregating graph network written with six Pallas kernels against its plain
  reference.
  Frames. The two printed kernels' frames are the generated ones. The reference has no kernel: its frame is its run
  (every weakly fair execution of its 183 host operations terminates with each buffer at the fold of the operations
  over the launch memory, which no operation lets touch an argument).
  The idealization rewrote nothing, so there is nothing to preserve.
  The algebraic claim. At the extended reals the kernel's result is `kerNet` of its arguments (the contents followed
  through the six regions and six host stretches) and the reference's is `refNet` of its own; on arguments that agree
  and whose float entries are finite — the precondition — the two networks are one function: the dense updates agree
  with no finiteness at all, the normalisations agree because for real entries the mean of squares minus the squared
  mean IS the mean squared deviation, and the last layer's early product agrees because aggregation is linear.
-/
import proofs.«126719_j90941637525590_2_alg».proof.Defs
import proofs.«126719_j90941637525590_2_alg».proof.Proof.Gen.Kernel
import proofs.«126719_j90941637525590_2_alg».proof.Proof.Gen.Kernel.Skeleton
import proofs.«126719_j90941637525590_2_alg».proof.Proof.Gen.Kernel.Launch
import proofs.«126719_j90941637525590_2_alg».proof.Proof.Gen.Kernel.Points
import proofs.«126719_j90941637525590_2_alg».proof.Proof.Gen.Kernel.Frame
import proofs.«126719_j90941637525590_2_alg».proof.Proof.Gen.KernelIdeal
import proofs.«126719_j90941637525590_2_alg».proof.Proof.Gen.KernelIdeal.Skeleton
import proofs.«126719_j90941637525590_2_alg».proof.Proof.Gen.KernelIdeal.Launch
import proofs.«126719_j90941637525590_2_alg».proof.Proof.Gen.KernelIdeal.Points
import proofs.«126719_j90941637525590_2_alg».proof.Proof.Gen.KernelIdeal.Frame
import proofs.«126719_j90941637525590_2_alg».proof.Proof.Gen.ReferenceIdeal
import proofs.«126719_j90941637525590_2_alg».proof.Proof.Gen.Pre_finite_inputs
import proofs.«126719_j90941637525590_2_alg».proof.Proof.KRun
import proofs.«126719_j90941637525590_2_alg».proof.Proof.KChain
import proofs.«126719_j90941637525590_2_alg».proof.Proof.RefChain
import proofs.«126719_j90941637525590_2_alg».proof.Proof.Bridge
import proofs.«126719_j90941637525590_2_alg».proof.Proof.PreReal
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run_value (F := Ideal) m ρ)

/-- The kernel's result is `kerNet` of its arguments; the reference's is `refNet` of its own; on finite arguments that
    agree the two are equal. -/
theorem algebraic : Cert.algebraic_KernelIdeal_ReferenceIdeal := by
  intro m ρ m' ρ' hpre hagree
  refine ⟨fun c => Cert.KernelIdeal.KNet.kerNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (Cert.KernelIdeal.KChain.W12_main_v87 m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.RefRun.run_value (F := Ideal) m' ρ')
    obtain ⟨a0, a1, a2, a3, a4, a5, a6, a7, a8, a9, a10, a11, a12, a13, a14⟩ := hagree c
    rw [a0, a1, a2, a3, a4, a5, a6, a7, a8, a9, a10, a11, a12, a13, a14]
    obtain ⟨r0, r2, r3, r4, r5, r6, r7, r8, r9, r10, r11, r12, r13, r14⟩ := Cert.PreReal.real_inputs _ _ _ _ _ _ _ _ _ _ _ _ _ _ _ (hpre c)
    show _ = Cert.KernelIdeal.KNet.kerNet _ _ _ _ _ _ _ _ _ _ _ _ _ _ _
    exact (Cert.Bridge.kerNet_eq _ _ _ _ _ _ _ _ _ _ _ _ _ _ _ r0 r2 r3 r4 r5 r6 r7 r8 r11 r12 r13 r14).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
